-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 999#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x1000 : Shape := ⟨2, ![16384, 1000]⟩
abbrev S16384 : Shape := ⟨1, ![16384]⟩
abbrev S2048x8x1000 : Shape := ⟨3, ![2048, 8, 1000]⟩
abbrev S512 : Shape := ⟨1, ![512]⟩
abbrev S2x8x1000 : Shape := ⟨3, ![2, 8, 1000]⟩
abbrev S_ : Shape := ⟨0, ![]⟩
abbrev S16 : Shape := ⟨1, ![16]⟩

abbrev nBuf : Table → Nat
  | .hbm => 4
  | .local .scVector .vmem => 6
  | _ => 0

abbrev bufTy : (tb : Table) → Fin (nBuf tb) → BufTy
  | .hbm, ⟨0, _⟩ => ⟨S16384x1000, .f32⟩
  | .hbm, ⟨1, _⟩ => ⟨S16384, .i32⟩
  | .hbm, ⟨2, _⟩ => ⟨S2048x8x1000, .f32⟩
  | .hbm, ⟨3, _⟩ => ⟨S16384, .f32⟩
  | .local .scVector .vmem, ⟨0, _⟩ => ⟨S512, .i32⟩
  | .local .scVector .vmem, ⟨1, _⟩ => ⟨S2x8x1000, .f32⟩
  | .local .scVector .vmem, ⟨2, _⟩ => ⟨S2x8x1000, .f32⟩
  | .local .scVector .vmem, ⟨3, _⟩ => ⟨S2x8x1000, .f32⟩
  | .local .scVector .vmem, ⟨4, _⟩ => ⟨S2x8x1000, .f32⟩
  | .local .scVector .vmem, ⟨5, _⟩ => ⟨S512, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v4 : BitVec 32 := Scalar.addi v3 c0_i32
  let c0_i32_0 : BitVec 32 := 0#32
  let c0_i32_1 : BitVec 32 := 0#32
  ![v4.toNat, 0, 0]

def k0_chk1 (v18 : IVec S16 32) (v23 : IVec S16 32) (v25 : IVec S16 32) : Prop :=
  (∀ a x, ((![v23, v25, v18] : Fin 3 → IVec S16 32) a x).toNat < S2x8x1000.size a)
instance k0_chk1.dec : ∀ (v18 : IVec S16 32) (v23 : IVec S16 32) (v25 : IVec S16 32), Decidable (k0_chk1 v18 v23 v25) := fun v18 v23 v25 => decidable_of_iff' _ (Iff.of_eq (k0_chk1.eq_1 v18 v23 v25))
theorem k0_idx1_inb : ∀ (v18 : IVec S16 32) (v23 : IVec S16 32) (v25 : IVec S16 32) (k0_hw1 : k0_chk1 v18 v23 v25), ∀ a x, ((![v23, v25, v18] : Fin 3 → IVec S16 32) a x).toNat < S2x8x1000.size a := fun v18 v23 v25 k0_hw1 => k0_hw1
def k0_off3 (i : grid0.Coords) (c8_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v28 : BitVec 32 := Scalar.addi v3 c8_i32
  let c0_i32_23 : BitVec 32 := 0#32
  let c0_i32_24 : BitVec 32 := 0#32
  ![v28.toNat, 0, 0]

def k0_chk2 (v33 : IVec S16 32) (v38 : IVec S16 32) (v40 : IVec S16 32) : Prop :=
  (∀ a x, ((![v38, v40, v33] : Fin 3 → IVec S16 32) a x).toNat < S2x8x1000.size a)
instance k0_chk2.dec : ∀ (v33 : IVec S16 32) (v38 : IVec S16 32) (v40 : IVec S16 32), Decidable (k0_chk2 v33 v38 v40) := fun v33 v38 v40 => decidable_of_iff' _ (Iff.of_eq (k0_chk2.eq_1 v33 v38 v40))
theorem k0_idx2_inb : ∀ (v33 : IVec S16 32) (v38 : IVec S16 32) (v40 : IVec S16 32) (k0_hw2 : k0_chk2 v33 v38 v40), ∀ a x, ((![v38, v40, v33] : Fin 3 → IVec S16 32) a x).toNat < S2x8x1000.size a := fun v33 v38 v40 k0_hw2 => k0_hw2
def k0_off4 (i : grid0.Coords) (c10_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v43 : BitVec 32 := Scalar.addi v3 c10_i32
  let c0_i32_35 : BitVec 32 := 0#32
  let c0_i32_36 : BitVec 32 := 0#32
  ![v43.toNat, 0, 0]

def k0_chk3 (v48 : IVec S16 32) (v53 : IVec S16 32) (v55 : IVec S16 32) : Prop :=
  (∀ a x, ((![v53, v55, v48] : Fin 3 → IVec S16 32) a x).toNat < S2x8x1000.size a)
instance k0_chk3.dec : ∀ (v48 : IVec S16 32) (v53 : IVec S16 32) (v55 : IVec S16 32), Decidable (k0_chk3 v48 v53 v55) := fun v48 v53 v55 => decidable_of_iff' _ (Iff.of_eq (k0_chk3.eq_1 v48 v53 v55))
theorem k0_idx3_inb : ∀ (v48 : IVec S16 32) (v53 : IVec S16 32) (v55 : IVec S16 32) (k0_hw3 : k0_chk3 v48 v53 v55), ∀ a x, ((![v53, v55, v48] : Fin 3 → IVec S16 32) a x).toNat < S2x8x1000.size a := fun v48 v53 v55 k0_hw3 => k0_hw3
def k0_off5 (i : grid0.Coords) (c12_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v58 : BitVec 32 := Scalar.addi v3 c12_i32
  let c0_i32_47 : BitVec 32 := 0#32
  let c0_i32_48 : BitVec 32 := 0#32
  ![v58.toNat, 0, 0]

def k0_chk4 (v63 : IVec S16 32) (v68 : IVec S16 32) (v70 : IVec S16 32) : Prop :=
  (∀ a x, ((![v68, v70, v63] : Fin 3 → IVec S16 32) a x).toNat < S2x8x1000.size a)
instance k0_chk4.dec : ∀ (v63 : IVec S16 32) (v68 : IVec S16 32) (v70 : IVec S16 32), Decidable (k0_chk4 v63 v68 v70) := fun v63 v68 v70 => decidable_of_iff' _ (Iff.of_eq (k0_chk4.eq_1 v63 v68 v70))
theorem k0_idx4_inb : ∀ (v63 : IVec S16 32) (v68 : IVec S16 32) (v70 : IVec S16 32) (k0_hw4 : k0_chk4 v63 v68 v70), ∀ a x, ((![v68, v70, v63] : Fin 3 → IVec S16 32) a x).toNat < S2x8x1000.size a := fun v63 v68 v70 k0_hw4 => k0_hw4
def k0_off6 (i : grid0.Coords) (c14_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v73 : BitVec 32 := Scalar.addi v3 c14_i32
  let c0_i32_59 : BitVec 32 := 0#32
  let c0_i32_60 : BitVec 32 := 0#32
  ![v73.toNat, 0, 0]

def k0_chk5 (v78 : IVec S16 32) (v83 : IVec S16 32) (v85 : IVec S16 32) : Prop :=
  (∀ a x, ((![v83, v85, v78] : Fin 3 → IVec S16 32) a x).toNat < S2x8x1000.size a)
instance k0_chk5.dec : ∀ (v78 : IVec S16 32) (v83 : IVec S16 32) (v85 : IVec S16 32), Decidable (k0_chk5 v78 v83 v85) := fun v78 v83 v85 => decidable_of_iff' _ (Iff.of_eq (k0_chk5.eq_1 v78 v83 v85))
theorem k0_idx5_inb : ∀ (v78 : IVec S16 32) (v83 : IVec S16 32) (v85 : IVec S16 32) (k0_hw5 : k0_chk5 v78 v83 v85), ∀ a x, ((![v83, v85, v78] : Fin 3 → IVec S16 32) a x).toNat < S2x8x1000.size a := fun v78 v83 v85 k0_hw5 => k0_hw5
def k0_off7 (i : grid0.Coords) (c16_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v88 : BitVec 32 := Scalar.addi v3 c16_i32
  let c0_i32_71 : BitVec 32 := 0#32
  let c0_i32_72 : BitVec 32 := 0#32
  ![v88.toNat, 0, 0]

def k0_chk6 (v93 : IVec S16 32) (v98 : IVec S16 32) (v100 : IVec S16 32) : Prop :=
  (∀ a x, ((![v98, v100, v93] : Fin 3 → IVec S16 32) a x).toNat < S2x8x1000.size a)
instance k0_chk6.dec : ∀ (v93 : IVec S16 32) (v98 : IVec S16 32) (v100 : IVec S16 32), Decidable (k0_chk6 v93 v98 v100) := fun v93 v98 v100 => decidable_of_iff' _ (Iff.of_eq (k0_chk6.eq_1 v93 v98 v100))
theorem k0_idx6_inb : ∀ (v93 : IVec S16 32) (v98 : IVec S16 32) (v100 : IVec S16 32) (k0_hw6 : k0_chk6 v93 v98 v100), ∀ a x, ((![v98, v100, v93] : Fin 3 → IVec S16 32) a x).toNat < S2x8x1000.size a := fun v93 v98 v100 k0_hw6 => k0_hw6
def k0_off8 (i : grid0.Coords) (c18_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v103 : BitVec 32 := Scalar.addi v3 c18_i32
  let c0_i32_83 : BitVec 32 := 0#32
  let c0_i32_84 : BitVec 32 := 0#32
  ![v103.toNat, 0, 0]

def k0_chk7 (v108 : IVec S16 32) (v113 : IVec S16 32) (v115 : IVec S16 32) : Prop :=
  (∀ a x, ((![v113, v115, v108] : Fin 3 → IVec S16 32) a x).toNat < S2x8x1000.size a)
instance k0_chk7.dec : ∀ (v108 : IVec S16 32) (v113 : IVec S16 32) (v115 : IVec S16 32), Decidable (k0_chk7 v108 v113 v115) := fun v108 v113 v115 => decidable_of_iff' _ (Iff.of_eq (k0_chk7.eq_1 v108 v113 v115))
theorem k0_idx7_inb : ∀ (v108 : IVec S16 32) (v113 : IVec S16 32) (v115 : IVec S16 32) (k0_hw7 : k0_chk7 v108 v113 v115), ∀ a x, ((![v113, v115, v108] : Fin 3 → IVec S16 32) a x).toNat < S2x8x1000.size a := fun v108 v113 v115 k0_hw7 => k0_hw7
def k0_off9 (i : grid0.Coords) (c20_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v118 : BitVec 32 := Scalar.addi v3 c20_i32
  let c0_i32_95 : BitVec 32 := 0#32
  let c0_i32_96 : BitVec 32 := 0#32
  ![v118.toNat, 0, 0]

def k0_chk8 (v123 : IVec S16 32) (v128 : IVec S16 32) (v130 : IVec S16 32) : Prop :=
  (∀ a x, ((![v128, v130, v123] : Fin 3 → IVec S16 32) a x).toNat < S2x8x1000.size a)
instance k0_chk8.dec : ∀ (v123 : IVec S16 32) (v128 : IVec S16 32) (v130 : IVec S16 32), Decidable (k0_chk8 v123 v128 v130) := fun v123 v128 v130 => decidable_of_iff' _ (Iff.of_eq (k0_chk8.eq_1 v123 v128 v130))
theorem k0_idx8_inb : ∀ (v123 : IVec S16 32) (v128 : IVec S16 32) (v130 : IVec S16 32) (k0_hw8 : k0_chk8 v123 v128 v130), ∀ a x, ((![v128, v130, v123] : Fin 3 → IVec S16 32) a x).toNat < S2x8x1000.size a := fun v123 v128 v130 k0_hw8 => k0_hw8
def k0_off10 (i : grid0.Coords) (c22_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v133 : BitVec 32 := Scalar.addi v3 c22_i32
  let c0_i32_107 : BitVec 32 := 0#32
  let c0_i32_108 : BitVec 32 := 0#32
  ![v133.toNat, 0, 0]

def k0_chk9 (v138 : IVec S16 32) (v143 : IVec S16 32) (v145 : IVec S16 32) : Prop :=
  (∀ a x, ((![v143, v145, v138] : Fin 3 → IVec S16 32) a x).toNat < S2x8x1000.size a)
instance k0_chk9.dec : ∀ (v138 : IVec S16 32) (v143 : IVec S16 32) (v145 : IVec S16 32), Decidable (k0_chk9 v138 v143 v145) := fun v138 v143 v145 => decidable_of_iff' _ (Iff.of_eq (k0_chk9.eq_1 v138 v143 v145))
theorem k0_idx9_inb : ∀ (v138 : IVec S16 32) (v143 : IVec S16 32) (v145 : IVec S16 32) (k0_hw9 : k0_chk9 v138 v143 v145), ∀ a x, ((![v143, v145, v138] : Fin 3 → IVec S16 32) a x).toNat < S2x8x1000.size a := fun v138 v143 v145 k0_hw9 => k0_hw9
def k0_off11 (i : grid0.Coords) (c24_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v148 : BitVec 32 := Scalar.addi v3 c24_i32
  let c0_i32_119 : BitVec 32 := 0#32
  let c0_i32_120 : BitVec 32 := 0#32
  ![v148.toNat, 0, 0]

def k0_chk10 (v153 : IVec S16 32) (v158 : IVec S16 32) (v160 : IVec S16 32) : Prop :=
  (∀ a x, ((![v158, v160, v153] : Fin 3 → IVec S16 32) a x).toNat < S2x8x1000.size a)
instance k0_chk10.dec : ∀ (v153 : IVec S16 32) (v158 : IVec S16 32) (v160 : IVec S16 32), Decidable (k0_chk10 v153 v158 v160) := fun v153 v158 v160 => decidable_of_iff' _ (Iff.of_eq (k0_chk10.eq_1 v153 v158 v160))
theorem k0_idx10_inb : ∀ (v153 : IVec S16 32) (v158 : IVec S16 32) (v160 : IVec S16 32) (k0_hw10 : k0_chk10 v153 v158 v160), ∀ a x, ((![v158, v160, v153] : Fin 3 → IVec S16 32) a x).toNat < S2x8x1000.size a := fun v153 v158 v160 k0_hw10 => k0_hw10
def k0_off12 (i : grid0.Coords) (c26_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v163 : BitVec 32 := Scalar.addi v3 c26_i32
  let c0_i32_131 : BitVec 32 := 0#32
  let c0_i32_132 : BitVec 32 := 0#32
  ![v163.toNat, 0, 0]

def k0_chk11 (v168 : IVec S16 32) (v173 : IVec S16 32) (v175 : IVec S16 32) : Prop :=
  (∀ a x, ((![v173, v175, v168] : Fin 3 → IVec S16 32) a x).toNat < S2x8x1000.size a)
instance k0_chk11.dec : ∀ (v168 : IVec S16 32) (v173 : IVec S16 32) (v175 : IVec S16 32), Decidable (k0_chk11 v168 v173 v175) := fun v168 v173 v175 => decidable_of_iff' _ (Iff.of_eq (k0_chk11.eq_1 v168 v173 v175))
theorem k0_idx11_inb : ∀ (v168 : IVec S16 32) (v173 : IVec S16 32) (v175 : IVec S16 32) (k0_hw11 : k0_chk11 v168 v173 v175), ∀ a x, ((![v173, v175, v168] : Fin 3 → IVec S16 32) a x).toNat < S2x8x1000.size a := fun v168 v173 v175 k0_hw11 => k0_hw11
def k0_off13 (i : grid0.Coords) (c28_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v178 : BitVec 32 := Scalar.addi v3 c28_i32
  let c0_i32_143 : BitVec 32 := 0#32
  let c0_i32_144 : BitVec 32 := 0#32
  ![v178.toNat, 0, 0]

def k0_chk12 (v183 : IVec S16 32) (v188 : IVec S16 32) (v190 : IVec S16 32) : Prop :=
  (∀ a x, ((![v188, v190, v183] : Fin 3 → IVec S16 32) a x).toNat < S2x8x1000.size a)
instance k0_chk12.dec : ∀ (v183 : IVec S16 32) (v188 : IVec S16 32) (v190 : IVec S16 32), Decidable (k0_chk12 v183 v188 v190) := fun v183 v188 v190 => decidable_of_iff' _ (Iff.of_eq (k0_chk12.eq_1 v183 v188 v190))
theorem k0_idx12_inb : ∀ (v183 : IVec S16 32) (v188 : IVec S16 32) (v190 : IVec S16 32) (k0_hw12 : k0_chk12 v183 v188 v190), ∀ a x, ((![v188, v190, v183] : Fin 3 → IVec S16 32) a x).toNat < S2x8x1000.size a := fun v183 v188 v190 k0_hw12 => k0_hw12
def k0_off14 (i : grid0.Coords) (c30_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v193 : BitVec 32 := Scalar.addi v3 c30_i32
  let c0_i32_155 : BitVec 32 := 0#32
  let c0_i32_156 : BitVec 32 := 0#32
  ![v193.toNat, 0, 0]

def k0_chk13 (v198 : IVec S16 32) (v203 : IVec S16 32) (v205 : IVec S16 32) : Prop :=
  (∀ a x, ((![v203, v205, v198] : Fin 3 → IVec S16 32) a x).toNat < S2x8x1000.size a)
instance k0_chk13.dec : ∀ (v198 : IVec S16 32) (v203 : IVec S16 32) (v205 : IVec S16 32), Decidable (k0_chk13 v198 v203 v205) := fun v198 v203 v205 => decidable_of_iff' _ (Iff.of_eq (k0_chk13.eq_1 v198 v203 v205))
theorem k0_idx13_inb : ∀ (v198 : IVec S16 32) (v203 : IVec S16 32) (v205 : IVec S16 32) (k0_hw13 : k0_chk13 v198 v203 v205), ∀ a x, ((![v203, v205, v198] : Fin 3 → IVec S16 32) a x).toNat < S2x8x1000.size a := fun v198 v203 v205 k0_hw13 => k0_hw13
def k0_off15 (i : grid0.Coords) (c32_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v208 : BitVec 32 := Scalar.addi v3 c32_i32
  let c0_i32_167 : BitVec 32 := 0#32
  let c0_i32_168 : BitVec 32 := 0#32
  ![v208.toNat, 0, 0]

def k0_chk14 (v213 : IVec S16 32) (v218 : IVec S16 32) (v220 : IVec S16 32) : Prop :=
  (∀ a x, ((![v218, v220, v213] : Fin 3 → IVec S16 32) a x).toNat < S2x8x1000.size a)
instance k0_chk14.dec : ∀ (v213 : IVec S16 32) (v218 : IVec S16 32) (v220 : IVec S16 32), Decidable (k0_chk14 v213 v218 v220) := fun v213 v218 v220 => decidable_of_iff' _ (Iff.of_eq (k0_chk14.eq_1 v213 v218 v220))
theorem k0_idx14_inb : ∀ (v213 : IVec S16 32) (v218 : IVec S16 32) (v220 : IVec S16 32) (k0_hw14 : k0_chk14 v213 v218 v220), ∀ a x, ((![v218, v220, v213] : Fin 3 → IVec S16 32) a x).toNat < S2x8x1000.size a := fun v213 v218 v220 k0_hw14 => k0_hw14
def k0_off16 (i : grid0.Coords) (c34_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v223 : BitVec 32 := Scalar.addi v3 c34_i32
  let c0_i32_179 : BitVec 32 := 0#32
  let c0_i32_180 : BitVec 32 := 0#32
  ![v223.toNat, 0, 0]

def k0_chk15 (v228 : IVec S16 32) (v233 : IVec S16 32) (v235 : IVec S16 32) : Prop :=
  (∀ a x, ((![v233, v235, v228] : Fin 3 → IVec S16 32) a x).toNat < S2x8x1000.size a)
instance k0_chk15.dec : ∀ (v228 : IVec S16 32) (v233 : IVec S16 32) (v235 : IVec S16 32), Decidable (k0_chk15 v228 v233 v235) := fun v228 v233 v235 => decidable_of_iff' _ (Iff.of_eq (k0_chk15.eq_1 v228 v233 v235))
theorem k0_idx15_inb : ∀ (v228 : IVec S16 32) (v233 : IVec S16 32) (v235 : IVec S16 32) (k0_hw15 : k0_chk15 v228 v233 v235), ∀ a x, ((![v233, v235, v228] : Fin 3 → IVec S16 32) a x).toNat < S2x8x1000.size a := fun v228 v233 v235 k0_hw15 => k0_hw15
def k0_off17 (i : grid0.Coords) (c36_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v238 : BitVec 32 := Scalar.addi v3 c36_i32
  let c0_i32_191 : BitVec 32 := 0#32
  let c0_i32_192 : BitVec 32 := 0#32
  ![v238.toNat, 0, 0]

def k0_chk16 (v243 : IVec S16 32) (v248 : IVec S16 32) (v250 : IVec S16 32) : Prop :=
  (∀ a x, ((![v248, v250, v243] : Fin 3 → IVec S16 32) a x).toNat < S2x8x1000.size a)
instance k0_chk16.dec : ∀ (v243 : IVec S16 32) (v248 : IVec S16 32) (v250 : IVec S16 32), Decidable (k0_chk16 v243 v248 v250) := fun v243 v248 v250 => decidable_of_iff' _ (Iff.of_eq (k0_chk16.eq_1 v243 v248 v250))
theorem k0_idx16_inb : ∀ (v243 : IVec S16 32) (v248 : IVec S16 32) (v250 : IVec S16 32) (k0_hw16 : k0_chk16 v243 v248 v250), ∀ a x, ((![v248, v250, v243] : Fin 3 → IVec S16 32) a x).toNat < S2x8x1000.size a := fun v243 v248 v250 k0_hw16 => k0_hw16
def k0_off18 (i : grid0.Coords) (c38_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v253 : BitVec 32 := Scalar.addi v3 c38_i32
  let c0_i32_203 : BitVec 32 := 0#32
  let c0_i32_204 : BitVec 32 := 0#32
  ![v253.toNat, 0, 0]

def k0_chk17 (v258 : IVec S16 32) (v263 : IVec S16 32) (v265 : IVec S16 32) : Prop :=
  (∀ a x, ((![v263, v265, v258] : Fin 3 → IVec S16 32) a x).toNat < S2x8x1000.size a)
instance k0_chk17.dec : ∀ (v258 : IVec S16 32) (v263 : IVec S16 32) (v265 : IVec S16 32), Decidable (k0_chk17 v258 v263 v265) := fun v258 v263 v265 => decidable_of_iff' _ (Iff.of_eq (k0_chk17.eq_1 v258 v263 v265))
theorem k0_idx17_inb : ∀ (v258 : IVec S16 32) (v263 : IVec S16 32) (v265 : IVec S16 32) (k0_hw17 : k0_chk17 v258 v263 v265), ∀ a x, ((![v263, v265, v258] : Fin 3 → IVec S16 32) a x).toNat < S2x8x1000.size a := fun v258 v263 v265 k0_hw17 => k0_hw17
def k0_off19 (i : grid0.Coords) (c40_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v268 : BitVec 32 := Scalar.addi v3 c40_i32
  let c0_i32_215 : BitVec 32 := 0#32
  let c0_i32_216 : BitVec 32 := 0#32
  ![v268.toNat, 0, 0]

def k0_chk18 (v273 : IVec S16 32) (v278 : IVec S16 32) (v280 : IVec S16 32) : Prop :=
  (∀ a x, ((![v278, v280, v273] : Fin 3 → IVec S16 32) a x).toNat < S2x8x1000.size a)
instance k0_chk18.dec : ∀ (v273 : IVec S16 32) (v278 : IVec S16 32) (v280 : IVec S16 32), Decidable (k0_chk18 v273 v278 v280) := fun v273 v278 v280 => decidable_of_iff' _ (Iff.of_eq (k0_chk18.eq_1 v273 v278 v280))
theorem k0_idx18_inb : ∀ (v273 : IVec S16 32) (v278 : IVec S16 32) (v280 : IVec S16 32) (k0_hw18 : k0_chk18 v273 v278 v280), ∀ a x, ((![v278, v280, v273] : Fin 3 → IVec S16 32) a x).toNat < S2x8x1000.size a := fun v273 v278 v280 k0_hw18 => k0_hw18
def k0_off20 (i : grid0.Coords) (c42_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v283 : BitVec 32 := Scalar.addi v3 c42_i32
  let c0_i32_227 : BitVec 32 := 0#32
  let c0_i32_228 : BitVec 32 := 0#32
  ![v283.toNat, 0, 0]

def k0_chk19 (v288 : IVec S16 32) (v293 : IVec S16 32) (v295 : IVec S16 32) : Prop :=
  (∀ a x, ((![v293, v295, v288] : Fin 3 → IVec S16 32) a x).toNat < S2x8x1000.size a)
instance k0_chk19.dec : ∀ (v288 : IVec S16 32) (v293 : IVec S16 32) (v295 : IVec S16 32), Decidable (k0_chk19 v288 v293 v295) := fun v288 v293 v295 => decidable_of_iff' _ (Iff.of_eq (k0_chk19.eq_1 v288 v293 v295))
theorem k0_idx19_inb : ∀ (v288 : IVec S16 32) (v293 : IVec S16 32) (v295 : IVec S16 32) (k0_hw19 : k0_chk19 v288 v293 v295), ∀ a x, ((![v293, v295, v288] : Fin 3 → IVec S16 32) a x).toNat < S2x8x1000.size a := fun v288 v293 v295 k0_hw19 => k0_hw19
def k0_off21 (i : grid0.Coords) (c44_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v298 : BitVec 32 := Scalar.addi v3 c44_i32
  let c0_i32_239 : BitVec 32 := 0#32
  let c0_i32_240 : BitVec 32 := 0#32
  ![v298.toNat, 0, 0]

def k0_chk20 (v303 : IVec S16 32) (v308 : IVec S16 32) (v310 : IVec S16 32) : Prop :=
  (∀ a x, ((![v308, v310, v303] : Fin 3 → IVec S16 32) a x).toNat < S2x8x1000.size a)
instance k0_chk20.dec : ∀ (v303 : IVec S16 32) (v308 : IVec S16 32) (v310 : IVec S16 32), Decidable (k0_chk20 v303 v308 v310) := fun v303 v308 v310 => decidable_of_iff' _ (Iff.of_eq (k0_chk20.eq_1 v303 v308 v310))
theorem k0_idx20_inb : ∀ (v303 : IVec S16 32) (v308 : IVec S16 32) (v310 : IVec S16 32) (k0_hw20 : k0_chk20 v303 v308 v310), ∀ a x, ((![v308, v310, v303] : Fin 3 → IVec S16 32) a x).toNat < S2x8x1000.size a := fun v303 v308 v310 k0_hw20 => k0_hw20
def k0_off22 (i : grid0.Coords) (c46_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v313 : BitVec 32 := Scalar.addi v3 c46_i32
  let c0_i32_251 : BitVec 32 := 0#32
  let c0_i32_252 : BitVec 32 := 0#32
  ![v313.toNat, 0, 0]

def k0_chk21 (v318 : IVec S16 32) (v323 : IVec S16 32) (v325 : IVec S16 32) : Prop :=
  (∀ a x, ((![v323, v325, v318] : Fin 3 → IVec S16 32) a x).toNat < S2x8x1000.size a)
instance k0_chk21.dec : ∀ (v318 : IVec S16 32) (v323 : IVec S16 32) (v325 : IVec S16 32), Decidable (k0_chk21 v318 v323 v325) := fun v318 v323 v325 => decidable_of_iff' _ (Iff.of_eq (k0_chk21.eq_1 v318 v323 v325))
theorem k0_idx21_inb : ∀ (v318 : IVec S16 32) (v323 : IVec S16 32) (v325 : IVec S16 32) (k0_hw21 : k0_chk21 v318 v323 v325), ∀ a x, ((![v323, v325, v318] : Fin 3 → IVec S16 32) a x).toNat < S2x8x1000.size a := fun v318 v323 v325 k0_hw21 => k0_hw21
def k0_off23 (i : grid0.Coords) (c48_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v328 : BitVec 32 := Scalar.addi v3 c48_i32
  let c0_i32_263 : BitVec 32 := 0#32
  let c0_i32_264 : BitVec 32 := 0#32
  ![v328.toNat, 0, 0]

def k0_chk22 (v333 : IVec S16 32) (v338 : IVec S16 32) (v340 : IVec S16 32) : Prop :=
  (∀ a x, ((![v338, v340, v333] : Fin 3 → IVec S16 32) a x).toNat < S2x8x1000.size a)
instance k0_chk22.dec : ∀ (v333 : IVec S16 32) (v338 : IVec S16 32) (v340 : IVec S16 32), Decidable (k0_chk22 v333 v338 v340) := fun v333 v338 v340 => decidable_of_iff' _ (Iff.of_eq (k0_chk22.eq_1 v333 v338 v340))
theorem k0_idx22_inb : ∀ (v333 : IVec S16 32) (v338 : IVec S16 32) (v340 : IVec S16 32) (k0_hw22 : k0_chk22 v333 v338 v340), ∀ a x, ((![v338, v340, v333] : Fin 3 → IVec S16 32) a x).toNat < S2x8x1000.size a := fun v333 v338 v340 k0_hw22 => k0_hw22
def k0_off24 (i : grid0.Coords) (c50_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v343 : BitVec 32 := Scalar.addi v3 c50_i32
  let c0_i32_275 : BitVec 32 := 0#32
  let c0_i32_276 : BitVec 32 := 0#32
  ![v343.toNat, 0, 0]

def k0_chk23 (v348 : IVec S16 32) (v353 : IVec S16 32) (v355 : IVec S16 32) : Prop :=
  (∀ a x, ((![v353, v355, v348] : Fin 3 → IVec S16 32) a x).toNat < S2x8x1000.size a)
instance k0_chk23.dec : ∀ (v348 : IVec S16 32) (v353 : IVec S16 32) (v355 : IVec S16 32), Decidable (k0_chk23 v348 v353 v355) := fun v348 v353 v355 => decidable_of_iff' _ (Iff.of_eq (k0_chk23.eq_1 v348 v353 v355))
theorem k0_idx23_inb : ∀ (v348 : IVec S16 32) (v353 : IVec S16 32) (v355 : IVec S16 32) (k0_hw23 : k0_chk23 v348 v353 v355), ∀ a x, ((![v353, v355, v348] : Fin 3 → IVec S16 32) a x).toNat < S2x8x1000.size a := fun v348 v353 v355 k0_hw23 => k0_hw23
def k0_off25 (i : grid0.Coords) (c52_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v358 : BitVec 32 := Scalar.addi v3 c52_i32
  let c0_i32_287 : BitVec 32 := 0#32
  let c0_i32_288 : BitVec 32 := 0#32
  ![v358.toNat, 0, 0]

def k0_chk24 (v363 : IVec S16 32) (v368 : IVec S16 32) (v370 : IVec S16 32) : Prop :=
  (∀ a x, ((![v368, v370, v363] : Fin 3 → IVec S16 32) a x).toNat < S2x8x1000.size a)
instance k0_chk24.dec : ∀ (v363 : IVec S16 32) (v368 : IVec S16 32) (v370 : IVec S16 32), Decidable (k0_chk24 v363 v368 v370) := fun v363 v368 v370 => decidable_of_iff' _ (Iff.of_eq (k0_chk24.eq_1 v363 v368 v370))
theorem k0_idx24_inb : ∀ (v363 : IVec S16 32) (v368 : IVec S16 32) (v370 : IVec S16 32) (k0_hw24 : k0_chk24 v363 v368 v370), ∀ a x, ((![v368, v370, v363] : Fin 3 → IVec S16 32) a x).toNat < S2x8x1000.size a := fun v363 v368 v370 k0_hw24 => k0_hw24
def k0_off26 (i : grid0.Coords) (c54_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v373 : BitVec 32 := Scalar.addi v3 c54_i32
  let c0_i32_299 : BitVec 32 := 0#32
  let c0_i32_300 : BitVec 32 := 0#32
  ![v373.toNat, 0, 0]

def k0_chk25 (v378 : IVec S16 32) (v383 : IVec S16 32) (v385 : IVec S16 32) : Prop :=
  (∀ a x, ((![v383, v385, v378] : Fin 3 → IVec S16 32) a x).toNat < S2x8x1000.size a)
instance k0_chk25.dec : ∀ (v378 : IVec S16 32) (v383 : IVec S16 32) (v385 : IVec S16 32), Decidable (k0_chk25 v378 v383 v385) := fun v378 v383 v385 => decidable_of_iff' _ (Iff.of_eq (k0_chk25.eq_1 v378 v383 v385))
theorem k0_idx25_inb : ∀ (v378 : IVec S16 32) (v383 : IVec S16 32) (v385 : IVec S16 32) (k0_hw25 : k0_chk25 v378 v383 v385), ∀ a x, ((![v383, v385, v378] : Fin 3 → IVec S16 32) a x).toNat < S2x8x1000.size a := fun v378 v383 v385 k0_hw25 => k0_hw25
def k0_off27 (i : grid0.Coords) (c56_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v388 : BitVec 32 := Scalar.addi v3 c56_i32
  let c0_i32_311 : BitVec 32 := 0#32
  let c0_i32_312 : BitVec 32 := 0#32
  ![v388.toNat, 0, 0]

def k0_chk26 (v393 : IVec S16 32) (v398 : IVec S16 32) (v400 : IVec S16 32) : Prop :=
  (∀ a x, ((![v398, v400, v393] : Fin 3 → IVec S16 32) a x).toNat < S2x8x1000.size a)
instance k0_chk26.dec : ∀ (v393 : IVec S16 32) (v398 : IVec S16 32) (v400 : IVec S16 32), Decidable (k0_chk26 v393 v398 v400) := fun v393 v398 v400 => decidable_of_iff' _ (Iff.of_eq (k0_chk26.eq_1 v393 v398 v400))
theorem k0_idx26_inb : ∀ (v393 : IVec S16 32) (v398 : IVec S16 32) (v400 : IVec S16 32) (k0_hw26 : k0_chk26 v393 v398 v400), ∀ a x, ((![v398, v400, v393] : Fin 3 → IVec S16 32) a x).toNat < S2x8x1000.size a := fun v393 v398 v400 k0_hw26 => k0_hw26
def k0_off28 (i : grid0.Coords) (c58_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v403 : BitVec 32 := Scalar.addi v3 c58_i32
  let c0_i32_323 : BitVec 32 := 0#32
  let c0_i32_324 : BitVec 32 := 0#32
  ![v403.toNat, 0, 0]

def k0_chk27 (v408 : IVec S16 32) (v413 : IVec S16 32) (v415 : IVec S16 32) : Prop :=
  (∀ a x, ((![v413, v415, v408] : Fin 3 → IVec S16 32) a x).toNat < S2x8x1000.size a)
instance k0_chk27.dec : ∀ (v408 : IVec S16 32) (v413 : IVec S16 32) (v415 : IVec S16 32), Decidable (k0_chk27 v408 v413 v415) := fun v408 v413 v415 => decidable_of_iff' _ (Iff.of_eq (k0_chk27.eq_1 v408 v413 v415))
theorem k0_idx27_inb : ∀ (v408 : IVec S16 32) (v413 : IVec S16 32) (v415 : IVec S16 32) (k0_hw27 : k0_chk27 v408 v413 v415), ∀ a x, ((![v413, v415, v408] : Fin 3 → IVec S16 32) a x).toNat < S2x8x1000.size a := fun v408 v413 v415 k0_hw27 => k0_hw27
def k0_off29 (i : grid0.Coords) (c60_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v418 : BitVec 32 := Scalar.addi v3 c60_i32
  let c0_i32_335 : BitVec 32 := 0#32
  let c0_i32_336 : BitVec 32 := 0#32
  ![v418.toNat, 0, 0]

def k0_chk28 (v423 : IVec S16 32) (v428 : IVec S16 32) (v430 : IVec S16 32) : Prop :=
  (∀ a x, ((![v428, v430, v423] : Fin 3 → IVec S16 32) a x).toNat < S2x8x1000.size a)
instance k0_chk28.dec : ∀ (v423 : IVec S16 32) (v428 : IVec S16 32) (v430 : IVec S16 32), Decidable (k0_chk28 v423 v428 v430) := fun v423 v428 v430 => decidable_of_iff' _ (Iff.of_eq (k0_chk28.eq_1 v423 v428 v430))
theorem k0_idx28_inb : ∀ (v423 : IVec S16 32) (v428 : IVec S16 32) (v430 : IVec S16 32) (k0_hw28 : k0_chk28 v423 v428 v430), ∀ a x, ((![v428, v430, v423] : Fin 3 → IVec S16 32) a x).toNat < S2x8x1000.size a := fun v423 v428 v430 k0_hw28 => k0_hw28
def k0_off30 (i : grid0.Coords) (c62_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v433 : BitVec 32 := Scalar.addi v3 c62_i32
  let c0_i32_347 : BitVec 32 := 0#32
  let c0_i32_348 : BitVec 32 := 0#32
  ![v433.toNat, 0, 0]

def k0_chk29 (v438 : IVec S16 32) (v443 : IVec S16 32) (v445 : IVec S16 32) : Prop :=
  (∀ a x, ((![v443, v445, v438] : Fin 3 → IVec S16 32) a x).toNat < S2x8x1000.size a)
instance k0_chk29.dec : ∀ (v438 : IVec S16 32) (v443 : IVec S16 32) (v445 : IVec S16 32), Decidable (k0_chk29 v438 v443 v445) := fun v438 v443 v445 => decidable_of_iff' _ (Iff.of_eq (k0_chk29.eq_1 v438 v443 v445))
theorem k0_idx29_inb : ∀ (v438 : IVec S16 32) (v443 : IVec S16 32) (v445 : IVec S16 32) (k0_hw29 : k0_chk29 v438 v443 v445), ∀ a x, ((![v443, v445, v438] : Fin 3 → IVec S16 32) a x).toNat < S2x8x1000.size a := fun v438 v443 v445 k0_hw29 => k0_hw29
def k0_off31 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c58_i32 : BitVec 32 := 58#32
  let v403 : BitVec 32 := Scalar.addi v3 c58_i32
  let c0_i32_359 : BitVec 32 := 0#32
  let c0_i32_360 : BitVec 32 := 0#32
  ![v403.toNat, 0, 0]

def k0_chk30 (v450 : IVec S16 32) (v455 : IVec S16 32) (v457 : IVec S16 32) : Prop :=
  (∀ a x, ((![v455, v457, v450] : Fin 3 → IVec S16 32) a x).toNat < S2x8x1000.size a)
instance k0_chk30.dec : ∀ (v450 : IVec S16 32) (v455 : IVec S16 32) (v457 : IVec S16 32), Decidable (k0_chk30 v450 v455 v457) := fun v450 v455 v457 => decidable_of_iff' _ (Iff.of_eq (k0_chk30.eq_1 v450 v455 v457))
theorem k0_idx30_inb : ∀ (v450 : IVec S16 32) (v455 : IVec S16 32) (v457 : IVec S16 32) (k0_hw30 : k0_chk30 v450 v455 v457), ∀ a x, ((![v455, v457, v450] : Fin 3 → IVec S16 32) a x).toNat < S2x8x1000.size a := fun v450 v455 v457 k0_hw30 => k0_hw30
def k0_off32 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c60_i32 : BitVec 32 := 60#32
  let v418 : BitVec 32 := Scalar.addi v3 c60_i32
  let c0_i32_367 : BitVec 32 := 0#32
  let c0_i32_368 : BitVec 32 := 0#32
  ![v418.toNat, 0, 0]

def k0_chk31 (v462 : IVec S16 32) (v467 : IVec S16 32) (v469 : IVec S16 32) : Prop :=
  (∀ a x, ((![v467, v469, v462] : Fin 3 → IVec S16 32) a x).toNat < S2x8x1000.size a)
instance k0_chk31.dec : ∀ (v462 : IVec S16 32) (v467 : IVec S16 32) (v469 : IVec S16 32), Decidable (k0_chk31 v462 v467 v469) := fun v462 v467 v469 => decidable_of_iff' _ (Iff.of_eq (k0_chk31.eq_1 v462 v467 v469))
theorem k0_idx31_inb : ∀ (v462 : IVec S16 32) (v467 : IVec S16 32) (v469 : IVec S16 32) (k0_hw31 : k0_chk31 v462 v467 v469), ∀ a x, ((![v467, v469, v462] : Fin 3 → IVec S16 32) a x).toNat < S2x8x1000.size a := fun v462 v467 v469 k0_hw31 => k0_hw31
def k0_off33 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c62_i32 : BitVec 32 := 62#32
  let v433 : BitVec 32 := Scalar.addi v3 c62_i32
  let c0_i32_375 : BitVec 32 := 0#32
  let c0_i32_376 : BitVec 32 := 0#32
  ![v433.toNat, 0, 0]

def k0_chk32 (v474 : IVec S16 32) (v479 : IVec S16 32) (v481 : IVec S16 32) : Prop :=
  (∀ a x, ((![v479, v481, v474] : Fin 3 → IVec S16 32) a x).toNat < S2x8x1000.size a)
instance k0_chk32.dec : ∀ (v474 : IVec S16 32) (v479 : IVec S16 32) (v481 : IVec S16 32), Decidable (k0_chk32 v474 v479 v481) := fun v474 v479 v481 => decidable_of_iff' _ (Iff.of_eq (k0_chk32.eq_1 v474 v479 v481))
theorem k0_idx32_inb : ∀ (v474 : IVec S16 32) (v479 : IVec S16 32) (v481 : IVec S16 32) (k0_hw32 : k0_chk32 v474 v479 v481), ∀ a x, ((![v479, v481, v474] : Fin 3 → IVec S16 32) a x).toNat < S2x8x1000.size a := fun v474 v479 v481 k0_hw32 => k0_hw32
def k0_off34 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x1000_S2048x8x1000 : S16384x1000.ShapeCasts S2048x8x1000
  inb_S512_S16_0 : ∀ a, (![0] : Fin 1 → Nat) a + S16.size a ≤ S512.size a
  h_S16 : 0 < S16.numel
  iota_S16_d0_w32_scVector : S16.Iotas .scVector 32 [0]
  h_S2x8x1000 : 0 < S2x8x1000.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  hcc0_scratch6 : 0 + S_.numel ≤ 6
  hcc0_scratch7 : 1 + S_.numel ≤ 6
  hcc0_scratch8 : 2 + S_.numel ≤ 6
  hcc0_scratch9 : 3 + S_.numel ≤ 6
  hcc0_scoped0 : 4 + S_.numel ≤ 6
  hcc0_scoped1 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 4), ∀ a, (k0_off2 i (BitVec.ofNat 32 (2 * r.val))) a + S2x8x1000.size a ≤ S2048x8x1000.size a
  k0_off3_inb : ∀ i : grid0.Coords, ∀ (r : Fin 2), ∀ a, (k0_off3 i (BitVec.ofNat 32 (2 + 6 * r.val))) a + S2x8x1000.size a ≤ S2048x8x1000.size a
  k0_off4_inb : ∀ i : grid0.Coords, ∀ (r : Fin 2), ∀ a, (k0_off4 i (BitVec.ofNat 32 (4 + 6 * r.val))) a + S2x8x1000.size a ≤ S2048x8x1000.size a
  k0_off5_inb : ∀ i : grid0.Coords, ∀ (r : Fin 2), ∀ a, (k0_off5 i (BitVec.ofNat 32 (6 + 6 * r.val))) a + S2x8x1000.size a ≤ S2048x8x1000.size a
  k0_off6_inb : ∀ i : grid0.Coords, ∀ (r : Fin 2), ∀ a, (k0_off6 i (BitVec.ofNat 32 (8 + 6 * r.val))) a + S2x8x1000.size a ≤ S2048x8x1000.size a
  k0_off7_inb : ∀ i : grid0.Coords, ∀ (r : Fin 2), ∀ a, (k0_off7 i (BitVec.ofNat 32 (10 + 6 * r.val))) a + S2x8x1000.size a ≤ S2048x8x1000.size a
  k0_off8_inb : ∀ i : grid0.Coords, ∀ (r : Fin 2), ∀ a, (k0_off8 i (BitVec.ofNat 32 (12 + 6 * r.val))) a + S2x8x1000.size a ≤ S2048x8x1000.size a
  k0_off9_inb : ∀ i : grid0.Coords, ∀ (r : Fin 2), ∀ a, (k0_off9 i (BitVec.ofNat 32 (14 + 6 * r.val))) a + S2x8x1000.size a ≤ S2048x8x1000.size a
  k0_off10_inb : ∀ i : grid0.Coords, ∀ (r : Fin 2), ∀ a, (k0_off10 i (BitVec.ofNat 32 (16 + 6 * r.val))) a + S2x8x1000.size a ≤ S2048x8x1000.size a
  k0_off11_inb : ∀ i : grid0.Coords, ∀ (r : Fin 2), ∀ a, (k0_off11 i (BitVec.ofNat 32 (18 + 6 * r.val))) a + S2x8x1000.size a ≤ S2048x8x1000.size a
  k0_off12_inb : ∀ i : grid0.Coords, ∀ (r : Fin 2), ∀ a, (k0_off12 i (BitVec.ofNat 32 (20 + 6 * r.val))) a + S2x8x1000.size a ≤ S2048x8x1000.size a
  k0_off13_inb : ∀ i : grid0.Coords, ∀ (r : Fin 2), ∀ a, (k0_off13 i (BitVec.ofNat 32 (22 + 6 * r.val))) a + S2x8x1000.size a ≤ S2048x8x1000.size a
  k0_off14_inb : ∀ i : grid0.Coords, ∀ (r : Fin 2), ∀ a, (k0_off14 i (BitVec.ofNat 32 (24 + 6 * r.val))) a + S2x8x1000.size a ≤ S2048x8x1000.size a
  k0_off15_inb : ∀ i : grid0.Coords, ∀ (r : Fin 2), ∀ a, (k0_off15 i (BitVec.ofNat 32 (26 + 6 * r.val))) a + S2x8x1000.size a ≤ S2048x8x1000.size a
  k0_off16_inb : ∀ i : grid0.Coords, ∀ (r : Fin 2), ∀ a, (k0_off16 i (BitVec.ofNat 32 (28 + 6 * r.val))) a + S2x8x1000.size a ≤ S2048x8x1000.size a
  k0_off17_inb : ∀ i : grid0.Coords, ∀ (r : Fin 2), ∀ a, (k0_off17 i (BitVec.ofNat 32 (30 + 6 * r.val))) a + S2x8x1000.size a ≤ S2048x8x1000.size a
  k0_off18_inb : ∀ i : grid0.Coords, ∀ (r : Fin 2), ∀ a, (k0_off18 i (BitVec.ofNat 32 (32 + 6 * r.val))) a + S2x8x1000.size a ≤ S2048x8x1000.size a
  k0_off19_inb : ∀ i : grid0.Coords, ∀ (r : Fin 2), ∀ a, (k0_off19 i (BitVec.ofNat 32 (34 + 6 * r.val))) a + S2x8x1000.size a ≤ S2048x8x1000.size a
  k0_off20_inb : ∀ i : grid0.Coords, ∀ (r : Fin 2), ∀ a, (k0_off20 i (BitVec.ofNat 32 (36 + 6 * r.val))) a + S2x8x1000.size a ≤ S2048x8x1000.size a
  k0_off21_inb : ∀ i : grid0.Coords, ∀ (r : Fin 2), ∀ a, (k0_off21 i (BitVec.ofNat 32 (38 + 6 * r.val))) a + S2x8x1000.size a ≤ S2048x8x1000.size a
  k0_off22_inb : ∀ i : grid0.Coords, ∀ (r : Fin 2), ∀ a, (k0_off22 i (BitVec.ofNat 32 (40 + 6 * r.val))) a + S2x8x1000.size a ≤ S2048x8x1000.size a
  k0_off23_inb : ∀ i : grid0.Coords, ∀ (r : Fin 2), ∀ a, (k0_off23 i (BitVec.ofNat 32 (42 + 6 * r.val))) a + S2x8x1000.size a ≤ S2048x8x1000.size a
  k0_off24_inb : ∀ i : grid0.Coords, ∀ (r : Fin 2), ∀ a, (k0_off24 i (BitVec.ofNat 32 (44 + 6 * r.val))) a + S2x8x1000.size a ≤ S2048x8x1000.size a
  k0_off25_inb : ∀ i : grid0.Coords, ∀ (r : Fin 2), ∀ a, (k0_off25 i (BitVec.ofNat 32 (46 + 6 * r.val))) a + S2x8x1000.size a ≤ S2048x8x1000.size a
  k0_off26_inb : ∀ i : grid0.Coords, ∀ (r : Fin 2), ∀ a, (k0_off26 i (BitVec.ofNat 32 (48 + 6 * r.val))) a + S2x8x1000.size a ≤ S2048x8x1000.size a
  k0_off27_inb : ∀ i : grid0.Coords, ∀ (r : Fin 2), ∀ a, (k0_off27 i (BitVec.ofNat 32 (50 + 6 * r.val))) a + S2x8x1000.size a ≤ S2048x8x1000.size a
  k0_off28_inb : ∀ i : grid0.Coords, ∀ (r : Fin 2), ∀ a, (k0_off28 i (BitVec.ofNat 32 (52 + 6 * r.val))) a + S2x8x1000.size a ≤ S2048x8x1000.size a
  k0_off29_inb : ∀ i : grid0.Coords, ∀ (r : Fin 2), ∀ a, (k0_off29 i (BitVec.ofNat 32 (54 + 6 * r.val))) a + S2x8x1000.size a ≤ S2048x8x1000.size a
  k0_off30_inb : ∀ i : grid0.Coords, ∀ (r : Fin 2), ∀ a, (k0_off30 i (BitVec.ofNat 32 (56 + 6 * r.val))) a + S2x8x1000.size a ≤ S2048x8x1000.size a
  k0_off31_inb : ∀ i : grid0.Coords, ∀ a, (k0_off31 i) a + S2x8x1000.size a ≤ S2048x8x1000.size a
  k0_off32_inb : ∀ i : grid0.Coords, ∀ a, (k0_off32 i) a + S2x8x1000.size a ≤ S2048x8x1000.size a
  k0_off33_inb : ∀ i : grid0.Coords, ∀ a, (k0_off33 i) a + S2x8x1000.size a ≤ S2048x8x1000.size a
  k0_off34_inb : ∀ i : grid0.Coords, ∀ a, (k0_off34 i) a + S512.size a ≤ S16384.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1

class Facts : Prop extends Facts₀ where

variable [Facts]
-- ==== ReferenceIdeal.lean ====
abbrev S16384x1000 : Shape := ⟨2, ![16384, 1000]⟩
abbrev S16384 : Shape := ⟨1, ![16384]⟩
abbrev S16384x1 : Shape := ⟨2, ![16384, 1]⟩
abbrev S1x1000 : Shape := ⟨2, ![1, 1000]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1, .i32⟩
  | .hbm, ⟨3, _⟩ => ⟨S1x1000, .i32⟩
  | .hbm, ⟨4, _⟩ => ⟨S16384x1000, .i32⟩
  | .hbm, ⟨5, _⟩ => ⟨S16384x1000, .i32⟩
  | .hbm, ⟨6, _⟩ => ⟨S16384x1000, .i1⟩
  | .hbm, ⟨7, _⟩ => ⟨S16384x1000, .f32⟩
  | .hbm, ⟨8, _⟩ => ⟨S16384x1000, .f32⟩
  | .hbm, ⟨9, _⟩ => ⟨S_, .f32⟩
  | .hbm, ⟨10, _⟩ => ⟨S16384, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  reducesTo_S16384x1000_S16384_d1 : S16384x1000.ReducesTo [1] S16384
  h_S_ : 0 < S_.numel

variable [Facts₀]

class Facts : Prop extends Facts₀ where

variable [Facts]
-- ==== Proof.Spec.lean ====
/-
  The function both programs compute, stated once over plain arrays: row `j` of the table read at the column its
  index word names. The kernel moves whole rows through its scratch and picks the column with an indexed load; the
  reference multiplies the row by the column's indicator and sums. With every index word below the row length both are
  the table's entry at (j, index j).
-/
import Idealize.ShloMosaic.Lib.ValueIdx

namespace Cert.Proof.Spec

open Idealize.ShloMosaic Idealize.ShloMosaic.ValueIdx

/-- The table's shape, the index vector's (and the result's) shape. -/
abbrev STab : Shape := ⟨2, ![16384, 1000]⟩
abbrev SVec : Shape := ⟨1, ![16384]⟩

/-- The column an index word names, read as a natural number and reduced into the row's length: total, and the word's
    own value whenever that is below the row length. -/
def col (w : BitVec 32) : Fin 1000 := ⟨w.toNat % 1000, Nat.mod_lt _ (by decide)⟩

theorem col_val_of_lt {w : BitVec 32} (h : w.toNat < 1000) : (col w).val = w.toNat := Nat.mod_eq_of_lt h

/-- Entry (j, col (idx j)) of the table, for every row j. -/
def gatherRow {α : Type} (a : STab.Idx → α) (idx : SVec.Idx → BitVec 32) : SVec.Idx → α :=
  fun j => a (ix2 (j 0) (col (idx j)))

theorem gatherRow_apply {α : Type} (a : STab.Idx → α) (idx : SVec.Idx → BitVec 32) (j : SVec.Idx) :
    gatherRow a idx j = a (ix2 (j 0) (col (idx j))) := rfl

end Cert.Proof.Spec
-- ==== Proof.RefValue.lean ====
/-
  The reference's side of the equivalence. The reference builds, for every row j, the indicator of the column its
  index word names (the word compared for equality with each column number 0 … 999, the one-bit answer read as the
  real 0 or 1), multiplies the table by it entry by entry, and sums each row from 0. On the extended reals 0 · x = 0
  for every x, so no finiteness of the table is needed: with the row's index word below 1000 exactly one term of the
  row's sum survives, the one of the word's own column, with factor 1, and the sum is the table's entry at
  (j, index j) — the function `Spec.gatherRow`. That every index word is below 1000 is read off the precondition:
  its integer half says each word tests, signed, at least 0 and at most 999.
-/
import proofs.«207825_g30013231464886_cont_9to1_638_26_alg».proof.Defs
import proofs.«207825_g30013231464886_cont_9to1_638_26_alg».proof.Proof.Gen.ReferenceIdeal.Run
import proofs.«207825_g30013231464886_cont_9to1_638_26_alg».proof.Proof.Gen.ReferenceIdeal.Read
import proofs.«207825_g30013231464886_cont_9to1_638_26_alg».proof.Proof.Gen.Pre_input_domain
import proofs.«207825_g30013231464886_cont_9to1_638_26_alg».proof.Proof.Spec
import Idealize.ShloMosaic.Lib.ValueIdx
import Idealize.ShloMosaic.Lib.ReduceAll
import Idealize.ShloMosaic.PureOps.Ideal.Laws

noncomputable section

open Idealize.ShloMosaic Idealize.ShloMosaic.TcCoe Idealize.ShloMosaic.ValueIdx Idealize.SL.Sem

namespace Cert.Proof.RefSide

/-- The scalar shape has one index. -/
instance : Subsingleton Cert.Pre_input_domain.S_.Idx := ⟨fun _ _ => funext fun d => d.elim0⟩

/-- A 32-bit word that tests, signed, at least 0 and at most 999 is below 1000 read unsigned. -/
theorem word_lt_of_range (w : BitVec 32)
    (h : IntOp.andi (IntOp.cmpi .sge w 0#32) (IntOp.cmpi .sle w 999#32) = 1#1) : w.toNat < 1000 := by
  obtain ⟨h0, h1⟩ := IntOp.andi_eq_one.1 h
  rw [IntOp.cmpi_sge, show (0#32 : BitVec 32).toInt = 0 from by decide] at h0
  rw [IntOp.cmpi_sle, show (999#32 : BitVec 32).toInt = 999 from by decide] at h1
  have hc := BitVec.toInt_eq_toNat_cond w
  split at hc <;> omega

/-- Every index word is below 1000 when the printed precondition is all ones (generic in the float instance: only its integer half is used). -/
theorem idx_lt_of_pre {F : FTy → Type} [FloatOps F] (a : FVec F Cert.Pre_input_domain.S16384x1000 .f32) (i : IVec Cert.Pre_input_domain.S16384 32)
    (h : Cert.Pre_input_domain.fn (F := F) a i = fun _ => 1#1) : ∀ j, (i j).toNat < 1000 := by
  intro j
  have e := congrFun h ValueIdx.ix0
  dsimp only [Cert.Pre_input_domain.fn] at e
  have e2 := (IntOp.andi_eq_one.1 e).2
  have e3 := Host.reduce_andi_all _ _ _ _ _ e2 j
  exact word_lt_of_range _ e3

open Cert.ReferenceIdeal Cert.ReferenceIdeal.Read

/-- The indicator's word at (row, column k): the comparison of the row's index word with k is the bit 1 when the
    word, read as a natural number, is k … -/
theorem eq_word_one {w : BitVec 32} {k : Fin 1000} (h : w.toNat = k.val) :
    IntOp.cmpi .eq w (BitVec.ofNat 32 k.val) = 1#1 :=
  IntOp.cmpi_eq.2 (BitVec.eq_of_toNat_eq (by rw [BitVec.toNat_ofNat]; have := k.isLt; omega))

/-- … and the bit 0 when it is any other number (k is below 1000, so the 32-bit word of k reads back as k). -/
theorem eq_word_zero {w : BitVec 32} {k : Fin 1000} (h : w.toNat ≠ k.val) :
    IntOp.cmpi .eq w (BitVec.ofNat 32 k.val) = 0#1 :=
  eq_zero_of_ne_one fun e => h (by
    have e' := congrArg BitVec.toNat (IntOp.cmpi_eq.1 e)
    rw [BitVec.toNat_ofNat] at e'
    have := k.isLt; omega)

/-- One term of the reference's row sum: the indicator of "the row's index word is k" times the table's entry. -/
theorem term_apply (x0 : (⟨S16384x1000, .f32⟩ : BufTy).Contents (Elt Ideal)) (x1 : (⟨S16384, .i32⟩ : BufTy).Contents (Elt Ideal))
    (r : Fin 16384) (k : Fin 1000) :
    val_main_v1 (F := Ideal) x0 x1 (idx_main_v2 (ix1 r) k)
      = (((IntOp.cmpi .eq (x1 (ix1 r)) (BitVec.ofNat 32 k.val)).toNat : ℝ) : EReal) * x0 (ix2 r k) := by
  have e0 : idx_main_v2 (ix1 r) k = ix2 r k := funext fun a => Fin.ext (by match a with | ⟨0, _⟩ => rfl | ⟨1, _⟩ => rfl)
  have e1 : idx_main_call0_v0 (idx_main_call0_v2 (ix2 r k)) = ix1 r := funext fun a => Fin.ext (by match a with | ⟨0, _⟩ => rfl)
  rw [e0, val_main_v1_apply, val_main_v0_apply, val_main_call0_v4_apply, val_main_call0_v2_apply, val_main_call0_v0_apply,
    val_main_call0_v3_apply, val_main_call0_v1_apply, e1]
  rfl

/-- Row r of the reference's result: with the row's index word below 1000, only the term of its own column
    survives the sum, with indicator one. -/
theorem ref_row (x0 : (⟨S16384x1000, .f32⟩ : BufTy).Contents (Elt Ideal)) (x1 : (⟨S16384, .i32⟩ : BufTy).Contents (Elt Ideal))
    (r : Fin 16384) (h : (x1 (ix1 r)).toNat < 1000) :
    val_main_v2 (F := Ideal) x0 x1 (ix1 r) = x0 (ix2 r (Spec.col (x1 (ix1 r)))) := by
  rw [val_main_v2_apply, val_main_cst_apply]
  show Ideal.ofBits .f32 0x00000000#32 + _ = _
  rw [Ideal.ofBits_zero_f32, zero_add, Finset.sum_eq_single (⟨(x1 (ix1 r)).toNat, h⟩ : Fin 1000)]
  · rw [term_apply, eq_word_one rfl]
    have ec : (⟨(x1 (ix1 r)).toNat, h⟩ : Fin 1000) = Spec.col (x1 (ix1 r)) := Fin.ext (Spec.col_val_of_lt h).symm
    rw [ec]
    show (((1 : ℕ) : ℝ) : EReal) * _ = _
    rw [Nat.cast_one, EReal.coe_one, one_mul]
  · intro k _ hk
    rw [term_apply, eq_word_zero (fun e => hk (Fin.ext e.symm))]
    show (((0 : ℕ) : ℝ) : EReal) * _ = _
    rw [Nat.cast_zero, EReal.coe_zero, zero_mul]
  · intro hn; exact absurd (Finset.mem_univ _) hn

/-- The reference's result is the gathered column of every row, when every index word is below 1000. -/
theorem ref_value (x0 : (⟨S16384x1000, .f32⟩ : BufTy).Contents (Elt Ideal)) (x1 : (⟨S16384, .i32⟩ : BufTy).Contents (Elt Ideal))
    (h : ∀ j, (x1 j).toNat < 1000) :
    val_main_v2 (F := Ideal) x0 x1 = Spec.gatherRow x0 x1 := by
  funext j
  obtain ⟨r, rfl⟩ : ∃ r : Fin 16384, j = ix1 r := ⟨j 0, eq_ix1 j⟩
  exact ref_row x0 x1 r (h _)

/-- The reference's run: under the precondition every weakly fair execution ends with the result at gatherRow of the arguments, the arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg)
    (hpre : Cert.Pre_ReferenceIdeal m') :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v2)
          = Cert.Proof.Spec.gatherRow (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v2_eq _ _).trans (ref_value _ _ (idx_lt_of_pre _ _ (hpre c)))), (h c).2⟩)
    (Cert.ReferenceIdeal.Value.run (F := Ideal) m' ρ')

/-- The reference runs and leaves its arguments unchanged: the run above with the value dropped. -/
theorem frame_ri : Cert.frame_ReferenceIdeal := fun m ρ hpre =>
  (θ_run Cert.ReferenceIdeal.defs _ _).mono (fun _ h c => (h c).2) (ref_run m ρ hpre)

end Cert.Proof.RefSide

end
-- ==== Proof.SetupI.lean ====
/-
  What the launch of the gather kernel carries, stated once for the body, the launch and the claims to share.
  The table is handed to the thirty-two vector subcores as READ SHARES of the whole reshaped array (every subcore copies
  blocks of it, several copies in flight at once), the index vector likewise; the result array is cut into thirty-two
  consecutive runs of 512 entries, run number 2·s + c to subcore s of SparseCore c, each handed over exclusively and
  handed back holding the ONE whole-array function of the specification on its run.
-/
import proofs.«207825_g30013231464886_cont_9to1_638_26_alg».proof.Defs
import proofs.«207825_g30013231464886_cont_9to1_638_26_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Value
import Idealize.ShloMosaic.Lib.Tactic
import proofs.«207825_g30013231464886_cont_9to1_638_26_alg».proof.Proof.Gen.KernelIdeal
import proofs.«207825_g30013231464886_cont_9to1_638_26_alg».proof.Proof.Gen.KernelIdeal.Skeleton

noncomputable section

namespace Cert.Proof.GatherI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, the specification -/

variable (m : (ℓ : Loc nD τ sig) → Buf (Elt F) ℓ) (ρ : Dev nD → PrngReg)

/-- The table and the index vector (the arguments), the table reshaped into blocks of eight rows (what the kernel
    reads), the result. -/
abbrev aLoc (d : Dev nD) : Loc nD τ sig := (SparseCore.T d).loc main_arg0
abbrev iLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

/-- The reshaped table: the launch table's entries in row-major order at the blocked shape. -/
def fv (d : Dev nD) : Buf (Elt F) (vLoc d) := shapeCast S2048x8x1000 (m (aLoc d)) shapeCasts_S16384x1000_S2048x8x1000

/-- The result the kernel leaves: entry (j, index j) of the launch table, for every row j. -/
def Gout (d : Dev nD) : Buf (Elt F) (oLoc d) := Spec.gatherRow (m (aLoc d)) (m (iLoc d))

/-- What the proof asks of the launch memory: every index word names a column of the table. -/
def PreOK : Prop := ∀ (d : Dev nD) (j : S16384.Idx), (m (iLoc d) j).toNat < 1000

/-! ## The thirty-two runs of the result and who works on which -/

theorem hdiv : 32 ∣ S16384.size 0 := ⟨512, rfl⟩
/-- Run `t` of the result: entries 512·t … 512·t + 511. -/
abbrev outRect (t : Fin 32) : Rect S16384 := Rect.part (s := S16384) (a₀ := 0) hdiv t
abbrev outSet (t : Fin 32) : Finset S16384.Idx := (outRect t).set

/-- Subcore `i` of SparseCore `c` works on run 2·i + c. -/
def tileNo (c : Fin ((K (F := F)).nCore 0)) (i : Fin ((K (F := F)).nSub 0)) : Fin 32 :=
  ⟨2 * i.val + c.val, by have hc : c.val < 2 := c.isLt; have hi : i.val < 16 := i.isLt; omega⟩

/-- The read share of the whole table (and of the whole index vector) run `t`'s subcore is handed. -/
abbrev qT (t : Fin 32) : PosShare TreeShare := shareTok fullShare 32 t

/-! ## What the handshakes carry -/

variable [FloatOps F]

/-- What a subcore is handed: its read shares of the reshaped table and of the index vector, its run of the result. -/
def goT (d : Dev nD) (t : Fin 32) : sProp 𝕄 :=
  iprop((vLoc d ↦{qT t} fv m d) ∗ (iLoc d ↦{qT t} m (iLoc d)) ∗ oLoc d ↦[outSet t]{fullShare} m (oLoc d))
/-- What it hands back: its run of the result, holding the specification there. -/
def tdT (d : Dev nD) (t : Fin 32) : sProp 𝕄 := oLoc d ↦[outSet t]{fullShare} Gout m d

instance goT_storable (d : Dev nD) (t : Fin 32) : BI.Storable (upEmb : UEmb _ 𝕄) (goT m d t) := by unfold goT; infer_instance
instance tdT_storable (d : Dev nD) (t : Fin 32) : BI.Storable (upEmb : UEmb _ 𝕄) (tdT m d t) := by unfold tdT; infer_instance

/-- The one call: a SparseCore is handed what its sixteen subcores are, and hands back what they do. -/
def P : (K (F := F)).Pay (nD := nD) (Val := Elt F) (Name := ℕ) (U := UU) where
  st := fun q d c => match q with | 0 => bigSep Finset.univ fun i : Fin ((K (F := F)).nSub 0) => goT m d (tileNo c i)
  dn := fun q d c => match q with | 0 => bigSep Finset.univ fun i : Fin ((K (F := F)).nSub 0) => tdT m d (tileNo c i)
  go := fun q d c i => match q with | 0 => goT m d (tileNo c i)
  td := fun q d c i => match q with | 0 => tdT m d (tileNo c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goT m d (tileNo c i)))
  dn q d c := match q with
    | 0 => (inferInstance : BI.Storable (upEmb : UEmb _ 𝕄) (bigSep Finset.univ fun i : Fin ((K (F := F)).nSub 0) => tdT m d (tileNo c i)))
  go q d c i := match q with
    | 0 => (inferInstance : BI.Storable (upEmb : UEmb _ 𝕄) (goT m d (tileNo c i)))
  td q d c i := match q with
    | 0 => (inferInstance : BI.Storable (upEmb : UEmb _ 𝕄) (tdT m d (tileNo c i)))

/-- What the claims read off the final memory: the result at the specification, the arguments unchanged. -/
def QC : PUnit × MemSt nD τ sig (Elt F) → Prop := fun r =>
  ∀ c : Dev nD, r.2.mem (oLoc c) = Gout m c ∧ r.2.mem (aLoc c) = m (aLoc c) ∧ r.2.mem (iLoc c) = m (iLoc c)

end Cert.Proof.GatherI

end
-- ==== Proof.LaunchI.lean ====
/-
  The launch of the gather kernel: the host's reshape of the table, the hand-over of the reshaped table and of the
  index vector as one read share per run of the result, of the result itself cut into its thirty-two runs, the call,
  and the runs joined back into the whole result holding the specification; the tile obligation is a hypothesis.
-/
import proofs.«207825_g30013231464886_cont_9to1_638_26_alg».proof.Proof.SetupI

noncomputable section

namespace Cert.Proof.GatherI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands are its subcores', its results theirs -/

theorem vecSplit : (K (F := F)).VecSplit' (P m) 0 := by
  intro d c
  show (bigSep Finset.univ fun i : Fin ((K (F := F)).nSub 0) => goT m d (tileNo c i)) ⊢ |={Set.univ}=> iprop(
      (bigSep Finset.univ fun i : Fin ((K (F := F)).nSub 0) => goT m d (tileNo c i))
      ∗ ((bigSep Finset.univ fun i : Fin ((K (F := F)).nSub 0) => tdT m d (tileNo c i))
          -∗ bigSep Finset.univ fun i : Fin ((K (F := F)).nSub 0) => tdT m d (tileNo c i)))
  iintro H; imodintro
  isplitl [H]; · iexact H
  iintro H; iexact H

/-! ## The launch element: the handshakes' rounds; the counters are not needed -/

def u₀ : UU := (initOf (K (F := F)).hsCells (K (F := F)).hsToks, 1)

omit [FloatOps F] in
private theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim, and how the final memory reads it -/

abbrev FIN (d : Dev nD) : sProp 𝕄 :=
  iprop((aLoc d ↦{fullShare} m (aLoc d)) ∗ (iLoc d ↦{shareDrop fullShare 32} m (iLoc d)) ∗ oLoc d ↦{fullShare} Gout m d)

def fq (d : Dev nD) (s' : Phys nD τ sig (Elt F)) : Prop :=
  s'.mem.mem (oLoc d) = Gout m d ∧ s'.mem.mem (aLoc d) = m (aLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := shareDrop fullShare 32) (f := m (iLoc d)))) $$ [HSI Hi]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The thirty-two runs, by SparseCore and subcore -/

omit [FloatOps F] in
/-- Run numbers 2·i + c, c < 2, are distinct for distinct (c, i). -/
private theorem tileNo_inj : Function.Injective fun p : Fin ((K (F := F)).nCore 0) × Fin ((K (F := F)).nSub 0) => tileNo (F := F) p.1 p.2 := by
  rintro ⟨c, i⟩ ⟨c', i'⟩ h
  have hc : c.val < 2 := c.isLt
  have hc' : c'.val < 2 := c'.isLt
  have h' : 2 * i.val + c.val = 2 * i'.val + c'.val := congrArg Fin.val h
  have h1 : c.val = c'.val := by omega
  have h2 : i.val = i'.val := by omega
  exact Prod.ext (Fin.ext h1) (Fin.ext h2)

omit [FloatOps F] in
/-- Every run number below 32 is 2·i + c for c its parity and i its half. -/
private theorem tileNo_surj (t : Fin 32) : ∃ p : Fin ((K (F := F)).nCore 0) × Fin ((K (F := F)).nSub 0), tileNo (F := F) p.1 p.2 = t := by
  have ht : t.val < 32 := t.isLt
  refine ⟨(⟨t.val % 2, show t.val % 2 < 2 from Nat.mod_lt _ (by decide)⟩, ⟨t.val / 2, show t.val / 2 < 16 by omega⟩), Fin.ext ?_⟩
  show 2 * (t.val / 2) + t.val % 2 = t.val
  omega

omit [FloatOps F] in
private theorem univ_tiles : (Finset.univ : Finset (Fin 32))
    = (Finset.univ : Finset (Fin ((K (F := F)).nCore 0) × Fin ((K (F := F)).nSub 0))).image fun p => tileNo (F := F) p.1 p.2 := by
  ext t
  simp only [Finset.mem_univ, Finset.mem_image, true_and, true_iff]
  exact tileNo_surj t

omit [FloatOps F] in
/-- A family over the thirty-two runs, regrouped by SparseCore and then by subcore. -/
private theorem bigSep_tiles (Φ : Fin 32 → sProp 𝕄) :
    bigSep Finset.univ Φ
      = bigSep Finset.univ fun c : Fin ((K (F := F)).nCore 0) => bigSep Finset.univ fun i : Fin ((K (F := F)).nSub 0) => Φ (tileNo (F := F) c i) := by
  rw [univ_tiles (F := F), SparseCore.bigSep_image_of_injOn ((tileNo_inj (F := F)).injOn) Φ, ← Finset.univ_product_univ, SparseCore.bigSep_product]

omit [FloatOps F] in
private theorem outs_disjoint : ∀ t ∈ (Finset.univ : Finset (Fin 32)), ∀ t' ∈ (Finset.univ : Finset (Fin 32)), t ≠ t' → Disjoint (outSet t) (outSet t') :=
  fun _ _ _ _ h => Rect.part_disjoint hdiv h
omit [FloatOps F] in
private theorem outs_cover : (Finset.univ : Finset (Fin 32)).biUnion outSet = Finset.univ := Rect.biUnion_part hdiv

omit [FloatOps F] in
/-- The whole result is its thirty-two runs, at any one contents. -/
private theorem oPts_runs (d : Dev nD) (f : Buf (Elt F) (oLoc d)) :
    (oLoc d ↦{fullShare} f : sProp 𝕄) = bigSep Finset.univ fun t : Fin 32 => oLoc d ↦[outSet t]{fullShare} f := by
  rw [← pointsTo_biUnion Finset.univ (ℓ := oLoc d) outSet outs_disjoint, outs_cover]; try rfl

/-- What the call takes for the two SparseCores: every run's read shares and its piece of the result. -/
private theorem st0_eq (d : Dev nD) :
    (bigSep Finset.univ fun c : Fin ((K (F := F)).nCore 0) => (P m).st 0 d c)
      = iprop((bigSep Finset.univ fun t : Fin 32 => vLoc d ↦{qT t} fv m d) ∗ (bigSep Finset.univ fun t : Fin 32 => iLoc d ↦{qT t} m (iLoc d))
          ∗ bigSep Finset.univ fun t : Fin 32 => oLoc d ↦[outSet t]{fullShare} m (oLoc d)) := by
  show (bigSep Finset.univ fun c : Fin ((K (F := F)).nCore 0) => bigSep Finset.univ fun i : Fin ((K (F := F)).nSub 0) => goT m d (tileNo c i)) = _
  rw [← bigSep_tiles (F := F) (fun t => goT m d t)]
  unfold goT
  rw [bigSep_sep', bigSep_sep']

/-- What it hands back: the whole result, holding the specification. -/
private theorem dn0_eq (d : Dev nD) :
    (bigSep Finset.univ fun c : Fin ((K (F := F)).nCore 0) => (P m).dn 0 d c) = (oLoc d ↦{fullShare} Gout m d : sProp 𝕄) := by
  show (bigSep Finset.univ fun c : Fin ((K (F := F)).nCore 0) => bigSep Finset.univ fun i : Fin ((K (F := F)).nSub 0) => tdT m d (tileNo c i)) = _
  rw [← bigSep_tiles (F := F) (fun t => tdT m d t)]
  unfold tdT
  rw [← oPts_runs]

/-! ## @main on the TensorCore -/

private abbrev a' : DevRef τ sig := Proc.devRef .tc (main_arg0 : Ref sig .tc)
private abbrev v' : DevRef τ sig := Proc.devRef .tc (main_v0 : Ref sig .tc)
private abbrev opR : HloOp τ sig (Elt F) := StableHlo.reshape main_arg0 main_v0 rfl shapeCasts_S16384x1000_S2048x8x1000

/-- The reshape's two arrays: the table and its blocked copy. -/
private abbrev S2 : Finset (DevRef τ sig) := {a', v'}

omit [FloatOps F] in
private theorem held_S2 (d : Dev nD) (W : Valuation τ sig (Elt F)) :
    (held (T d) S2 W : sProp 𝕄) = iprop((aLoc d ↦{fullShare} W a') ∗ vLoc d ↦{fullShare} W v') := by
  unfold held S2
  rw [SparseCore.bigSep_insert' (by decide), bigSep_singleton]

omit [FloatOps F] in
private theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (vLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
private def V0 (d : Dev nD) : Valuation τ sig (Elt F) := fun b => m (d, b)

private theorem hR : (opR (F := F)).bufs ⊆ S2 := show ({a', v'} : Finset (DevRef τ sig)) ⊆ S2 from Finset.Subset.refl _

/-- After the reshape the table is what it was and its blocked copy holds the table's entries in row-major order. -/
private theorem res_a (d : Dev nD) : (opR (F := F)).result (V0 m d) a' = m (aLoc d) :=
  (opR (F := F)).result_of_not_mem (V0 m d) (b := a') (show a' ∉ ({v'} : Finset (DevRef τ sig)) by decide)
private theorem res_v (d : Dev nD) : (opR (F := F)).result (V0 m d) v' = fv m d :=
  StableHlo.reshape_result main_arg0 main_v0 rfl shapeCasts_S16384x1000_S2048x8x1000 ⟨by decide, rfl⟩ ⟨by decide, rfl⟩ (V0 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hi, Hv, Ho⟩, -, -⟩, -⟩
  -- the reshape, over the table and its blocked copy
  iapply (wp_hlo_within 𝒱 (SparseCore.T d) none Set.univ (op := opR) (S := S2) hR (V := V0 m d)) $$ [Hb Ha Hv]
  · isplitl [Hb]; · iexact Hb
    rw [held_S2]
    isplitl [Ha]; · iexact Ha
    iexact Hv
  iintro ⟨Hb, Hheld⟩
  ihave Hh := (Entails.of_eq (held_S2 (F := F) d _)) $$ Hheld
  rw [res_a, res_v]
  icases Hh with ⟨Ha, Hv⟩
  -- one read share of the blocked table and of the index vector per run; the result cut into its runs
  ihave Hv' := (Transfers.pointsTo_toks_split (ℓ := vLoc d) (S := Finset.univ) (f := fv m d) fullShare 32) $$ Hv
  icases Hv' with ⟨-, Hvs⟩
  ihave Hi' := (Transfers.pointsTo_toks_split (ℓ := iLoc d) (S := Finset.univ) (f := m (iLoc d)) fullShare 32) $$ Hi
  icases Hi' with ⟨Hi, His⟩
  ihave Hos := (Entails.of_eq (oPts_runs (F := F) d (m (oLoc d)))) $$ Ho
  rw [wp_ret]; imodintro
  -- the call: every run's shares and piece to its subcore, the pieces back holding the specification
  iapply ((K (F := F)).wp_run (D (F := F)) 𝒱 (EH := EH) (P := P m) κ d 0) $$ [Hst Hvs His Hos Ha Hi]
  isplitr; · iexact Hctx
  isplitl [Hst]; · iexact Hst
  isplitl [Hvs His Hos]
  · rw [st0_eq]
    isplitl [Hvs]; · iexact Hvs
    isplitl [His]; · iexact His
    iexact Hos
  iintro ⟨Hst, Hdn⟩
  ihave Ho := (Entails.of_eq (dn0_eq m d)) $$ Hdn
  imodintro
  isplitl [Hst]; · iexact Hst
  isplitl [Ha]; · iexact Ha
  isplitl [Hi]; · iexact Hi
  iexact Ho

/-! ## The program's run -/

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.GatherI

end
-- ==== Proof.GeomI.lean ====
/-
  The geometry of the gather kernel's accesses: which entry of the blocked table a chunk's copy carries at an index of
  the chunk, which index word a run's copy of the index vector carries, what a sixteen-lane piece of a scratch and a
  whole scratch read, the lane vectors that name the block row and the row within it, and the run of the result a
  subcore writes. Each is an equation between indices, stated through their coordinates' values.
-/
import proofs.«207825_g30013231464886_cont_9to1_638_26_alg».proof.Proof.SetupI

set_option Elab.async false

namespace Cert.Proof.GatherI

open Cert.KernelIdeal Cert.KernelIdeal.Gen

open Idealize.ShloMosaic

variable {F : FTy → Type}

/-! ## A grid point's subcore and its run of the result -/

abbrev cV (L : grid0.Coords) : Fin τ.nSC := (L 0).castLE hcore0
abbrev jV (L : grid0.Coords) : Fin τ.nSub := (L 1).castLE hsub0

/-- The run of the result the subcore at grid point L works on: 2·(L 1) + (L 0). -/
def tL (L : grid0.Coords) : Fin 32 :=
  ⟨2 * (L 1).val + (L 0).val, by have h0 : (L 0).val < 2 := (L 0).isLt; have h1 : (L 1).val < 16 := (L 1).isLt; omega⟩

theorem tL_val (L : grid0.Coords) : (tL L).val = 2 * (L 1).val + (L 0).val := rfl

/-! ## The table slices' offsets: one chain for every chunk -/

theorem off3_eq (L : grid0.Coords) (w : BitVec 32) : k0_off3 L w = k0_off2 L w := rfl
theorem off4_eq (L : grid0.Coords) (w : BitVec 32) : k0_off4 L w = k0_off2 L w := rfl
theorem off5_eq (L : grid0.Coords) (w : BitVec 32) : k0_off5 L w = k0_off2 L w := rfl
theorem off6_eq (L : grid0.Coords) (w : BitVec 32) : k0_off6 L w = k0_off2 L w := rfl
theorem off7_eq (L : grid0.Coords) (w : BitVec 32) : k0_off7 L w = k0_off2 L w := rfl
theorem off8_eq (L : grid0.Coords) (w : BitVec 32) : k0_off8 L w = k0_off2 L w := rfl
theorem off9_eq (L : grid0.Coords) (w : BitVec 32) : k0_off9 L w = k0_off2 L w := rfl
theorem off10_eq (L : grid0.Coords) (w : BitVec 32) : k0_off10 L w = k0_off2 L w := rfl
theorem off11_eq (L : grid0.Coords) (w : BitVec 32) : k0_off11 L w = k0_off2 L w := rfl
theorem off12_eq (L : grid0.Coords) (w : BitVec 32) : k0_off12 L w = k0_off2 L w := rfl
theorem off13_eq (L : grid0.Coords) (w : BitVec 32) : k0_off13 L w = k0_off2 L w := rfl
theorem off14_eq (L : grid0.Coords) (w : BitVec 32) : k0_off14 L w = k0_off2 L w := rfl
theorem off15_eq (L : grid0.Coords) (w : BitVec 32) : k0_off15 L w = k0_off2 L w := rfl
theorem off16_eq (L : grid0.Coords) (w : BitVec 32) : k0_off16 L w = k0_off2 L w := rfl
theorem off17_eq (L : grid0.Coords) (w : BitVec 32) : k0_off17 L w = k0_off2 L w := rfl
theorem off18_eq (L : grid0.Coords) (w : BitVec 32) : k0_off18 L w = k0_off2 L w := rfl
theorem off19_eq (L : grid0.Coords) (w : BitVec 32) : k0_off19 L w = k0_off2 L w := rfl
theorem off20_eq (L : grid0.Coords) (w : BitVec 32) : k0_off20 L w = k0_off2 L w := rfl
theorem off21_eq (L : grid0.Coords) (w : BitVec 32) : k0_off21 L w = k0_off2 L w := rfl
theorem off22_eq (L : grid0.Coords) (w : BitVec 32) : k0_off22 L w = k0_off2 L w := rfl
theorem off23_eq (L : grid0.Coords) (w : BitVec 32) : k0_off23 L w = k0_off2 L w := rfl
theorem off24_eq (L : grid0.Coords) (w : BitVec 32) : k0_off24 L w = k0_off2 L w := rfl
theorem off25_eq (L : grid0.Coords) (w : BitVec 32) : k0_off25 L w = k0_off2 L w := rfl
theorem off26_eq (L : grid0.Coords) (w : BitVec 32) : k0_off26 L w = k0_off2 L w := rfl
theorem off27_eq (L : grid0.Coords) (w : BitVec 32) : k0_off27 L w = k0_off2 L w := rfl
theorem off28_eq (L : grid0.Coords) (w : BitVec 32) : k0_off28 L w = k0_off2 L w := rfl
theorem off29_eq (L : grid0.Coords) (w : BitVec 32) : k0_off29 L w = k0_off2 L w := rfl
theorem off30_eq (L : grid0.Coords) (w : BitVec 32) : k0_off30 L w = k0_off2 L w := rfl
theorem off31_eq (L : grid0.Coords) : k0_off31 L = k0_off2 L 58#32 := rfl
theorem off32_eq (L : grid0.Coords) : k0_off32 L = k0_off2 L 60#32 := rfl
theorem off33_eq (L : grid0.Coords) : k0_off33 L = k0_off2 L 62#32 := rfl

/-- Chunk c of the subcore at L starts at block row 64·(2·(L 1) + (L 0)) + 2·c of the blocked table. -/
theorem off_tab : ∀ (L : grid0.Coords) (c : Fin 32),
    k0_off2 L (BitVec.ofNat 32 (2 * c.val)) = ![128 * (L 1).val + 64 * (L 0).val + 2 * c.val, 0, 0] := by decide +kernel

/-! ## What a copy carries at an index -/

/-- A chunk's copy out of the blocked table, at an index of the chunk: the table's entry B block rows further. -/
theorem tab_payload (off : Fin 3 → ℕ) (hin : ∀ a, off a + S2x8x1000.size a ≤ S2048x8x1000.size a)
    (hs : ∀ a, (Rect.unit (s := S2048x8x1000) off S2x8x1000.size hin).stride a = 1) (B : ℕ) (hoff : off = ![B, 0, 0])
    (g : S2048x8x1000.Idx → Elt F .f32) (z : S2x8x1000.Idx) (w : S2048x8x1000.Idx)
    (h0 : (w 0).val = B + (z 0).val) (h1 : (w 1).val = (z 1).val) (h2 : (w 2).val = (z 2).val) :
    ReadAs.same.apply (View.read (Elt F) ((Memref.whole Cert.KernelIdeal.main_v0_scv : Memref sig Kind.scVector Space.hbm S2048x8x1000 EltTy.f32).slice
      (Rect.unit (s := S2048x8x1000) off S2x8x1000.size hin) hs).view g) z = g w := by
  subst hoff
  show g ((Rect.unit (s := S2048x8x1000) ![B, 0, 0] S2x8x1000.size hin).emb z) = g w
  refine congrArg g (funext fun a => Fin.ext ?_)
  rw [Rect.emb_apply]
  match a with
  | 0 => show B + 1 * (z 0).val = (w 0).val; omega
  | 1 => show 0 + 1 * (z 1).val = (w 1).val; omega
  | 2 => show 0 + 1 * (z 2).val = (w 2).val; omega

/-- A run's copy out of the index vector, at an index of the run: the index word 512·(run number) further. -/
theorem idx_payload (L : grid0.Coords) (g : S16384.Idx → BitVec 32) (y : S512.Idx) (k : S16384.Idx)
    (hk : (k 0).val = 512 * (tL L).val + (y 0).val) :
    ReadAs.same.apply (View.read (Elt F) ((Memref.whole Cert.KernelIdeal.main_arg1_scv : Memref sig Kind.scVector Space.hbm S16384 EltTy.i32).slice
      (Rect.unit (s := S16384) (k0_off1 L) S512.size (k0_off1_inb L)) (fun _ => rfl)).view g) y = g k := by
  show g ((Rect.unit (s := S16384) (k0_off1 L) S512.size (k0_off1_inb L)).emb y) = g k
  refine congrArg g (funext fun a => Fin.ext ?_)
  rw [Rect.emb_apply]
  match a with
  | 0 =>
    show k0_off1 L 0 + 1 * (y 0).val = (k 0).val
    rw [k0_off1_eq, hk, tL_val]
    show 1024 * (L 1).val + 512 * (L 0).val + 1 * (y 0).val = _
    omega

/-! ## Scratch reads -/

/-- Sixteen lanes of the index scratch from position o, after the scratch was written whole: the written word o further. -/
theorem scr0_read (f0 P : S512.Idx → BitVec 32) (o : ℕ) (ho : ∀ a, (![o] : Fin 1 → ℕ) a + S16.size a ≤ S512.size a) (x : S16.Idx) (y : S512.Idx)
    (hy : (y 0).val = o + (x 0).val) :
    View.readAt (Elt F) (Memref.whole cc0_scratch0 : Memref sig Kind.scVector Space.vmem S512 EltTy.i32).view (Rect.unit (s := S512) ![o] S16.size ho).toLoadRect
      (View.write (Elt F) (Memref.whole cc0_scratch0 : Memref sig Kind.scVector Space.vmem S512 EltTy.i32).view f0 P Finset.univ) x = P y := by
  rw [View.readAt_apply]
  simp only [Memref.view_whole, View.write_whole_univ, View.read_whole]
  refine congrArg P (funext fun a => Fin.ext ?_)
  rw [LoadRect.idx_apply]
  match a with
  | 0 => show o + 1 * (x 0).val = (y 0).val; omega

private theorem whole_idx (s : Shape) (x : s.Idx) : (LoadRect.whole s).idx x = x := by
  funext a; apply Fin.ext
  rw [LoadRect.idx_apply]
  show 0 + 1 * (x a).val = (x a).val
  omega

/-- A block scratch read whole after it was written whole: what was written. -/
theorem buf_read1 (g P : S2x8x1000.Idx → Elt F .f32) :
    View.readAt (Elt F) (Memref.whole cc0_scratch1 : Memref sig Kind.scVector Space.vmem S2x8x1000 EltTy.f32).view (LoadRect.whole S2x8x1000)
      (View.write (Elt F) (Memref.whole cc0_scratch1 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)
theorem buf_read2 (g P : S2x8x1000.Idx → Elt F .f32) :
    View.readAt (Elt F) (Memref.whole cc0_scratch2 : Memref sig Kind.scVector Space.vmem S2x8x1000 EltTy.f32).view (LoadRect.whole S2x8x1000)
      (View.write (Elt F) (Memref.whole cc0_scratch2 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)
theorem buf_read3 (g P : S2x8x1000.Idx → Elt F .f32) :
    View.readAt (Elt F) (Memref.whole cc0_scratch3 : Memref sig Kind.scVector Space.vmem S2x8x1000 EltTy.f32).view (LoadRect.whole S2x8x1000)
      (View.write (Elt F) (Memref.whole cc0_scratch3 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)
theorem buf_read4 (g P : S2x8x1000.Idx → Elt F .f32) :
    View.readAt (Elt F) (Memref.whole cc0_scratch4 : Memref sig Kind.scVector Space.vmem S2x8x1000 EltTy.f32).view (LoadRect.whole S2x8x1000)
      (View.write (Elt F) (Memref.whole cc0_scratch4 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)

/-- Lane x of the sixteen-lane piece at position o is position o + x. -/
theorem piece_emb (o : ℕ) (ho : ∀ a, (![o] : Fin 1 → ℕ) a + S16.size a ≤ S512.size a) (x : S16.Idx) :
    (((Rect.unit (s := S512) ![o] S16.size ho).emb x) 0).val = o + (x 0).val := by
  rw [Rect.emb_apply]
  show o + 1 * (x 0).val = o + (x 0).val
  omega

/-! ## The lane vectors -/

/-- Lane x of the lane sequence, a zero vector added: the word x. -/
private theorem lane_val (h : S16.Iotas .scVector 32 [0]) (x : S16.Idx) :
    addi (broadcast S16 0#32) (iota .scVector S16 32 [0] h) x = BitVec.ofNat 32 (x 0).val := by
  show IntOp.addi (0#32) (BitVec.ofNat 32 (0 * S16.size 0 + (x 0).val)) = BitVec.ofNat 32 (x 0).val
  simp [IntOp.addi]

/-- The lane number shifted right by three: the row of eight the lane lies in. -/
theorem b16_val (h : S16.Iotas .scVector 32 [0]) (x : S16.Idx) :
    (shrui (addi (broadcast S16 0#32) (iota .scVector S16 32 [0] h)) (broadcast S16 3#32) x).toNat = (x 0).val / 8 := by
  have hx : (x 0).val < 16 := (x 0).isLt
  show (IntOp.shrui .vector (addi (broadcast S16 0#32) (iota .scVector S16 32 [0] h) x) (3#32)).toNat = _
  rw [lane_val]
  unfold IntOp.shrui
  rw [if_pos (by decide)]
  simp [Nat.shiftRight_eq_div_pow]
  omega

/-- The lane number's low three bits: its place within its row of eight. -/
theorem r16_val (h : S16.Iotas .scVector 32 [0]) (x : S16.Idx) :
    (andi (addi (broadcast S16 0#32) (iota .scVector S16 32 [0] h)) (broadcast S16 7#32) x).toNat = (x 0).val % 8 := by
  have hx : (x 0).val < 16 := (x 0).isLt
  show (IntOp.andi (addi (broadcast S16 0#32) (iota .scVector S16 32 [0] h) x) (7#32)).toNat = _
  rw [lane_val]
  unfold IntOp.andi
  have hl : (BitVec.ofNat 32 (x 0).val).toNat = (x 0).val := by
    rw [BitVec.toNat_ofNat]; exact Nat.mod_eq_of_lt (by omega)
  rw [BitVec.toNat_and, hl, show (7#32).toNat = 2 ^ 3 - 1 by decide, Nat.and_two_pow_sub_one_eq_mod]

/-! ## The result's run -/

/-- The piece of the result a subcore writes is its run. -/
theorem out_rect (L : grid0.Coords) : Rect.unit (s := S16384) (k0_off34 L) S512.size (k0_off34_inb L) = outRect (tL L) := by
  unfold outRect Rect.part Rect.block
  congr 1 <;> funext a
  · rw [k0_off34_eq]
    match a with
    | 0 => simp [Shape.partIx, Shape.partSize, tL]; omega
  · match a with
    | 0 => simp [Shape.partSize]

theorem out_set (L : grid0.Coords) :
    ((Memref.whole Cert.KernelIdeal.main_v1_scv : Memref sig Kind.scVector Space.hbm S16384 EltTy.f32).slice
      (Rect.unit (s := S16384) (k0_off34 L) S512.size (k0_off34_inb L)) (fun _ => rfl)).view.set = outSet (tL L) := by
  show ((View.whole (main_v1_scv : Ref sig .scVector)).slice (Rect.unit (s := S16384) (k0_off34 L) S512.size (k0_off34_inb L))).set = _
  rw [View.set_slice, out_rect]
  exact Finset.map_refl

theorem out_emb (L : grid0.Coords) (y : S512.Idx) :
    ((((Memref.whole Cert.KernelIdeal.main_v1_scv : Memref sig Kind.scVector Space.hbm S16384 EltTy.f32).slice
      (Rect.unit (s := S16384) (k0_off34 L) S512.size (k0_off34_inb L)) (fun _ => rfl)).view.emb y) 0).val = 512 * (tL L).val + (y 0).val := by
  show ((Rect.unit (s := S16384) (k0_off34 L) S512.size (k0_off34_inb L)).emb y 0).val = _
  rw [Rect.emb_apply]
  show k0_off34 L 0 + 1 * (y 0).val = _
  rw [k0_off34_eq, tL_val]
  show 1024 * (L 1).val + 512 * (L 0).val + 1 * (y 0).val = _
  omega

end Cert.Proof.GatherI
-- ==== Proof.ValueI.lean ====
/-
  The arithmetic of the gather, apart from any program. The kernel reads the table through its reshaping into blocks
  of eight rows: entry (block, row in block, column) of the reshaped array is entry (8 · block + row in block, column)
  of the table, since both sit at the same place in row-major order. Subcore t works on rows 512·t … 512·t + 511;
  its chunk c has in scratch the two blocks 64·t + 2·c and 64·t + 2·c + 1 and the sixteen index words of rows
  512·t + 16·c + x; lane x picks the scratch at (x / 8, x % 8, index word of lane x). Because
  8 · (64·t + 2·c + x / 8) + x % 8 = 512·t + 16·c + x, the pick is the table's entry at that row and that row's own
  index word, which is the specification at that row once the word is known to be below the row length.
-/
import proofs.«207825_g30013231464886_cont_9to1_638_26_alg».proof.Proof.SetupI
import Idealize.ShloMosaic.Lib.ValueIdx
import Idealize.ShloMosaic.Lib.Pipeline.Value

noncomputable section

namespace Cert.Proof.GatherI

open Cert.KernelIdeal Cert.KernelIdeal.Gen
open Idealize.ShloMosaic Idealize.ShloMosaic.ValueIdx

variable {F : FTy → Type}
variable (m : (ℓ : Loc nD τ sig) → Buf (Elt F) ℓ)

/-- The reshaped table at block w0, row-in-block w1, column w2 is the table at row 8·w0 + w1, column w2. -/
theorem fv_at (d : Dev nD) (w : S2048x8x1000.Idx) (j : S16384x1000.Idx)
    (h0 : (j 0).val = 8 * (w 0).val + (w 1).val) (h1 : (j 1).val = (w 2).val) : fv m d w = m (aLoc d) j := by
  unfold fv
  refine shapeCast_apply _ _ w j ?_
  rw [Shape.rowMajor_val_two, Shape.rowMajor_val_three]
  show (j 0).val * 1000 + (j 1).val = ((w 0).val * 8 + (w 1).val) * 1000 + (w 2).val
  rw [h0, h1]
  omega

variable [FloatOps F]

/-- One chunk's sixteen picks are the specification on that chunk's sixteen rows. -/
theorem piece_value (hpre : PreOK m) (d : Dev nD) (t c : ℕ) (ht : t < 32) (hc : c < 32)
    (P : S2x8x1000.Idx → Elt F .f32) (I b16 r16 : IVec S16 32)
    (hP : ∀ (z : S2x8x1000.Idx) (j : S16384x1000.Idx), (j 0).val = 8 * (64 * t + 2 * c + (z 0).val) + (z 1).val → (j 1).val = (z 2).val → P z = m (aLoc d) j)
    (hI : ∀ (x : S16.Idx) (k : S16384.Idx), (k 0).val = 512 * t + 16 * c + (x 0).val → I x = m (iLoc d) k)
    (hb : ∀ x : S16.Idx, (b16 x).toNat = (x 0).val / 8) (hr : ∀ x : S16.Idx, (r16 x).toNat = (x 0).val % 8)
    (h : ∀ a x, ((![b16, r16, I] : Fin 3 → IVec S16 32) a x).toNat < S2x8x1000.size a)
    (x : S16.Idx) (k : S16384.Idx) (hk : (k 0).val = 512 * t + 16 * c + (x 0).val) :
    loadIdx P ![b16, r16, I] h x = Gout m d k := by
  have hIk : I x = m (iLoc d) k := hI x k hk
  have hlt : (m (iLoc d) k).toNat < 1000 := hpre d k
  unfold Gout
  rw [Spec.gatherRow_apply]
  show P (idxAt ![b16, r16, I] h x) = _
  refine hP _ _ ?_ ?_
  · show (k 0).val = 8 * (64 * t + 2 * c + (b16 x).toNat) + (r16 x).toNat
    rw [hb, hr, hk]
    omega
  · show (Spec.col (m (iLoc d) k)).val = (I x).toNat
    rw [Spec.col_val_of_lt hlt, hIk]

end Cert.Proof.GatherI

end
-- ==== Proof.BodyLemI.lean ====
/-
  From the kernel body's terms to rows of the table. A subcore's chunk c holds, in one scratch, blocks 64·t + 2·c and
  64·t + 2·c + 1 of the reshaped table and, in the index scratch, the 512 index words of its run; lane x of the chunk
  picks block x / 8, row-in-block x % 8, column = index word 16·c + x. Here: those three coordinates are in range (what the
  indexed load assumes), an index word read from the scratch is the launch index vector at row 512·t + 16·c + x, and a
  copied block's entry is the launch table's entry at row 8·block + row-in-block.
-/
import proofs.«207825_g30013231464886_cont_9to1_638_26_alg».proof.Proof.SetupI
import proofs.«207825_g30013231464886_cont_9to1_638_26_alg».proof.Proof.GeomI
import proofs.«207825_g30013231464886_cont_9to1_638_26_alg».proof.Proof.ValueI

noncomputable section

namespace Cert.Proof.GatherI

open Cert.KernelIdeal Cert.KernelIdeal.Gen
open Idealize.ShloMosaic Idealize.ShloMosaic.ValueIdx

variable {F : FTy → Type}
variable (m : (ℓ : Loc nD τ sig) → Buf (Elt F) ℓ)
variable (d : Dev nD) (L : grid0.Coords)

/-- The indexed load's side condition from three bounds: block below 2, row-in-block below 8, column below 1000. -/
theorem chk_core (I B R : IVec S16 32) (hI : ∀ x, (I x).toNat < 1000) (hB : ∀ x, (B x).toNat < 2) (hR : ∀ x, (R x).toNat < 8) :
    ∀ a x, ((![B, R, I] : Fin 3 → IVec S16 32) a x).toNat < S2x8x1000.size a := by
  intro a x
  match a with
  | ⟨0, _⟩ => exact hB x
  | ⟨1, _⟩ => exact hR x
  | ⟨2, _⟩ => exact hI x

theorem lane_lt (x : S16.Idx) : (x 0).val < 16 := (x 0).isLt

/-- Lane x's block number x / 8 is 0 or 1. -/
theorem b16_bound (h : S16.Iotas .scVector 32 [0]) (x : S16.Idx) :
    (shrui (addi (broadcast S16 0#32) (iota .scVector S16 32 [0] h)) (broadcast S16 3#32) x).toNat < 2 := by
  rw [b16_val]; have := lane_lt x; omega
/-- Lane x's row-in-block x % 8 is below 8. -/
theorem r16_bound (h : S16.Iotas .scVector 32 [0]) (x : S16.Idx) :
    (andi (addi (broadcast S16 0#32) (iota .scVector S16 32 [0] h)) (broadcast S16 7#32) x).toNat < 8 := by
  rw [r16_val]; omega

/-- Row 512·t + p of the arrays, for p inside the subcore's run. -/
def rowOf (p : ℕ) (hp : p < 512) : S16384.Idx :=
  ix1 (⟨512 * (tL L).val + p, by have := (tL L).isLt; omega⟩ : Fin 16384)

theorem rowOf_val (p : ℕ) (hp : p < 512) : ((rowOf L p hp) 0).val = 512 * (tL L).val + p := rfl

variable [FloatOps F]

/-- The index word the kernel loads at offset o + x of its index scratch (which holds the copied run of the index
    vector) is the launch index vector at row 512·t + o + x. -/
theorem idx_at (f0 : S512.Idx → BitVec 32) (o : ℕ) (ho : ∀ a, (![o] : Fin 1 → ℕ) a + S16.size a ≤ S512.size a) (x : S16.Idx)
    (k : S16384.Idx) (hk : (k 0).val = 512 * (tL L).val + o + (x 0).val) :
    View.readAt (Elt F) (Memref.whole cc0_scratch0 : Memref sig Kind.scVector Space.vmem S512 EltTy.i32).view (Rect.unit (s := S512) ![o] S16.size ho).toLoadRect
      (View.write (Elt F) (Memref.whole cc0_scratch0 : Memref sig Kind.scVector Space.vmem S512 EltTy.i32).view f0
        (ReadAs.same.apply (View.read (Elt F) ((Memref.whole main_arg1_scv : Memref sig Kind.scVector Space.hbm S16384 EltTy.i32).slice
          (Rect.unit (s := S16384) (k0_off1 L) S512.size (k0_off1_inb L)) (fun _ => rfl)).view (m (iLoc d)))) Finset.univ) x
      = m (iLoc d) k := by
  have ho' : o + 16 ≤ 512 := ho 0
  have hx := lane_lt x
  rw [scr0_read (F := F) f0 _ o ho x (ix1 (⟨o + (x 0).val, by omega⟩ : Fin 512)) rfl]
  exact idx_payload (F := F) L (m (iLoc d)) _ k (by rw [hk]; show _ = 512 * (tL L).val + (o + (x 0).val); omega)

/-- So it names a column of the table. -/
theorem idx_bound (hpre : PreOK m) (f0 : S512.Idx → BitVec 32) (o : ℕ) (ho : ∀ a, (![o] : Fin 1 → ℕ) a + S16.size a ≤ S512.size a) (x : S16.Idx) :
    (View.readAt (Elt F) (Memref.whole cc0_scratch0 : Memref sig Kind.scVector Space.vmem S512 EltTy.i32).view (Rect.unit (s := S512) ![o] S16.size ho).toLoadRect
      (View.write (Elt F) (Memref.whole cc0_scratch0 : Memref sig Kind.scVector Space.vmem S512 EltTy.i32).view f0
        (ReadAs.same.apply (View.read (Elt F) ((Memref.whole main_arg1_scv : Memref sig Kind.scVector Space.hbm S16384 EltTy.i32).slice
          (Rect.unit (s := S16384) (k0_off1 L) S512.size (k0_off1_inb L)) (fun _ => rfl)).view (m (iLoc d)))) Finset.univ) x).toNat < 1000 := by
  have ho' : o + 16 ≤ 512 := ho 0
  have hx := lane_lt x
  rw [idx_at m d L f0 o ho x (rowOf L (o + (x 0).val) (by omega)) (by rw [rowOf_val]; omega)]
  exact hpre d _

/-- Entry z of the blocks copied for chunk c (blocks 64·t + 2·c and the next of the reshaped table) is the launch
    table's entry at row 8·(64·t + 2·c + z₀) + z₁, column z₂. -/
theorem tab_at (off : Fin 3 → ℕ) (hin : ∀ a, off a + S2x8x1000.size a ≤ S2048x8x1000.size a)
    (hs : ∀ a, (Rect.unit (s := S2048x8x1000) off S2x8x1000.size hin).stride a = 1) (c : ℕ) (hc : c < 32)
    (hoff : off = ![128 * (L 1).val + 64 * (L 0).val + 2 * c, 0, 0]) (z : S2x8x1000.Idx) (j : S16384x1000.Idx)
    (h0 : (j 0).val = 8 * (64 * (tL L).val + 2 * c + (z 0).val) + (z 1).val) (h1 : (j 1).val = (z 2).val) :
    ReadAs.same.apply (View.read (Elt F) ((Memref.whole main_v0_scv : Memref sig Kind.scVector Space.hbm S2048x8x1000 EltTy.f32).slice
      (Rect.unit (s := S2048x8x1000) off S2x8x1000.size hin) hs).view (fv m d)) z = m (aLoc d) j := by
  have hz0 : (z 0).val < 2 := (z 0).isLt
  have hz1 : (z 1).val < 8 := (z 1).isLt
  have hz2 : (z 2).val < 1000 := (z 2).isLt
  have hL0 : (L 0).val < 2 := (L 0).isLt
  have hL1 : (L 1).val < 16 := (L 1).isLt
  have ht : (tL L).val = 2 * (L 1).val + (L 0).val := tL_val L
  let w : S2048x8x1000.Idx := ix3 (⟨128 * (L 1).val + 64 * (L 0).val + 2 * c + (z 0).val, by omega⟩ : Fin 2048) (⟨(z 1).val, hz1⟩ : Fin 8) (⟨(z 2).val, hz2⟩ : Fin 1000)
  rw [tab_payload (F := F) off hin hs _ hoff (fv m d) z w rfl rfl rfl]
  exact fv_at m d w j (by rw [h0, ht]; show _ = 8 * (128 * (L 1).val + 64 * (L 0).val + 2 * c + (z 0).val) + (z 1).val; omega) h1

/-- The specification on the subcore's own run, by position inside the run. -/
def G5 (y : S512.Idx) : Elt F .f32 := Gout m d (rowOf L (y 0).val (y 0).isLt)

/-- The specification at lane x of the piece at offset o of the run is the result's specification at row 512·t + o + x. -/
theorem G5_piece (o : ℕ) (ho : ∀ a, (![o] : Fin 1 → ℕ) a + S16.size a ≤ S512.size a) (x : S16.Idx) (k : S16384.Idx)
    (hk : (k 0).val = 512 * (tL L).val + o + (x 0).val) :
    G5 m d L ((Rect.unit (s := S512) ![o] S16.size ho).emb x) = Gout m d k := by
  unfold G5
  refine congrArg (Gout m d) ?_
  funext a
  obtain rfl : a = 0 := Subsingleton.elim _ _
  refine Fin.ext ((rowOf_val L _ _).trans ?_)
  rw [piece_emb, hk]; omega

end Cert.Proof.GatherI

end
-- ==== Proof.BodyI.lean ====
/-
  One vector subcore's task of the gather kernel, run from what the launch hands it to what it hands back. The subcore
  copies its run of the index vector into scratch, then walks its 32 chunks with up to four block copies in flight:
  for chunk c it starts the copy of chunk c + 3 (into the buffer chunk c − 1 has just been read out of), waits for
  chunk c's two blocks, reads the chunk's sixteen index words, checks the three coordinate vectors in range, picks the
  sixteen entries with one indexed load and stores them at positions 16·c … 16·c + 15 of the result scratch; at the end
  it copies the result scratch onto its run of the result. Each copy waits on a semaphore of its own buffer, so a
  buffer is read only after its copy has landed and overwritten only after it has been read. The run is symbolic; the
  indexed load is a load of the whole buffer followed by the picks. What the result scratch holds at the end is 32
  pieces of sixteen, each the specification on its sixteen rows, so the run of the result ends at the specification.
-/
import proofs.«207825_g30013231464886_cont_9to1_638_26_alg».proof.Proof.SetupI
import proofs.«207825_g30013231464886_cont_9to1_638_26_alg».proof.Proof.GeomI
import proofs.«207825_g30013231464886_cont_9to1_638_26_alg».proof.Proof.ValueI
import proofs.«207825_g30013231464886_cont_9to1_638_26_alg».proof.Proof.BodyLemI
import Idealize.ShloMosaic.Lib.Writes

noncomputable section

namespace Cert.Proof.GatherI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

-- the kernel's memrefs, spelt as the body table passes them
local notation "vW" => (Memref.whole Cert.KernelIdeal.main_v0_scv : Memref Cert.KernelIdeal.sig Kind.scVector Space.hbm Cert.KernelIdeal.S2048x8x1000 EltTy.f32)
local notation "iW" => (Memref.whole Cert.KernelIdeal.main_arg1_scv : Memref Cert.KernelIdeal.sig Kind.scVector Space.hbm Cert.KernelIdeal.S16384 EltTy.i32)
local notation "oW" => (Memref.whole Cert.KernelIdeal.main_v1_scv : Memref Cert.KernelIdeal.sig Kind.scVector Space.hbm Cert.KernelIdeal.S16384 EltTy.f32)

omit [FloatOps F] in
/-- The six scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩)]

omit [FloatOps F] in
/-- The six DMA semaphores are among the subcore's own cells: they are them, at zero, and the rest. -/
theorem ownSems0_V :
    (ownSems0 (V d (cV L) (jV L)) : sProp 𝕄)
      = iprop(semVal (((V d (cV L) (jV L)), SemLoc.dma cc0_scratch6.sem) : GSem nD τ sig) 0 ∗ semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scratch9.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0
          ∗ bigSep (((((((ownCells (V d (cV L) (jV L))).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scoped0.sem) : GSem nD τ sig)).erase (((V d (cV L) (jV L)), SemLoc.dma cc0_scoped1.sem) : GSem nD τ sig))
              fun g => semVal g 0) := by
  unfold SparseCore.Cfg.ownSems0
  rw [SparseCore.bigSep_erase' ((mem_ownCells (g := (((V d (cV L) (jV L)), SemLoc.dma cc0_scratch6.sem) : GSem nD τ sig))).mpr ⟨rfl, by show (SemLoc.dma cc0_scratch6.sem : SemLoc sig).isScoped .scVector = true; decide⟩),
    SparseCore.bigSep_erase' (Finset.mem_erase.mpr ⟨fun e => absurd (congrArg (fun g : GSem nD τ sig => g.2) e) (show (SemLoc.dma cc0_scratch7.sem : SemLoc sig) ≠ (SemLoc.dma cc0_scratch6.sem : SemLoc sig) by decide), (mem_ownCells (g := (((V d (cV L) (jV L)), SemLoc.dma cc0_scratch7.sem) : GSem nD τ sig))).mpr ⟨rfl, by show (SemLoc.dma cc0_scratch7.sem : SemLoc sig).isScoped .scVector = true; decide⟩⟩),
    SparseCore.bigSep_erase' (Finset.mem_erase.mpr ⟨fun e => absurd (congrArg (fun g : GSem nD τ sig => g.2) e) (show (SemLoc.dma cc0_scratch8.sem : SemLoc sig) ≠ (SemLoc.dma cc0_scratch7.sem : SemLoc sig) by decide), Finset.mem_erase.mpr ⟨fun e => absurd (congrArg (fun g : GSem nD τ sig => g.2) e) (show (SemLoc.dma cc0_scratch8.sem : SemLoc sig) ≠ (SemLoc.dma cc0_scratch6.sem : SemLoc sig) by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩),
    SparseCore.bigSep_erase' (Finset.mem_erase.mpr ⟨fun e => absurd (congrArg (fun g : GSem nD τ sig => g.2) e) (show (SemLoc.dma cc0_scratch9.sem : SemLoc sig) ≠ (SemLoc.dma cc0_scratch8.sem : SemLoc sig) by decide), Finset.mem_erase.mpr ⟨fun e => absurd (congrArg (fun g : GSem nD τ sig => g.2) e) (show (SemLoc.dma cc0_scratch9.sem : SemLoc sig) ≠ (SemLoc.dma cc0_scratch7.sem : SemLoc sig) by decide), Finset.mem_erase.mpr ⟨fun e => absurd (congrArg (fun g : GSem nD τ sig => g.2) e) (show (SemLoc.dma cc0_scratch9.sem : SemLoc sig) ≠ (SemLoc.dma cc0_scratch6.sem : SemLoc sig) by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩⟩),
    SparseCore.bigSep_erase' (Finset.mem_erase.mpr ⟨fun e => absurd (congrArg (fun g : GSem nD τ sig => g.2) e) (show (SemLoc.dma cc0_scoped0.sem : SemLoc sig) ≠ (SemLoc.dma cc0_scratch9.sem : SemLoc sig) by decide), Finset.mem_erase.mpr ⟨fun e => absurd (congrArg (fun g : GSem nD τ sig => g.2) e) (show (SemLoc.dma cc0_scoped0.sem : SemLoc sig) ≠ (SemLoc.dma cc0_scratch8.sem : SemLoc sig) by decide), Finset.mem_erase.mpr ⟨fun e => absurd (congrArg (fun g : GSem nD τ sig => g.2) e) (show (SemLoc.dma cc0_scoped0.sem : SemLoc sig) ≠ (SemLoc.dma cc0_scratch7.sem : SemLoc sig) by decide), Finset.mem_erase.mpr ⟨fun e => absurd (congrArg (fun g : GSem nD τ sig => g.2) e) (show (SemLoc.dma cc0_scoped0.sem : SemLoc sig) ≠ (SemLoc.dma cc0_scratch6.sem : SemLoc sig) by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨fun e => absurd (congrArg (fun g : GSem nD τ sig => g.2) e) (show (SemLoc.dma cc0_scoped1.sem : SemLoc sig) ≠ (SemLoc.dma cc0_scoped0.sem : SemLoc sig) by decide), Finset.mem_erase.mpr ⟨fun e => absurd (congrArg (fun g : GSem nD τ sig => g.2) e) (show (SemLoc.dma cc0_scoped1.sem : SemLoc sig) ≠ (SemLoc.dma cc0_scratch9.sem : SemLoc sig) by decide), Finset.mem_erase.mpr ⟨fun e => absurd (congrArg (fun g : GSem nD τ sig => g.2) e) (show (SemLoc.dma cc0_scoped1.sem : SemLoc sig) ≠ (SemLoc.dma cc0_scratch8.sem : SemLoc sig) by decide), Finset.mem_erase.mpr ⟨fun e => absurd (congrArg (fun g : GSem nD τ sig => g.2) e) (show (SemLoc.dma cc0_scoped1.sem : SemLoc sig) ≠ (SemLoc.dma cc0_scratch7.sem : SemLoc sig) by decide), Finset.mem_erase.mpr ⟨fun e => absurd (congrArg (fun g : GSem nD τ sig => g.2) e) (show (SemLoc.dma cc0_scoped1.sem : SemLoc sig) ≠ (SemLoc.dma cc0_scratch6.sem : SemLoc sig) by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩)]

omit [FloatOps F] in
theorem pts_v (q : PosShare TreeShare) (f : Buf (Elt F) (vLoc d)) :
    ((vW).view.loc (V d (cV L) (jV L)) ↦{q} f : sProp 𝕄) = vLoc d ↦{q} f := by
  simp only [Memref.view_whole, View.set_whole]
omit [FloatOps F] in
theorem pts_i (q : PosShare TreeShare) (f : Buf (Elt F) (iLoc d)) :
    ((iW).view.loc (V d (cV L) (jV L)) ↦{q} f : sProp 𝕄) = iLoc d ↦{q} f := by
  simp only [Memref.view_whole, View.set_whole]
/-- The subcore's run of the result, as the kernel slices it. -/
abbrev oS (L : grid0.Coords) : Memref sig Kind.scVector Space.hbm S512 EltTy.f32 :=
  (oW).slice (Rect.unit (s := S16384) (k0_off34 L) S512.size (k0_off34_inb L)) (fun _ => rfl)
omit [FloatOps F] in
theorem pts_o (f : Buf (Elt F) (oLoc d)) :
    ((oS L).view.loc (V d (cV L) (jV L)) ↦[(oS L).view.set]{fullShare} f : sProp 𝕄) = oLoc d ↦[outSet (tL L)]{fullShare} f := by
  rw [out_set]
omit [FloatOps F] in
theorem pts_s0 (f : Buf (Elt F) ((V d (cV L) (jV L)).loc cc0_scratch0)) :
    (((Memref.whole cc0_scratch0 : Memref sig Kind.scVector Space.vmem S512 EltTy.i32)).view.loc (V d (cV L) (jV L)) ↦{fullShare} f : sProp 𝕄)
      = (V d (cV L) (jV L)).loc cc0_scratch0 ↦{fullShare} f := rfl
omit [FloatOps F] in
theorem pts_s1 (f : Buf (Elt F) ((V d (cV L) (jV L)).loc cc0_scratch1)) :
    (((Memref.whole cc0_scratch1 : Memref sig Kind.scVector Space.vmem S2x8x1000 EltTy.f32)).view.loc (V d (cV L) (jV L)) ↦{fullShare} f : sProp 𝕄)
      = (V d (cV L) (jV L)).loc cc0_scratch1 ↦{fullShare} f := rfl
omit [FloatOps F] in
theorem pts_s2 (f : Buf (Elt F) ((V d (cV L) (jV L)).loc cc0_scratch2)) :
    (((Memref.whole cc0_scratch2 : Memref sig Kind.scVector Space.vmem S2x8x1000 EltTy.f32)).view.loc (V d (cV L) (jV L)) ↦{fullShare} f : sProp 𝕄)
      = (V d (cV L) (jV L)).loc cc0_scratch2 ↦{fullShare} f := rfl
omit [FloatOps F] in
theorem pts_s3 (f : Buf (Elt F) ((V d (cV L) (jV L)).loc cc0_scratch3)) :
    (((Memref.whole cc0_scratch3 : Memref sig Kind.scVector Space.vmem S2x8x1000 EltTy.f32)).view.loc (V d (cV L) (jV L)) ↦{fullShare} f : sProp 𝕄)
      = (V d (cV L) (jV L)).loc cc0_scratch3 ↦{fullShare} f := rfl
omit [FloatOps F] in
theorem pts_s4 (f : Buf (Elt F) ((V d (cV L) (jV L)).loc cc0_scratch4)) :
    (((Memref.whole cc0_scratch4 : Memref sig Kind.scVector Space.vmem S2x8x1000 EltTy.f32)).view.loc (V d (cV L) (jV L)) ↦{fullShare} f : sProp 𝕄)
      = (V d (cV L) (jV L)).loc cc0_scratch4 ↦{fullShare} f := rfl
omit [FloatOps F] in
theorem pts_s5 (f : Buf (Elt F) ((V d (cV L) (jV L)).loc cc0_scratch5)) :
    (((Memref.whole cc0_scratch5 : Memref sig Kind.scVector Space.vmem S512 EltTy.f32)).view.loc (V d (cV L) (jV L)) ↦{fullShare} f : sProp 𝕄)
      = (V d (cV L) (jV L)).loc cc0_scratch5 ↦{fullShare} f := rfl

/-- The indexed load standing alone (the last statement of a block): a load of the whole scratch, then the picks. -/
theorem vli_tail (c : Thread nD τ) {s t : Shape} {e : EltTy} (base : Memref sig c.2.kind .vmem s e) (idxs : Fin s.rank → IVec t 32)
    (h : ∀ a x, (idxs a x).toNat < s.size a) (hl : base.view.Loads) :
    (SparseCore.vectorLoadIdx base idxs h hl : Prog (TpuEff nD τ sig (Elt F) Λ₀ c.2) (Vec F t e))
      = .op (.load base (.whole s) (View.loadsAt_whole hl)) fun f => .ret (loadIdx f idxs h) := rfl

omit [FloatOps F] in
/-- The run of the result after the last copy, whatever it held before: the specification, once what was copied is the
    specification by position inside the run. -/
theorem out_final (fd : Buf (Elt F) (oLoc d)) (X : S512.Idx → Elt F .f32) (hX : ∀ y, X y = G5 m d L y) :
    ((oS L).view.loc (V d (cV L) (jV L)) ↦[(oS L).view.set]{fullShare}
        (oS L).view.writes (Elt F) fd [(⟨Rect.whole S512, X⟩ : View.Piece (Elt F) S512 EltTy.f32)] : sProp 𝕄)
      = oLoc d ↦[outSet (tL L)]{fullShare} Gout m d := by
  rw [out_set]
  refine pointsTo_congr fun i hi => ?_
  rw [← out_set L] at hi
  obtain ⟨y, -, rfl⟩ := Finset.mem_map.mp hi
  have h := View.read_writes_cons_emb (oS L).view fd (Rect.whole S512) X [] y
  rw [Rect.emb_whole_apply, View.read_apply, cast_eq] at h
  refine h.trans ((hX y).trans ?_)
  unfold G5
  refine congrArg (Gout m d) ?_
  funext a
  obtain rfl : a = 0 := Subsingleton.elim _ _
  exact Fin.ext ((rowOf_val L _ _).trans (out_emb L y).symm)

set_option hygiene false in
/-- One chunk's piece of the result scratch is the specification on its sixteen rows: chunk number, the piece's offset
    in the run and its in-range fact, which buffer its blocks were copied into, the closed form of the copy's offsets. -/
local macro "piece" C:num O:num HO:ident K:ident OFF:term : tactic => `(tactic| (
  intro x
  dsimp only
  have hx := lane_lt x
  have hlt : $O + (x 0).val < 512 := by omega
  refine Eq.trans ?_ (G5_piece m d L $O $HO x (rowOf L ($O + (x 0).val) hlt) ((rowOf_val L ($O + (x 0).val) hlt).trans (by omega))).symm
  refine piece_value m hpre d (tL L).val $C (tL L).isLt (by decide) _ _ _ _ ?_ ?_ ?_ ?_ _ x (rowOf L ($O + (x 0).val) hlt)
    ((rowOf_val L ($O + (x 0).val) hlt).trans (by omega))
  · intro z j h0 h1
    refine (congrFun ($K (F := F) _ _) z).trans ?_
    exact tab_at m d L _ _ (fun _ => rfl) $C (by decide) $OFF z j h0 h1
  · intro x' k hk
    exact idx_at m d L _ $O $HO x' k hk
  · exact b16_val _
  · exact r16_val _))

set_option maxHeartbeats 16000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d (tL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L vW (Memref.isWhole_whole _) iW (Memref.isWhole_whole _) oW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 cc0_scoped1)
          fun _ => iprop(tdT m d (tL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold goT tdT
  iintro ⟨#Hlv, -, ⟨Hv, Hi, Ho⟩, ⟨⟨%f0, Hs0⟩, ⟨%f1, Hs1⟩, ⟨%f2, Hs2⟩, ⟨%f3, Hs3⟩, ⟨%f4, Hs4⟩, ⟨%f5, Hs5⟩, Hbufs⟩,
    ⟨Hm6, Hm7, Hm8, Hm9, Hq0, Hq1, Hsems⟩, HO⟩
  ihave Hmw := ((K (F := F)).mayWaits_none (thr := V d (cV L) (jV L)) hO) $$ Hlv
  ihave Hi' := (Entails.of_eq (pts_i (F := F) d L _ _).symm) $$ Hi
  ihave Hv' := (Entails.of_eq (pts_v (F := F) d L _ _).symm) $$ Hv
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  ihave Hs5' := (Entails.of_eq (pts_s5 (F := F) d L _).symm) $$ Hs5
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  have hX : ∀ y, tile_body.sl.dma3_28 m d L hpre f0 f1 f2 f3 f4 f5 y = G5 m d L y := by
    intro y
    show View.read (Elt F) (Memref.whole cc0_scratch5).view (View.writes (Memref.whole cc0_scratch5).view (Elt F) f5 _) y = _
    refine View.read_writes_apply_of_pieces _ _ (G5 m d L) _ ?_ y (View.cover_of_tiled _ ![16] rfl y)
    sl_unfold_run_names
    refine List.forall_mem_cons.2 ⟨?_, ?_⟩
    · piece 31 496 inb_S512_S16_496 buf_read4 ((off30_eq L _).trans (off_tab L ⟨31, by decide⟩))
    refine List.forall_mem_cons.2 ⟨?_, ?_⟩
    · piece 30 480 inb_S512_S16_480 buf_read3 ((off29_eq L _).trans (off_tab L ⟨30, by decide⟩))
    refine List.forall_mem_cons.2 ⟨?_, ?_⟩
    · piece 29 464 inb_S512_S16_464 buf_read2 ((off28_eq L _).trans (off_tab L ⟨29, by decide⟩))
    refine List.forall_mem_cons.2 ⟨?_, ?_⟩
    · piece 28 448 inb_S512_S16_448 buf_read1 ((off27_eq L _).trans (off_tab L ⟨28, by decide⟩))
    refine List.forall_mem_cons.2 ⟨?_, ?_⟩
    · piece 27 432 inb_S512_S16_432 buf_read4 ((off26_eq L _).trans (off_tab L ⟨27, by decide⟩))
    refine List.forall_mem_cons.2 ⟨?_, ?_⟩
    · piece 26 416 inb_S512_S16_416 buf_read3 ((off25_eq L _).trans (off_tab L ⟨26, by decide⟩))
    refine List.forall_mem_cons.2 ⟨?_, ?_⟩
    · piece 25 400 inb_S512_S16_400 buf_read2 ((off24_eq L _).trans (off_tab L ⟨25, by decide⟩))
    refine List.forall_mem_cons.2 ⟨?_, ?_⟩
    · piece 24 384 inb_S512_S16_384 buf_read1 ((off23_eq L _).trans (off_tab L ⟨24, by decide⟩))
    refine List.forall_mem_cons.2 ⟨?_, ?_⟩
    · piece 23 368 inb_S512_S16_368 buf_read4 ((off22_eq L _).trans (off_tab L ⟨23, by decide⟩))
    refine List.forall_mem_cons.2 ⟨?_, ?_⟩
    · piece 22 352 inb_S512_S16_352 buf_read3 ((off21_eq L _).trans (off_tab L ⟨22, by decide⟩))
    refine List.forall_mem_cons.2 ⟨?_, ?_⟩
    · piece 21 336 inb_S512_S16_336 buf_read2 ((off20_eq L _).trans (off_tab L ⟨21, by decide⟩))
    refine List.forall_mem_cons.2 ⟨?_, ?_⟩
    · piece 20 320 inb_S512_S16_320 buf_read1 ((off19_eq L _).trans (off_tab L ⟨20, by decide⟩))
    refine List.forall_mem_cons.2 ⟨?_, ?_⟩
    · piece 19 304 inb_S512_S16_304 buf_read4 ((off18_eq L _).trans (off_tab L ⟨19, by decide⟩))
    refine List.forall_mem_cons.2 ⟨?_, ?_⟩
    · piece 18 288 inb_S512_S16_288 buf_read3 ((off17_eq L _).trans (off_tab L ⟨18, by decide⟩))
    refine List.forall_mem_cons.2 ⟨?_, ?_⟩
    · piece 17 272 inb_S512_S16_272 buf_read2 ((off16_eq L _).trans (off_tab L ⟨17, by decide⟩))
    refine List.forall_mem_cons.2 ⟨?_, ?_⟩
    · piece 16 256 inb_S512_S16_256 buf_read1 ((off15_eq L _).trans (off_tab L ⟨16, by decide⟩))
    refine List.forall_mem_cons.2 ⟨?_, ?_⟩
    · piece 15 240 inb_S512_S16_240 buf_read4 ((off14_eq L _).trans (off_tab L ⟨15, by decide⟩))
    refine List.forall_mem_cons.2 ⟨?_, ?_⟩
    · piece 14 224 inb_S512_S16_224 buf_read3 ((off13_eq L _).trans (off_tab L ⟨14, by decide⟩))
    refine List.forall_mem_cons.2 ⟨?_, ?_⟩
    · piece 13 208 inb_S512_S16_208 buf_read2 ((off12_eq L _).trans (off_tab L ⟨13, by decide⟩))
    refine List.forall_mem_cons.2 ⟨?_, ?_⟩
    · piece 12 192 inb_S512_S16_192 buf_read1 ((off11_eq L _).trans (off_tab L ⟨12, by decide⟩))
    refine List.forall_mem_cons.2 ⟨?_, ?_⟩
    · piece 11 176 inb_S512_S16_176 buf_read4 ((off10_eq L _).trans (off_tab L ⟨11, by decide⟩))
    refine List.forall_mem_cons.2 ⟨?_, ?_⟩
    · piece 10 160 inb_S512_S16_160 buf_read3 ((off9_eq L _).trans (off_tab L ⟨10, by decide⟩))
    refine List.forall_mem_cons.2 ⟨?_, ?_⟩
    · piece 9 144 inb_S512_S16_144 buf_read2 ((off8_eq L _).trans (off_tab L ⟨9, by decide⟩))
    refine List.forall_mem_cons.2 ⟨?_, ?_⟩
    · piece 8 128 inb_S512_S16_128 buf_read1 ((off7_eq L _).trans (off_tab L ⟨8, by decide⟩))
    refine List.forall_mem_cons.2 ⟨?_, ?_⟩
    · piece 7 112 inb_S512_S16_112 buf_read4 ((off6_eq L _).trans (off_tab L ⟨7, by decide⟩))
    refine List.forall_mem_cons.2 ⟨?_, ?_⟩
    · piece 6 96 inb_S512_S16_96 buf_read3 ((off5_eq L _).trans (off_tab L ⟨6, by decide⟩))
    refine List.forall_mem_cons.2 ⟨?_, ?_⟩
    · piece 5 80 inb_S512_S16_80 buf_read2 ((off4_eq L _).trans (off_tab L ⟨5, by decide⟩))
    refine List.forall_mem_cons.2 ⟨?_, ?_⟩
    · piece 4 64 inb_S512_S16_64 buf_read1 ((off3_eq L _).trans (off_tab L ⟨4, by decide⟩))
    refine List.forall_mem_cons.2 ⟨?_, ?_⟩
    · piece 3 48 inb_S512_S16_48 buf_read4 (off_tab L ⟨3, by decide⟩)
    refine List.forall_mem_cons.2 ⟨?_, ?_⟩
    · piece 2 32 inb_S512_S16_32 buf_read3 (off_tab L ⟨2, by decide⟩)
    refine List.forall_mem_cons.2 ⟨?_, ?_⟩
    · piece 1 16 inb_S512_S16_16 buf_read2 (off_tab L ⟨1, by decide⟩)
    refine List.forall_mem_cons.2 ⟨?_, ?_⟩
    · piece 0 0 inb_S512_S16_0 buf_read1 (off_tab L ⟨0, by decide⟩)
    exact fun _ h => absurd h List.not_mem_nil
  ihave Ho2 := (Entails.of_eq (out_final (F := F) m d L _ _ hX)) $$ Ho'
  sl_step
  isplitl [Ho2]; · iexact Ho2
  isplitl [Hs0' Hs1' Hs2' Hs3' Hs4' Hs5' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2']; · iexists _; iapply (Entails.of_eq (pts_s2 (F := F) d L _)); iexact Hs2'
    isplitl [Hs3']; · iexists _; iapply (Entails.of_eq (pts_s3 (F := F) d L _)); iexact Hs3'
    isplitl [Hs4']; · iexists _; iapply (Entails.of_eq (pts_s4 (F := F) d L _)); iexact Hs4'
    isplitl [Hs5']; · iexists _; iapply (Entails.of_eq (pts_s5 (F := F) d L _)); iexact Hs5'
    iexact Hbufs
  isplitl [Hm6 Hm7 Hm8 Hm9 Hq0 Hq1 Hsems]
  · isplitl [Hm6]; · iexact Hm6
    isplitl [Hm7]; · iexact Hm7
    isplitl [Hm8]; · iexact Hm8
    isplitl [Hm9]; · iexact Hm9
    isplitl [Hq0]; · iexact Hq0
    isplitl [Hq1]; · iexact Hq1
    iexact Hsems
  iexists _; isplitr
  rotate_left
  · iexact HO
  · ipureintro
    iterate 34 (refine (Finset.forall_mem_insert _ _ _).2 ⟨?_, ?_⟩; exact Or.inr rfl)
    exact fun p hp => Or.inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task meets the launch's obligation: handed its shares and its run, it hands the run back at the
    specification. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.GatherI

end
-- ==== Proof.SetupK.lean ====
/-
  What the launch of the gather kernel carries, stated once for the body, the launch and the claims to share.
  The table is handed to the thirty-two vector subcores as READ SHARES of the whole reshaped array (every subcore copies
  blocks of it, several copies in flight at once), the index vector likewise; the result array is cut into thirty-two
  consecutive runs of 512 entries, run number 2·s + c to subcore s of SparseCore c, each handed over exclusively and
  handed back holding the ONE whole-array function of the specification on its run.
-/
import proofs.«207825_g30013231464886_cont_9to1_638_26_alg».proof.Defs
import proofs.«207825_g30013231464886_cont_9to1_638_26_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Value
import Idealize.ShloMosaic.Lib.Tactic
import proofs.«207825_g30013231464886_cont_9to1_638_26_alg».proof.Proof.Gen.Kernel
import proofs.«207825_g30013231464886_cont_9to1_638_26_alg».proof.Proof.Gen.Kernel.Skeleton

noncomputable section

namespace Cert.Proof.GatherK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, the specification -/

variable (m : (ℓ : Loc nD τ sig) → Buf (Elt F) ℓ) (ρ : Dev nD → PrngReg)

/-- The table and the index vector (the arguments), the table reshaped into blocks of eight rows (what the kernel
    reads), the result. -/
abbrev aLoc (d : Dev nD) : Loc nD τ sig := (SparseCore.T d).loc main_arg0
abbrev iLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

/-- The reshaped table: the launch table's entries in row-major order at the blocked shape. -/
def fv (d : Dev nD) : Buf (Elt F) (vLoc d) := shapeCast S2048x8x1000 (m (aLoc d)) shapeCasts_S16384x1000_S2048x8x1000

/-- The result the kernel leaves: entry (j, index j) of the launch table, for every row j. -/
def Gout (d : Dev nD) : Buf (Elt F) (oLoc d) := Spec.gatherRow (m (aLoc d)) (m (iLoc d))

/-- What the proof asks of the launch memory: every index word names a column of the table. -/
def PreOK : Prop := ∀ (d : Dev nD) (j : S16384.Idx), (m (iLoc d) j).toNat < 1000

/-! ## The thirty-two runs of the result and who works on which -/

theorem hdiv : 32 ∣ S16384.size 0 := ⟨512, rfl⟩
/-- Run `t` of the result: entries 512·t … 512·t + 511. -/
abbrev outRect (t : Fin 32) : Rect S16384 := Rect.part (s := S16384) (a₀ := 0) hdiv t
abbrev outSet (t : Fin 32) : Finset S16384.Idx := (outRect t).set

/-- Subcore `i` of SparseCore `c` works on run 2·i + c. -/
def tileNo (c : Fin ((K (F := F)).nCore 0)) (i : Fin ((K (F := F)).nSub 0)) : Fin 32 :=
  ⟨2 * i.val + c.val, by have hc : c.val < 2 := c.isLt; have hi : i.val < 16 := i.isLt; omega⟩

/-- The read share of the whole table (and of the whole index vector) run `t`'s subcore is handed. -/
abbrev qT (t : Fin 32) : PosShare TreeShare := shareTok fullShare 32 t

/-! ## What the handshakes carry -/

variable [FloatOps F]

/-- What a subcore is handed: its read shares of the reshaped table and of the index vector, its run of the result. -/
def goT (d : Dev nD) (t : Fin 32) : sProp 𝕄 :=
  iprop((vLoc d ↦{qT t} fv m d) ∗ (iLoc d ↦{qT t} m (iLoc d)) ∗ oLoc d ↦[outSet t]{fullShare} m (oLoc d))
/-- What it hands back: its run of the result, holding the specification there. -/
def tdT (d : Dev nD) (t : Fin 32) : sProp 𝕄 := oLoc d ↦[outSet t]{fullShare} Gout m d

instance goT_storable (d : Dev nD) (t : Fin 32) : BI.Storable (upEmb : UEmb _ 𝕄) (goT m d t) := by unfold goT; infer_instance
instance tdT_storable (d : Dev nD) (t : Fin 32) : BI.Storable (upEmb : UEmb _ 𝕄) (tdT m d t) := by unfold tdT; infer_instance

/-- The one call: a SparseCore is handed what its sixteen subcores are, and hands back what they do. -/
def P : (K (F := F)).Pay (nD := nD) (Val := Elt F) (Name := ℕ) (U := UU) where
  st := fun q d c => match q with | 0 => bigSep Finset.univ fun i : Fin ((K (F := F)).nSub 0) => goT m d (tileNo c i)
  dn := fun q d c => match q with | 0 => bigSep Finset.univ fun i : Fin ((K (F := F)).nSub 0) => tdT m d (tileNo c i)
  go := fun q d c i => match q with | 0 => goT m d (tileNo c i)
  td := fun q d c i => match q with | 0 => tdT m d (tileNo c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goT m d (tileNo c i)))
  dn q d c := match q with
    | 0 => (inferInstance : BI.Storable (upEmb : UEmb _ 𝕄) (bigSep Finset.univ fun i : Fin ((K (F := F)).nSub 0) => tdT m d (tileNo c i)))
  go q d c i := match q with
    | 0 => (inferInstance : BI.Storable (upEmb : UEmb _ 𝕄) (goT m d (tileNo c i)))
  td q d c i := match q with
    | 0 => (inferInstance : BI.Storable (upEmb : UEmb _ 𝕄) (tdT m d (tileNo c i)))

/-- What the claims read off the final memory: the result at the specification, the arguments unchanged. -/
def QC : PUnit × MemSt nD τ sig (Elt F) → Prop := fun r =>
  ∀ c : Dev nD, r.2.mem (oLoc c) = Gout m c ∧ r.2.mem (aLoc c) = m (aLoc c) ∧ r.2.mem (iLoc c) = m (iLoc c)

end Cert.Proof.GatherK

end
-- ==== Proof.LaunchK.lean ====
/-
  The launch of the gather kernel: the host's reshape of the table, the hand-over of the reshaped table and of the
  index vector as one read share per run of the result, of the result itself cut into its thirty-two runs, the call,
  and the runs joined back into the whole result holding the specification; the tile obligation is a hypothesis.
-/
import proofs.«207825_g30013231464886_cont_9to1_638_26_alg».proof.Proof.SetupK

noncomputable section

namespace Cert.Proof.GatherK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands are its subcores', its results theirs -/

theorem vecSplit : (K (F := F)).VecSplit' (P m) 0 := by
  intro d c
  show (bigSep Finset.univ fun i : Fin ((K (F := F)).nSub 0) => goT m d (tileNo c i)) ⊢ |={Set.univ}=> iprop(
      (bigSep Finset.univ fun i : Fin ((K (F := F)).nSub 0) => goT m d (tileNo c i))
      ∗ ((bigSep Finset.univ fun i : Fin ((K (F := F)).nSub 0) => tdT m d (tileNo c i))
          -∗ bigSep Finset.univ fun i : Fin ((K (F := F)).nSub 0) => tdT m d (tileNo c i)))
  iintro H; imodintro
  isplitl [H]; · iexact H
  iintro H; iexact H

/-! ## The launch element: the handshakes' rounds; the counters are not needed -/

def u₀ : UU := (initOf (K (F := F)).hsCells (K (F := F)).hsToks, 1)

omit [FloatOps F] in
private theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim, and how the final memory reads it -/

abbrev FIN (d : Dev nD) : sProp 𝕄 :=
  iprop((aLoc d ↦{fullShare} m (aLoc d)) ∗ (iLoc d ↦{shareDrop fullShare 32} m (iLoc d)) ∗ oLoc d ↦{fullShare} Gout m d)

def fq (d : Dev nD) (s' : Phys nD τ sig (Elt F)) : Prop :=
  s'.mem.mem (oLoc d) = Gout m d ∧ s'.mem.mem (aLoc d) = m (aLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := shareDrop fullShare 32) (f := m (iLoc d)))) $$ [HSI Hi]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The thirty-two runs, by SparseCore and subcore -/

omit [FloatOps F] in
/-- Run numbers 2·i + c, c < 2, are distinct for distinct (c, i). -/
private theorem tileNo_inj : Function.Injective fun p : Fin ((K (F := F)).nCore 0) × Fin ((K (F := F)).nSub 0) => tileNo (F := F) p.1 p.2 := by
  rintro ⟨c, i⟩ ⟨c', i'⟩ h
  have hc : c.val < 2 := c.isLt
  have hc' : c'.val < 2 := c'.isLt
  have h' : 2 * i.val + c.val = 2 * i'.val + c'.val := congrArg Fin.val h
  have h1 : c.val = c'.val := by omega
  have h2 : i.val = i'.val := by omega
  exact Prod.ext (Fin.ext h1) (Fin.ext h2)

omit [FloatOps F] in
/-- Every run number below 32 is 2·i + c for c its parity and i its half. -/
private theorem tileNo_surj (t : Fin 32) : ∃ p : Fin ((K (F := F)).nCore 0) × Fin ((K (F := F)).nSub 0), tileNo (F := F) p.1 p.2 = t := by
  have ht : t.val < 32 := t.isLt
  refine ⟨(⟨t.val % 2, show t.val % 2 < 2 from Nat.mod_lt _ (by decide)⟩, ⟨t.val / 2, show t.val / 2 < 16 by omega⟩), Fin.ext ?_⟩
  show 2 * (t.val / 2) + t.val % 2 = t.val
  omega

omit [FloatOps F] in
private theorem univ_tiles : (Finset.univ : Finset (Fin 32))
    = (Finset.univ : Finset (Fin ((K (F := F)).nCore 0) × Fin ((K (F := F)).nSub 0))).image fun p => tileNo (F := F) p.1 p.2 := by
  ext t
  simp only [Finset.mem_univ, Finset.mem_image, true_and, true_iff]
  exact tileNo_surj t

omit [FloatOps F] in
/-- A family over the thirty-two runs, regrouped by SparseCore and then by subcore. -/
private theorem bigSep_tiles (Φ : Fin 32 → sProp 𝕄) :
    bigSep Finset.univ Φ
      = bigSep Finset.univ fun c : Fin ((K (F := F)).nCore 0) => bigSep Finset.univ fun i : Fin ((K (F := F)).nSub 0) => Φ (tileNo (F := F) c i) := by
  rw [univ_tiles (F := F), SparseCore.bigSep_image_of_injOn ((tileNo_inj (F := F)).injOn) Φ, ← Finset.univ_product_univ, SparseCore.bigSep_product]

omit [FloatOps F] in
private theorem outs_disjoint : ∀ t ∈ (Finset.univ : Finset (Fin 32)), ∀ t' ∈ (Finset.univ : Finset (Fin 32)), t ≠ t' → Disjoint (outSet t) (outSet t') :=
  fun _ _ _ _ h => Rect.part_disjoint hdiv h
omit [FloatOps F] in
private theorem outs_cover : (Finset.univ : Finset (Fin 32)).biUnion outSet = Finset.univ := Rect.biUnion_part hdiv

omit [FloatOps F] in
/-- The whole result is its thirty-two runs, at any one contents. -/
private theorem oPts_runs (d : Dev nD) (f : Buf (Elt F) (oLoc d)) :
    (oLoc d ↦{fullShare} f : sProp 𝕄) = bigSep Finset.univ fun t : Fin 32 => oLoc d ↦[outSet t]{fullShare} f := by
  rw [← pointsTo_biUnion Finset.univ (ℓ := oLoc d) outSet outs_disjoint, outs_cover]; try rfl

/-- What the call takes for the two SparseCores: every run's read shares and its piece of the result. -/
private theorem st0_eq (d : Dev nD) :
    (bigSep Finset.univ fun c : Fin ((K (F := F)).nCore 0) => (P m).st 0 d c)
      = iprop((bigSep Finset.univ fun t : Fin 32 => vLoc d ↦{qT t} fv m d) ∗ (bigSep Finset.univ fun t : Fin 32 => iLoc d ↦{qT t} m (iLoc d))
          ∗ bigSep Finset.univ fun t : Fin 32 => oLoc d ↦[outSet t]{fullShare} m (oLoc d)) := by
  show (bigSep Finset.univ fun c : Fin ((K (F := F)).nCore 0) => bigSep Finset.univ fun i : Fin ((K (F := F)).nSub 0) => goT m d (tileNo c i)) = _
  rw [← bigSep_tiles (F := F) (fun t => goT m d t)]
  unfold goT
  rw [bigSep_sep', bigSep_sep']

/-- What it hands back: the whole result, holding the specification. -/
private theorem dn0_eq (d : Dev nD) :
    (bigSep Finset.univ fun c : Fin ((K (F := F)).nCore 0) => (P m).dn 0 d c) = (oLoc d ↦{fullShare} Gout m d : sProp 𝕄) := by
  show (bigSep Finset.univ fun c : Fin ((K (F := F)).nCore 0) => bigSep Finset.univ fun i : Fin ((K (F := F)).nSub 0) => tdT m d (tileNo c i)) = _
  rw [← bigSep_tiles (F := F) (fun t => tdT m d t)]
  unfold tdT
  rw [← oPts_runs]

/-! ## @main on the TensorCore -/

private abbrev a' : DevRef τ sig := Proc.devRef .tc (main_arg0 : Ref sig .tc)
private abbrev v' : DevRef τ sig := Proc.devRef .tc (main_v0 : Ref sig .tc)
private abbrev opR : HloOp τ sig (Elt F) := StableHlo.reshape main_arg0 main_v0 rfl shapeCasts_S16384x1000_S2048x8x1000

/-- The reshape's two arrays: the table and its blocked copy. -/
private abbrev S2 : Finset (DevRef τ sig) := {a', v'}

omit [FloatOps F] in
private theorem held_S2 (d : Dev nD) (W : Valuation τ sig (Elt F)) :
    (held (T d) S2 W : sProp 𝕄) = iprop((aLoc d ↦{fullShare} W a') ∗ vLoc d ↦{fullShare} W v') := by
  unfold held S2
  rw [SparseCore.bigSep_insert' (by decide), bigSep_singleton]

omit [FloatOps F] in
private theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (vLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
private def V0 (d : Dev nD) : Valuation τ sig (Elt F) := fun b => m (d, b)

private theorem hR : (opR (F := F)).bufs ⊆ S2 := show ({a', v'} : Finset (DevRef τ sig)) ⊆ S2 from Finset.Subset.refl _

/-- After the reshape the table is what it was and its blocked copy holds the table's entries in row-major order. -/
private theorem res_a (d : Dev nD) : (opR (F := F)).result (V0 m d) a' = m (aLoc d) :=
  (opR (F := F)).result_of_not_mem (V0 m d) (b := a') (show a' ∉ ({v'} : Finset (DevRef τ sig)) by decide)
private theorem res_v (d : Dev nD) : (opR (F := F)).result (V0 m d) v' = fv m d :=
  StableHlo.reshape_result main_arg0 main_v0 rfl shapeCasts_S16384x1000_S2048x8x1000 ⟨by decide, rfl⟩ ⟨by decide, rfl⟩ (V0 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hi, Hv, Ho⟩, -, -⟩, -⟩
  -- the reshape, over the table and its blocked copy
  iapply (wp_hlo_within 𝒱 (SparseCore.T d) none Set.univ (op := opR) (S := S2) hR (V := V0 m d)) $$ [Hb Ha Hv]
  · isplitl [Hb]; · iexact Hb
    rw [held_S2]
    isplitl [Ha]; · iexact Ha
    iexact Hv
  iintro ⟨Hb, Hheld⟩
  ihave Hh := (Entails.of_eq (held_S2 (F := F) d _)) $$ Hheld
  rw [res_a, res_v]
  icases Hh with ⟨Ha, Hv⟩
  -- one read share of the blocked table and of the index vector per run; the result cut into its runs
  ihave Hv' := (Transfers.pointsTo_toks_split (ℓ := vLoc d) (S := Finset.univ) (f := fv m d) fullShare 32) $$ Hv
  icases Hv' with ⟨-, Hvs⟩
  ihave Hi' := (Transfers.pointsTo_toks_split (ℓ := iLoc d) (S := Finset.univ) (f := m (iLoc d)) fullShare 32) $$ Hi
  icases Hi' with ⟨Hi, His⟩
  ihave Hos := (Entails.of_eq (oPts_runs (F := F) d (m (oLoc d)))) $$ Ho
  rw [wp_ret]; imodintro
  -- the call: every run's shares and piece to its subcore, the pieces back holding the specification
  iapply ((K (F := F)).wp_run (D (F := F)) 𝒱 (EH := EH) (P := P m) κ d 0) $$ [Hst Hvs His Hos Ha Hi]
  isplitr; · iexact Hctx
  isplitl [Hst]; · iexact Hst
  isplitl [Hvs His Hos]
  · rw [st0_eq]
    isplitl [Hvs]; · iexact Hvs
    isplitl [His]; · iexact His
    iexact Hos
  iintro ⟨Hst, Hdn⟩
  ihave Ho := (Entails.of_eq (dn0_eq m d)) $$ Hdn
  imodintro
  isplitl [Hst]; · iexact Hst
  isplitl [Ha]; · iexact Ha
  isplitl [Hi]; · iexact Hi
  iexact Ho

/-! ## The program's run -/

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.GatherK

end
-- ==== Proof.GeomK.lean ====
/-
  The geometry of the gather kernel's accesses: which entry of the blocked table a chunk's copy carries at an index of
  the chunk, which index word a run's copy of the index vector carries, what a sixteen-lane piece of a scratch and a
  whole scratch read, the lane vectors that name the block row and the row within it, and the run of the result a
  subcore writes. Each is an equation between indices, stated through their coordinates' values.
-/
import proofs.«207825_g30013231464886_cont_9to1_638_26_alg».proof.Proof.SetupK

set_option Elab.async false

namespace Cert.Proof.GatherK

open Cert.Kernel Cert.Kernel.Gen

open Idealize.ShloMosaic

variable {F : FTy → Type}

/-! ## A grid point's subcore and its run of the result -/

abbrev cV (L : grid0.Coords) : Fin τ.nSC := (L 0).castLE hcore0
abbrev jV (L : grid0.Coords) : Fin τ.nSub := (L 1).castLE hsub0

/-- The run of the result the subcore at grid point L works on: 2·(L 1) + (L 0). -/
def tL (L : grid0.Coords) : Fin 32 :=
  ⟨2 * (L 1).val + (L 0).val, by have h0 : (L 0).val < 2 := (L 0).isLt; have h1 : (L 1).val < 16 := (L 1).isLt; omega⟩

theorem tL_val (L : grid0.Coords) : (tL L).val = 2 * (L 1).val + (L 0).val := rfl

/-! ## The table slices' offsets: one chain for every chunk -/

theorem off3_eq (L : grid0.Coords) (w : BitVec 32) : k0_off3 L w = k0_off2 L w := rfl
theorem off4_eq (L : grid0.Coords) (w : BitVec 32) : k0_off4 L w = k0_off2 L w := rfl
theorem off5_eq (L : grid0.Coords) (w : BitVec 32) : k0_off5 L w = k0_off2 L w := rfl
theorem off6_eq (L : grid0.Coords) (w : BitVec 32) : k0_off6 L w = k0_off2 L w := rfl
theorem off7_eq (L : grid0.Coords) (w : BitVec 32) : k0_off7 L w = k0_off2 L w := rfl
theorem off8_eq (L : grid0.Coords) (w : BitVec 32) : k0_off8 L w = k0_off2 L w := rfl
theorem off9_eq (L : grid0.Coords) (w : BitVec 32) : k0_off9 L w = k0_off2 L w := rfl
theorem off10_eq (L : grid0.Coords) (w : BitVec 32) : k0_off10 L w = k0_off2 L w := rfl
theorem off11_eq (L : grid0.Coords) (w : BitVec 32) : k0_off11 L w = k0_off2 L w := rfl
theorem off12_eq (L : grid0.Coords) (w : BitVec 32) : k0_off12 L w = k0_off2 L w := rfl
theorem off13_eq (L : grid0.Coords) (w : BitVec 32) : k0_off13 L w = k0_off2 L w := rfl
theorem off14_eq (L : grid0.Coords) (w : BitVec 32) : k0_off14 L w = k0_off2 L w := rfl
theorem off15_eq (L : grid0.Coords) (w : BitVec 32) : k0_off15 L w = k0_off2 L w := rfl
theorem off16_eq (L : grid0.Coords) (w : BitVec 32) : k0_off16 L w = k0_off2 L w := rfl
theorem off17_eq (L : grid0.Coords) (w : BitVec 32) : k0_off17 L w = k0_off2 L w := rfl
theorem off18_eq (L : grid0.Coords) (w : BitVec 32) : k0_off18 L w = k0_off2 L w := rfl
theorem off19_eq (L : grid0.Coords) (w : BitVec 32) : k0_off19 L w = k0_off2 L w := rfl
theorem off20_eq (L : grid0.Coords) (w : BitVec 32) : k0_off20 L w = k0_off2 L w := rfl
theorem off21_eq (L : grid0.Coords) (w : BitVec 32) : k0_off21 L w = k0_off2 L w := rfl
theorem off22_eq (L : grid0.Coords) (w : BitVec 32) : k0_off22 L w = k0_off2 L w := rfl
theorem off23_eq (L : grid0.Coords) (w : BitVec 32) : k0_off23 L w = k0_off2 L w := rfl
theorem off24_eq (L : grid0.Coords) (w : BitVec 32) : k0_off24 L w = k0_off2 L w := rfl
theorem off25_eq (L : grid0.Coords) (w : BitVec 32) : k0_off25 L w = k0_off2 L w := rfl
theorem off26_eq (L : grid0.Coords) (w : BitVec 32) : k0_off26 L w = k0_off2 L w := rfl
theorem off27_eq (L : grid0.Coords) (w : BitVec 32) : k0_off27 L w = k0_off2 L w := rfl
theorem off28_eq (L : grid0.Coords) (w : BitVec 32) : k0_off28 L w = k0_off2 L w := rfl
theorem off29_eq (L : grid0.Coords) (w : BitVec 32) : k0_off29 L w = k0_off2 L w := rfl
theorem off30_eq (L : grid0.Coords) (w : BitVec 32) : k0_off30 L w = k0_off2 L w := rfl
theorem off31_eq (L : grid0.Coords) : k0_off31 L = k0_off2 L 58#32 := rfl
theorem off32_eq (L : grid0.Coords) : k0_off32 L = k0_off2 L 60#32 := rfl
theorem off33_eq (L : grid0.Coords) : k0_off33 L = k0_off2 L 62#32 := rfl

/-- Chunk c of the subcore at L starts at block row 64·(2·(L 1) + (L 0)) + 2·c of the blocked table. -/
theorem off_tab : ∀ (L : grid0.Coords) (c : Fin 32),
    k0_off2 L (BitVec.ofNat 32 (2 * c.val)) = ![128 * (L 1).val + 64 * (L 0).val + 2 * c.val, 0, 0] := by decide +kernel

/-! ## What a copy carries at an index -/

/-- A chunk's copy out of the blocked table, at an index of the chunk: the table's entry B block rows further. -/
theorem tab_payload (off : Fin 3 → ℕ) (hin : ∀ a, off a + S2x8x1000.size a ≤ S2048x8x1000.size a)
    (hs : ∀ a, (Rect.unit (s := S2048x8x1000) off S2x8x1000.size hin).stride a = 1) (B : ℕ) (hoff : off = ![B, 0, 0])
    (g : S2048x8x1000.Idx → Elt F .f32) (z : S2x8x1000.Idx) (w : S2048x8x1000.Idx)
    (h0 : (w 0).val = B + (z 0).val) (h1 : (w 1).val = (z 1).val) (h2 : (w 2).val = (z 2).val) :
    ReadAs.same.apply (View.read (Elt F) ((Memref.whole Cert.Kernel.main_v0_scv : Memref sig Kind.scVector Space.hbm S2048x8x1000 EltTy.f32).slice
      (Rect.unit (s := S2048x8x1000) off S2x8x1000.size hin) hs).view g) z = g w := by
  subst hoff
  show g ((Rect.unit (s := S2048x8x1000) ![B, 0, 0] S2x8x1000.size hin).emb z) = g w
  refine congrArg g (funext fun a => Fin.ext ?_)
  rw [Rect.emb_apply]
  match a with
  | 0 => show B + 1 * (z 0).val = (w 0).val; omega
  | 1 => show 0 + 1 * (z 1).val = (w 1).val; omega
  | 2 => show 0 + 1 * (z 2).val = (w 2).val; omega

/-- A run's copy out of the index vector, at an index of the run: the index word 512·(run number) further. -/
theorem idx_payload (L : grid0.Coords) (g : S16384.Idx → BitVec 32) (y : S512.Idx) (k : S16384.Idx)
    (hk : (k 0).val = 512 * (tL L).val + (y 0).val) :
    ReadAs.same.apply (View.read (Elt F) ((Memref.whole Cert.Kernel.main_arg1_scv : Memref sig Kind.scVector Space.hbm S16384 EltTy.i32).slice
      (Rect.unit (s := S16384) (k0_off1 L) S512.size (k0_off1_inb L)) (fun _ => rfl)).view g) y = g k := by
  show g ((Rect.unit (s := S16384) (k0_off1 L) S512.size (k0_off1_inb L)).emb y) = g k
  refine congrArg g (funext fun a => Fin.ext ?_)
  rw [Rect.emb_apply]
  match a with
  | 0 =>
    show k0_off1 L 0 + 1 * (y 0).val = (k 0).val
    rw [k0_off1_eq, hk, tL_val]
    show 1024 * (L 1).val + 512 * (L 0).val + 1 * (y 0).val = _
    omega

/-! ## Scratch reads -/

/-- Sixteen lanes of the index scratch from position o, after the scratch was written whole: the written word o further. -/
theorem scr0_read (f0 P : S512.Idx → BitVec 32) (o : ℕ) (ho : ∀ a, (![o] : Fin 1 → ℕ) a + S16.size a ≤ S512.size a) (x : S16.Idx) (y : S512.Idx)
    (hy : (y 0).val = o + (x 0).val) :
    View.readAt (Elt F) (Memref.whole cc0_scratch0 : Memref sig Kind.scVector Space.vmem S512 EltTy.i32).view (Rect.unit (s := S512) ![o] S16.size ho).toLoadRect
      (View.write (Elt F) (Memref.whole cc0_scratch0 : Memref sig Kind.scVector Space.vmem S512 EltTy.i32).view f0 P Finset.univ) x = P y := by
  rw [View.readAt_apply]
  simp only [Memref.view_whole, View.write_whole_univ, View.read_whole]
  refine congrArg P (funext fun a => Fin.ext ?_)
  rw [LoadRect.idx_apply]
  match a with
  | 0 => show o + 1 * (x 0).val = (y 0).val; omega

private theorem whole_idx (s : Shape) (x : s.Idx) : (LoadRect.whole s).idx x = x := by
  funext a; apply Fin.ext
  rw [LoadRect.idx_apply]
  show 0 + 1 * (x a).val = (x a).val
  omega

/-- A block scratch read whole after it was written whole: what was written. -/
theorem buf_read1 (g P : S2x8x1000.Idx → Elt F .f32) :
    View.readAt (Elt F) (Memref.whole cc0_scratch1 : Memref sig Kind.scVector Space.vmem S2x8x1000 EltTy.f32).view (LoadRect.whole S2x8x1000)
      (View.write (Elt F) (Memref.whole cc0_scratch1 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)
theorem buf_read2 (g P : S2x8x1000.Idx → Elt F .f32) :
    View.readAt (Elt F) (Memref.whole cc0_scratch2 : Memref sig Kind.scVector Space.vmem S2x8x1000 EltTy.f32).view (LoadRect.whole S2x8x1000)
      (View.write (Elt F) (Memref.whole cc0_scratch2 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)
theorem buf_read3 (g P : S2x8x1000.Idx → Elt F .f32) :
    View.readAt (Elt F) (Memref.whole cc0_scratch3 : Memref sig Kind.scVector Space.vmem S2x8x1000 EltTy.f32).view (LoadRect.whole S2x8x1000)
      (View.write (Elt F) (Memref.whole cc0_scratch3 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)
theorem buf_read4 (g P : S2x8x1000.Idx → Elt F .f32) :
    View.readAt (Elt F) (Memref.whole cc0_scratch4 : Memref sig Kind.scVector Space.vmem S2x8x1000 EltTy.f32).view (LoadRect.whole S2x8x1000)
      (View.write (Elt F) (Memref.whole cc0_scratch4 : Memref sig Kind.scVector Space.vmem S2x8x1000 EltTy.f32).view g P Finset.univ) = P := by
  funext x
  rw [View.readAt_apply]
  simp only [Memref.view_whole, View.write_whole_univ, View.read_whole]
  exact congrArg P (whole_idx S2x8x1000 x)

/-- Lane x of the sixteen-lane piece at position o is position o + x. -/
theorem piece_emb (o : ℕ) (ho : ∀ a, (![o] : Fin 1 → ℕ) a + S16.size a ≤ S512.size a) (x : S16.Idx) :
    (((Rect.unit (s := S512) ![o] S16.size ho).emb x) 0).val = o + (x 0).val := by
  rw [Rect.emb_apply]
  show o + 1 * (x 0).val = o + (x 0).val
  omega

/-! ## The lane vectors -/

/-- Lane x of the lane sequence, a zero vector added: the word x. -/
private theorem lane_val (h : S16.Iotas .scVector 32 [0]) (x : S16.Idx) :
    addi (broadcast S16 0#32) (iota .scVector S16 32 [0] h) x = BitVec.ofNat 32 (x 0).val := by
  show IntOp.addi (0#32) (BitVec.ofNat 32 (0 * S16.size 0 + (x 0).val)) = BitVec.ofNat 32 (x 0).val
  simp [IntOp.addi]

/-- The lane number shifted right by three: the row of eight the lane lies in. -/
theorem b16_val (h : S16.Iotas .scVector 32 [0]) (x : S16.Idx) :
    (shrui (addi (broadcast S16 0#32) (iota .scVector S16 32 [0] h)) (broadcast S16 3#32) x).toNat = (x 0).val / 8 := by
  have hx : (x 0).val < 16 := (x 0).isLt
  show (IntOp.shrui .vector (addi (broadcast S16 0#32) (iota .scVector S16 32 [0] h) x) (3#32)).toNat = _
  rw [lane_val]
  unfold IntOp.shrui
  rw [if_pos (by decide)]
  simp [Nat.shiftRight_eq_div_pow]
  omega

/-- The lane number's low three bits: its place within its row of eight. -/
theorem r16_val (h : S16.Iotas .scVector 32 [0]) (x : S16.Idx) :
    (andi (addi (broadcast S16 0#32) (iota .scVector S16 32 [0] h)) (broadcast S16 7#32) x).toNat = (x 0).val % 8 := by
  have hx : (x 0).val < 16 := (x 0).isLt
  show (IntOp.andi (addi (broadcast S16 0#32) (iota .scVector S16 32 [0] h) x) (7#32)).toNat = _
  rw [lane_val]
  unfold IntOp.andi
  have hl : (BitVec.ofNat 32 (x 0).val).toNat = (x 0).val := by
    rw [BitVec.toNat_ofNat]; exact Nat.mod_eq_of_lt (by omega)
  rw [BitVec.toNat_and, hl, show (7#32).toNat = 2 ^ 3 - 1 by decide, Nat.and_two_pow_sub_one_eq_mod]

/-! ## The result's run -/

/-- The piece of the result a subcore writes is its run. -/
theorem out_rect (L : grid0.Coords) : Rect.unit (s := S16384) (k0_off34 L) S512.size (k0_off34_inb L) = outRect (tL L) := by
  unfold outRect Rect.part Rect.block
  congr 1 <;> funext a
  · rw [k0_off34_eq]
    match a with
    | 0 => simp [Shape.partIx, Shape.partSize, tL]; omega
  · match a with
    | 0 => simp [Shape.partSize]

theorem out_set (L : grid0.Coords) :
    ((Memref.whole Cert.Kernel.main_v1_scv : Memref sig Kind.scVector Space.hbm S16384 EltTy.f32).slice
      (Rect.unit (s := S16384) (k0_off34 L) S512.size (k0_off34_inb L)) (fun _ => rfl)).view.set = outSet (tL L) := by
  show ((View.whole (main_v1_scv : Ref sig .scVector)).slice (Rect.unit (s := S16384) (k0_off34 L) S512.size (k0_off34_inb L))).set = _
  rw [View.set_slice, out_rect]
  exact Finset.map_refl

theorem out_emb (L : grid0.Coords) (y : S512.Idx) :
    ((((Memref.whole Cert.Kernel.main_v1_scv : Memref sig Kind.scVector Space.hbm S16384 EltTy.f32).slice
      (Rect.unit (s := S16384) (k0_off34 L) S512.size (k0_off34_inb L)) (fun _ => rfl)).view.emb y) 0).val = 512 * (tL L).val + (y 0).val := by
  show ((Rect.unit (s := S16384) (k0_off34 L) S512.size (k0_off34_inb L)).emb y 0).val = _
  rw [Rect.emb_apply]
  show k0_off34 L 0 + 1 * (y 0).val = _
  rw [k0_off34_eq, tL_val]
  show 1024 * (L 1).val + 512 * (L 0).val + 1 * (y 0).val = _
  omega

end Cert.Proof.GatherK
-- ==== Proof.ValueK.lean ====
/-
  The arithmetic of the gather, apart from any program. The kernel reads the table through its reshaping into blocks
  of eight rows: entry (block, row in block, column) of the reshaped array is entry (8 · block + row in block, column)
  of the table, since both sit at the same place in row-major order. Subcore t works on rows 512·t … 512·t + 511;
  its chunk c has in scratch the two blocks 64·t + 2·c and 64·t + 2·c + 1 and the sixteen index words of rows
  512·t + 16·c + x; lane x picks the scratch at (x / 8, x % 8, index word of lane x). Because
  8 · (64·t + 2·c + x / 8) + x % 8 = 512·t + 16·c + x, the pick is the table's entry at that row and that row's own
  index word, which is the specification at that row once the word is known to be below the row length.
-/
import proofs.«207825_g30013231464886_cont_9to1_638_26_alg».proof.Proof.SetupK
import Idealize.ShloMosaic.Lib.ValueIdx
import Idealize.ShloMosaic.Lib.Pipeline.Value

noncomputable section

namespace Cert.Proof.GatherK

open Cert.Kernel Cert.Kernel.Gen
open Idealize.ShloMosaic Idealize.ShloMosaic.ValueIdx

variable {F : FTy → Type}
variable (m : (ℓ : Loc nD τ sig) → Buf (Elt F) ℓ)

/-- The reshaped table at block w0, row-in-block w1, column w2 is the table at row 8·w0 + w1, column w2. -/
theorem fv_at (d : Dev nD) (w : S2048x8x1000.Idx) (j : S16384x1000.Idx)
    (h0 : (j 0).val = 8 * (w 0).val + (w 1).val) (h1 : (j 1).val = (w 2).val) : fv m d w = m (aLoc d) j := by
  unfold fv
  refine shapeCast_apply _ _ w j ?_
  rw [Shape.rowMajor_val_two, Shape.rowMajor_val_three]
  show (j 0).val * 1000 + (j 1).val = ((w 0).val * 8 + (w 1).val) * 1000 + (w 2).val
  rw [h0, h1]
  omega

variable [FloatOps F]

/-- One chunk's sixteen picks are the specification on that chunk's sixteen rows. -/
theorem piece_value (hpre : PreOK m) (d : Dev nD) (t c : ℕ) (ht : t < 32) (hc : c < 32)
    (P : S2x8x1000.Idx → Elt F .f32) (I b16 r16 : IVec S16 32)
    (hP : ∀ (z : S2x8x1000.Idx) (j : S16384x1000.Idx), (j 0).val = 8 * (64 * t + 2 * c + (z 0).val) + (z 1).val → (j 1).val = (z 2).val → P z = m (aLoc d) j)
    (hI : ∀ (x : S16.Idx) (k : S16384.Idx), (k 0).val = 512 * t + 16 * c + (x 0).val → I x = m (iLoc d) k)
    (hb : ∀ x : S16.Idx, (b16 x).toNat = (x 0).val / 8) (hr : ∀ x : S16.Idx, (r16 x).toNat = (x 0).val % 8)
    (h : ∀ a x, ((![b16, r16, I] : Fin 3 → IVec S16 32) a x).toNat < S2x8x1000.size a)
    (x : S16.Idx) (k : S16384.Idx) (hk : (k 0).val = 512 * t + 16 * c + (x 0).val) :
    loadIdx P ![b16, r16, I] h x = Gout m d k := by
  have hIk : I x = m (iLoc d) k := hI x k hk
  have hlt : (m (iLoc d) k).toNat < 1000 := hpre d k
  unfold Gout
  rw [Spec.gatherRow_apply]
  show P (idxAt ![b16, r16, I] h x) = _
  refine hP _ _ ?_ ?_
  · show (k 0).val = 8 * (64 * t + 2 * c + (b16 x).toNat) + (r16 x).toNat
    rw [hb, hr, hk]
    omega
  · show (Spec.col (m (iLoc d) k)).val = (I x).toNat
    rw [Spec.col_val_of_lt hlt, hIk]

end Cert.Proof.GatherK

end
-- ==== Proof.BodyLemK.lean ====
/-
  From the kernel body's terms to rows of the table. A subcore's chunk c holds, in one scratch, blocks 64·t + 2·c and
  64·t + 2·c + 1 of the reshaped table and, in the index scratch, the 512 index words of its run; lane x of the chunk
  picks block x / 8, row-in-block x % 8, column = index word 16·c + x. Here: those three coordinates are in range (what the
  indexed load assumes), an index word read from the scratch is the launch index vector at row 512·t + 16·c + x, and a
  copied block's entry is the launch table's entry at row 8·block + row-in-block.
-/
import proofs.«207825_g30013231464886_cont_9to1_638_26_alg».proof.Proof.SetupK
import proofs.«207825_g30013231464886_cont_9to1_638_26_alg».proof.Proof.GeomK
import proofs.«207825_g30013231464886_cont_9to1_638_26_alg».proof.Proof.ValueK

noncomputable section

namespace Cert.Proof.GatherK

open Cert.Kernel Cert.Kernel.Gen
open Idealize.ShloMosaic Idealize.ShloMosaic.ValueIdx

variable {F : FTy → Type}
variable (m : (ℓ : Loc nD τ sig) → Buf (Elt F) ℓ)
variable (d : Dev nD) (L : grid0.Coords)

/-- The indexed load's side condition from three bounds: block below 2, row-in-block below 8, column below 1000. -/
theorem chk_core (I B R : IVec S16 32) (hI : ∀ x, (I x).toNat < 1000) (hB : ∀ x, (B x).toNat < 2) (hR : ∀ x, (R x).toNat < 8) :
    ∀ a x, ((![B, R, I] : Fin 3 → IVec S16 32) a x).toNat < S2x8x1000.size a := by
  intro a x
  match a with
  | ⟨0, _⟩ => exact hB x
  | ⟨1, _⟩ => exact hR x
  | ⟨2, _⟩ => exact hI x

theorem lane_lt (x : S16.Idx) : (x 0).val < 16 := (x 0).isLt

/-- Lane x's block number x / 8 is 0 or 1. -/
theorem b16_bound (h : S16.Iotas .scVector 32 [0]) (x : S16.Idx) :
    (shrui (addi (broadcast S16 0#32) (iota .scVector S16 32 [0] h)) (broadcast S16 3#32) x).toNat < 2 := by
  rw [b16_val]; have := lane_lt x; omega
/-- Lane x's row-in-block x % 8 is below 8. -/
theorem r16_bound (h : S16.Iotas .scVector 32 [0]) (x : S16.Idx) :
    (andi (addi (broadcast S16 0#32) (iota .scVector S16 32 [0] h)) (broadcast S16 7#32) x).toNat < 8 := by
  rw [r16_val]; omega

/-- Row 512·t + p of the arrays, for p inside the subcore's run. -/
def rowOf (p : ℕ) (hp : p < 512) : S16384.Idx :=
  ix1 (⟨512 * (tL L).val + p, by have := (tL L).isLt; omega⟩ : Fin 16384)

theorem rowOf_val (p : ℕ) (hp : p < 512) : ((rowOf L p hp) 0).val = 512 * (tL L).val + p := rfl

variable [FloatOps F]

/-- The index word the kernel loads at offset o + x of its index scratch (which holds the copied run of the index
    vector) is the launch index vector at row 512·t + o + x. -/
theorem idx_at (f0 : S512.Idx → BitVec 32) (o : ℕ) (ho : ∀ a, (![o] : Fin 1 → ℕ) a + S16.size a ≤ S512.size a) (x : S16.Idx)
    (k : S16384.Idx) (hk : (k 0).val = 512 * (tL L).val + o + (x 0).val) :
    View.readAt (Elt F) (Memref.whole cc0_scratch0 : Memref sig Kind.scVector Space.vmem S512 EltTy.i32).view (Rect.unit (s := S512) ![o] S16.size ho).toLoadRect
      (View.write (Elt F) (Memref.whole cc0_scratch0 : Memref sig Kind.scVector Space.vmem S512 EltTy.i32).view f0
        (ReadAs.same.apply (View.read (Elt F) ((Memref.whole main_arg1_scv : Memref sig Kind.scVector Space.hbm S16384 EltTy.i32).slice
          (Rect.unit (s := S16384) (k0_off1 L) S512.size (k0_off1_inb L)) (fun _ => rfl)).view (m (iLoc d)))) Finset.univ) x
      = m (iLoc d) k := by
  have ho' : o + 16 ≤ 512 := ho 0
  have hx := lane_lt x
  rw [scr0_read (F := F) f0 _ o ho x (ix1 (⟨o + (x 0).val, by omega⟩ : Fin 512)) rfl]
  exact idx_payload (F := F) L (m (iLoc d)) _ k (by rw [hk]; show _ = 512 * (tL L).val + (o + (x 0).val); omega)

/-- So it names a column of the table. -/
theorem idx_bound (hpre : PreOK m) (f0 : S512.Idx → BitVec 32) (o : ℕ) (ho : ∀ a, (![o] : Fin 1 → ℕ) a + S16.size a ≤ S512.size a) (x : S16.Idx) :
    (View.readAt (Elt F) (Memref.whole cc0_scratch0 : Memref sig Kind.scVector Space.vmem S512 EltTy.i32).view (Rect.unit (s := S512) ![o] S16.size ho).toLoadRect
      (View.write (Elt F) (Memref.whole cc0_scratch0 : Memref sig Kind.scVector Space.vmem S512 EltTy.i32).view f0
        (ReadAs.same.apply (View.read (Elt F) ((Memref.whole main_arg1_scv : Memref sig Kind.scVector Space.hbm S16384 EltTy.i32).slice
          (Rect.unit (s := S16384) (k0_off1 L) S512.size (k0_off1_inb L)) (fun _ => rfl)).view (m (iLoc d)))) Finset.univ) x).toNat < 1000 := by
  have ho' : o + 16 ≤ 512 := ho 0
  have hx := lane_lt x
  rw [idx_at m d L f0 o ho x (rowOf L (o + (x 0).val) (by omega)) (by rw [rowOf_val]; omega)]
  exact hpre d _

/-- Entry z of the blocks copied for chunk c (blocks 64·t + 2·c and the next of the reshaped table) is the launch
    table's entry at row 8·(64·t + 2·c + z₀) + z₁, column z₂. -/
theorem tab_at (off : Fin 3 → ℕ) (hin : ∀ a, off a + S2x8x1000.size a ≤ S2048x8x1000.size a)
    (hs : ∀ a, (Rect.unit (s := S2048x8x1000) off S2x8x1000.size hin).stride a = 1) (c : ℕ) (hc : c < 32)
    (hoff : off = ![128 * (L 1).val + 64 * (L 0).val + 2 * c, 0, 0]) (z : S2x8x1000.Idx) (j : S16384x1000.Idx)
    (h0 : (j 0).val = 8 * (64 * (tL L).val + 2 * c + (z 0).val) + (z 1).val) (h1 : (j 1).val = (z 2).val) :
    ReadAs.same.apply (View.read (Elt F) ((Memref.whole main_v0_scv : Memref sig Kind.scVector Space.hbm S2048x8x1000 EltTy.f32).slice
      (Rect.unit (s := S2048x8x1000) off S2x8x1000.size hin) hs).view (fv m d)) z = m (aLoc d) j := by
  have hz0 : (z 0).val < 2 := (z 0).isLt
  have hz1 : (z 1).val < 8 := (z 1).isLt
  have hz2 : (z 2).val < 1000 := (z 2).isLt
  have hL0 : (L 0).val < 2 := (L 0).isLt
  have hL1 : (L 1).val < 16 := (L 1).isLt
  have ht : (tL L).val = 2 * (L 1).val + (L 0).val := tL_val L
  let w : S2048x8x1000.Idx := ix3 (⟨128 * (L 1).val + 64 * (L 0).val + 2 * c + (z 0).val, by omega⟩ : Fin 2048) (⟨(z 1).val, hz1⟩ : Fin 8) (⟨(z 2).val, hz2⟩ : Fin 1000)
  rw [tab_payload (F := F) off hin hs _ hoff (fv m d) z w rfl rfl rfl]
  exact fv_at m d w j (by rw [h0, ht]; show _ = 8 * (128 * (L 1).val + 64 * (L 0).val + 2 * c + (z 0).val) + (z 1).val; omega) h1

/-- The specification on the subcore's own run, by position inside the run. -/
def G5 (y : S512.Idx) : Elt F .f32 := Gout m d (rowOf L (y 0).val (y 0).isLt)

/-- The specification at lane x of the piece at offset o of the run is the result's specification at row 512·t + o + x. -/
theorem G5_piece (o : ℕ) (ho : ∀ a, (![o] : Fin 1 → ℕ) a + S16.size a ≤ S512.size a) (x : S16.Idx) (k : S16384.Idx)
    (hk : (k 0).val = 512 * (tL L).val + o + (x 0).val) :
    G5 m d L ((Rect.unit (s := S512) ![o] S16.size ho).emb x) = Gout m d k := by
  unfold G5
  refine congrArg (Gout m d) ?_
  funext a
  obtain rfl : a = 0 := Subsingleton.elim _ _
  refine Fin.ext ((rowOf_val L _ _).trans ?_)
  rw [piece_emb, hk]; omega

end Cert.Proof.GatherK

end
-- ==== Proof.BodyK.lean ====
/-
  One vector subcore's task of the gather kernel, run from what the launch hands it to what it hands back. The subcore
  copies its run of the index vector into scratch, then walks its 32 chunks with up to four block copies in flight:
  for chunk c it starts the copy of chunk c + 3 (into the buffer chunk c − 1 has just been read out of), waits for
  chunk c's two blocks, reads the chunk's sixteen index words, checks the three coordinate vectors in range, picks the
  sixteen entries with one indexed load and stores them at positions 16·c … 16·c + 15 of the result scratch; at the end
  it copies the result scratch onto its run of the result. Each copy waits on a semaphore of its own buffer, so a
  buffer is read only after its copy has landed and overwritten only after it has been read. The run is symbolic; the
  indexed load is a load of the whole buffer followed by the picks. What the result scratch holds at the end is 32
  pieces of sixteen, each the specification on its sixteen rows, so the run of the result ends at the specification.
-/
import proofs.«207825_g30013231464886_cont_9to1_638_26_alg».proof.Proof.SetupK
import proofs.«207825_g30013231464886_cont_9to1_638_26_alg».proof.Proof.GeomK
import proofs.«207825_g30013231464886_cont_9to1_638_26_alg».proof.Proof.ValueK
import proofs.«207825_g30013231464886_cont_9to1_638_26_alg».proof.Proof.BodyLemK
import Idealize.ShloMosaic.Lib.Writes

noncomputable section

namespace Cert.Proof.GatherK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

-- the kernel's memrefs, spelt as the body table passes them
local notation "vW" => (Memref.whole Cert.Kernel.main_v0_scv : Memref Cert.Kernel.sig Kind.scVector Space.hbm Cert.Kernel.S2048x8x1000 EltTy.f32)
local notation "iW" => (Memref.whole Cert.Kernel.main_arg1_scv : Memref Cert.Kernel.sig Kind.scVector Space.hbm Cert.Kernel.S16384 EltTy.i32)
local notation "oW" => (Memref.whole Cert.Kernel.main_v1_scv : Memref Cert.Kernel.sig Kind.scVector Space.hbm Cert.Kernel.S16384 EltTy.f32)

omit [FloatOps F] in
/-- The six scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩)]

omit [FloatOps F] in
/-- The six DMA semaphores are among the subcore's own cells: they are them, at zero, and the rest. -/
theorem ownSems0_V :
    (ownSems0 (V d (cV L) (jV L)) : sProp 𝕄)
      = iprop(semVal (((V d (cV L) (jV L)), SemLoc.dma cc0_scratch6.sem) : GSem nD τ sig) 0 ∗ semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scratch9.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0
          ∗ bigSep (((((((ownCells (V d (cV L) (jV L))).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scoped0.sem) : GSem nD τ sig)).erase (((V d (cV L) (jV L)), SemLoc.dma cc0_scoped1.sem) : GSem nD τ sig))
              fun g => semVal g 0) := by
  unfold SparseCore.Cfg.ownSems0
  rw [SparseCore.bigSep_erase' ((mem_ownCells (g := (((V d (cV L) (jV L)), SemLoc.dma cc0_scratch6.sem) : GSem nD τ sig))).mpr ⟨rfl, by show (SemLoc.dma cc0_scratch6.sem : SemLoc sig).isScoped .scVector = true; decide⟩),
    SparseCore.bigSep_erase' (Finset.mem_erase.mpr ⟨fun e => absurd (congrArg (fun g : GSem nD τ sig => g.2) e) (show (SemLoc.dma cc0_scratch7.sem : SemLoc sig) ≠ (SemLoc.dma cc0_scratch6.sem : SemLoc sig) by decide), (mem_ownCells (g := (((V d (cV L) (jV L)), SemLoc.dma cc0_scratch7.sem) : GSem nD τ sig))).mpr ⟨rfl, by show (SemLoc.dma cc0_scratch7.sem : SemLoc sig).isScoped .scVector = true; decide⟩⟩),
    SparseCore.bigSep_erase' (Finset.mem_erase.mpr ⟨fun e => absurd (congrArg (fun g : GSem nD τ sig => g.2) e) (show (SemLoc.dma cc0_scratch8.sem : SemLoc sig) ≠ (SemLoc.dma cc0_scratch7.sem : SemLoc sig) by decide), Finset.mem_erase.mpr ⟨fun e => absurd (congrArg (fun g : GSem nD τ sig => g.2) e) (show (SemLoc.dma cc0_scratch8.sem : SemLoc sig) ≠ (SemLoc.dma cc0_scratch6.sem : SemLoc sig) by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩),
    SparseCore.bigSep_erase' (Finset.mem_erase.mpr ⟨fun e => absurd (congrArg (fun g : GSem nD τ sig => g.2) e) (show (SemLoc.dma cc0_scratch9.sem : SemLoc sig) ≠ (SemLoc.dma cc0_scratch8.sem : SemLoc sig) by decide), Finset.mem_erase.mpr ⟨fun e => absurd (congrArg (fun g : GSem nD τ sig => g.2) e) (show (SemLoc.dma cc0_scratch9.sem : SemLoc sig) ≠ (SemLoc.dma cc0_scratch7.sem : SemLoc sig) by decide), Finset.mem_erase.mpr ⟨fun e => absurd (congrArg (fun g : GSem nD τ sig => g.2) e) (show (SemLoc.dma cc0_scratch9.sem : SemLoc sig) ≠ (SemLoc.dma cc0_scratch6.sem : SemLoc sig) by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩⟩),
    SparseCore.bigSep_erase' (Finset.mem_erase.mpr ⟨fun e => absurd (congrArg (fun g : GSem nD τ sig => g.2) e) (show (SemLoc.dma cc0_scoped0.sem : SemLoc sig) ≠ (SemLoc.dma cc0_scratch9.sem : SemLoc sig) by decide), Finset.mem_erase.mpr ⟨fun e => absurd (congrArg (fun g : GSem nD τ sig => g.2) e) (show (SemLoc.dma cc0_scoped0.sem : SemLoc sig) ≠ (SemLoc.dma cc0_scratch8.sem : SemLoc sig) by decide), Finset.mem_erase.mpr ⟨fun e => absurd (congrArg (fun g : GSem nD τ sig => g.2) e) (show (SemLoc.dma cc0_scoped0.sem : SemLoc sig) ≠ (SemLoc.dma cc0_scratch7.sem : SemLoc sig) by decide), Finset.mem_erase.mpr ⟨fun e => absurd (congrArg (fun g : GSem nD τ sig => g.2) e) (show (SemLoc.dma cc0_scoped0.sem : SemLoc sig) ≠ (SemLoc.dma cc0_scratch6.sem : SemLoc sig) by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨fun e => absurd (congrArg (fun g : GSem nD τ sig => g.2) e) (show (SemLoc.dma cc0_scoped1.sem : SemLoc sig) ≠ (SemLoc.dma cc0_scoped0.sem : SemLoc sig) by decide), Finset.mem_erase.mpr ⟨fun e => absurd (congrArg (fun g : GSem nD τ sig => g.2) e) (show (SemLoc.dma cc0_scoped1.sem : SemLoc sig) ≠ (SemLoc.dma cc0_scratch9.sem : SemLoc sig) by decide), Finset.mem_erase.mpr ⟨fun e => absurd (congrArg (fun g : GSem nD τ sig => g.2) e) (show (SemLoc.dma cc0_scoped1.sem : SemLoc sig) ≠ (SemLoc.dma cc0_scratch8.sem : SemLoc sig) by decide), Finset.mem_erase.mpr ⟨fun e => absurd (congrArg (fun g : GSem nD τ sig => g.2) e) (show (SemLoc.dma cc0_scoped1.sem : SemLoc sig) ≠ (SemLoc.dma cc0_scratch7.sem : SemLoc sig) by decide), Finset.mem_erase.mpr ⟨fun e => absurd (congrArg (fun g : GSem nD τ sig => g.2) e) (show (SemLoc.dma cc0_scoped1.sem : SemLoc sig) ≠ (SemLoc.dma cc0_scratch6.sem : SemLoc sig) by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩)]

omit [FloatOps F] in
theorem pts_v (q : PosShare TreeShare) (f : Buf (Elt F) (vLoc d)) :
    ((vW).view.loc (V d (cV L) (jV L)) ↦{q} f : sProp 𝕄) = vLoc d ↦{q} f := by
  simp only [Memref.view_whole, View.set_whole]
omit [FloatOps F] in
theorem pts_i (q : PosShare TreeShare) (f : Buf (Elt F) (iLoc d)) :
    ((iW).view.loc (V d (cV L) (jV L)) ↦{q} f : sProp 𝕄) = iLoc d ↦{q} f := by
  simp only [Memref.view_whole, View.set_whole]
/-- The subcore's run of the result, as the kernel slices it. -/
abbrev oS (L : grid0.Coords) : Memref sig Kind.scVector Space.hbm S512 EltTy.f32 :=
  (oW).slice (Rect.unit (s := S16384) (k0_off34 L) S512.size (k0_off34_inb L)) (fun _ => rfl)
omit [FloatOps F] in
theorem pts_o (f : Buf (Elt F) (oLoc d)) :
    ((oS L).view.loc (V d (cV L) (jV L)) ↦[(oS L).view.set]{fullShare} f : sProp 𝕄) = oLoc d ↦[outSet (tL L)]{fullShare} f := by
  rw [out_set]
omit [FloatOps F] in
theorem pts_s0 (f : Buf (Elt F) ((V d (cV L) (jV L)).loc cc0_scratch0)) :
    (((Memref.whole cc0_scratch0 : Memref sig Kind.scVector Space.vmem S512 EltTy.i32)).view.loc (V d (cV L) (jV L)) ↦{fullShare} f : sProp 𝕄)
      = (V d (cV L) (jV L)).loc cc0_scratch0 ↦{fullShare} f := rfl
omit [FloatOps F] in
theorem pts_s1 (f : Buf (Elt F) ((V d (cV L) (jV L)).loc cc0_scratch1)) :
    (((Memref.whole cc0_scratch1 : Memref sig Kind.scVector Space.vmem S2x8x1000 EltTy.f32)).view.loc (V d (cV L) (jV L)) ↦{fullShare} f : sProp 𝕄)
      = (V d (cV L) (jV L)).loc cc0_scratch1 ↦{fullShare} f := rfl
omit [FloatOps F] in
theorem pts_s2 (f : Buf (Elt F) ((V d (cV L) (jV L)).loc cc0_scratch2)) :
    (((Memref.whole cc0_scratch2 : Memref sig Kind.scVector Space.vmem S2x8x1000 EltTy.f32)).view.loc (V d (cV L) (jV L)) ↦{fullShare} f : sProp 𝕄)
      = (V d (cV L) (jV L)).loc cc0_scratch2 ↦{fullShare} f := rfl
omit [FloatOps F] in
theorem pts_s3 (f : Buf (Elt F) ((V d (cV L) (jV L)).loc cc0_scratch3)) :
    (((Memref.whole cc0_scratch3 : Memref sig Kind.scVector Space.vmem S2x8x1000 EltTy.f32)).view.loc (V d (cV L) (jV L)) ↦{fullShare} f : sProp 𝕄)
      = (V d (cV L) (jV L)).loc cc0_scratch3 ↦{fullShare} f := rfl
omit [FloatOps F] in
theorem pts_s4 (f : Buf (Elt F) ((V d (cV L) (jV L)).loc cc0_scratch4)) :
    (((Memref.whole cc0_scratch4 : Memref sig Kind.scVector Space.vmem S2x8x1000 EltTy.f32)).view.loc (V d (cV L) (jV L)) ↦{fullShare} f : sProp 𝕄)
      = (V d (cV L) (jV L)).loc cc0_scratch4 ↦{fullShare} f := rfl
omit [FloatOps F] in
theorem pts_s5 (f : Buf (Elt F) ((V d (cV L) (jV L)).loc cc0_scratch5)) :
    (((Memref.whole cc0_scratch5 : Memref sig Kind.scVector Space.vmem S512 EltTy.f32)).view.loc (V d (cV L) (jV L)) ↦{fullShare} f : sProp 𝕄)
      = (V d (cV L) (jV L)).loc cc0_scratch5 ↦{fullShare} f := rfl

/-- The indexed load standing alone (the last statement of a block): a load of the whole scratch, then the picks. -/
theorem vli_tail (c : Thread nD τ) {s t : Shape} {e : EltTy} (base : Memref sig c.2.kind .vmem s e) (idxs : Fin s.rank → IVec t 32)
    (h : ∀ a x, (idxs a x).toNat < s.size a) (hl : base.view.Loads) :
    (SparseCore.vectorLoadIdx base idxs h hl : Prog (TpuEff nD τ sig (Elt F) Λ₀ c.2) (Vec F t e))
      = .op (.load base (.whole s) (View.loadsAt_whole hl)) fun f => .ret (loadIdx f idxs h) := rfl

omit [FloatOps F] in
/-- The run of the result after the last copy, whatever it held before: the specification, once what was copied is the
    specification by position inside the run. -/
theorem out_final (fd : Buf (Elt F) (oLoc d)) (X : S512.Idx → Elt F .f32) (hX : ∀ y, X y = G5 m d L y) :
    ((oS L).view.loc (V d (cV L) (jV L)) ↦[(oS L).view.set]{fullShare}
        (oS L).view.writes (Elt F) fd [(⟨Rect.whole S512, X⟩ : View.Piece (Elt F) S512 EltTy.f32)] : sProp 𝕄)
      = oLoc d ↦[outSet (tL L)]{fullShare} Gout m d := by
  rw [out_set]
  refine pointsTo_congr fun i hi => ?_
  rw [← out_set L] at hi
  obtain ⟨y, -, rfl⟩ := Finset.mem_map.mp hi
  have h := View.read_writes_cons_emb (oS L).view fd (Rect.whole S512) X [] y
  rw [Rect.emb_whole_apply, View.read_apply, cast_eq] at h
  refine h.trans ((hX y).trans ?_)
  unfold G5
  refine congrArg (Gout m d) ?_
  funext a
  obtain rfl : a = 0 := Subsingleton.elim _ _
  exact Fin.ext ((rowOf_val L _ _).trans (out_emb L y).symm)

set_option hygiene false in
/-- One chunk's piece of the result scratch is the specification on its sixteen rows: chunk number, the piece's offset
    in the run and its in-range fact, which buffer its blocks were copied into, the closed form of the copy's offsets. -/
local macro "piece" C:num O:num HO:ident K:ident OFF:term : tactic => `(tactic| (
  intro x
  dsimp only
  have hx := lane_lt x
  have hlt : $O + (x 0).val < 512 := by omega
  refine Eq.trans ?_ (G5_piece m d L $O $HO x (rowOf L ($O + (x 0).val) hlt) ((rowOf_val L ($O + (x 0).val) hlt).trans (by omega))).symm
  refine piece_value m hpre d (tL L).val $C (tL L).isLt (by decide) _ _ _ _ ?_ ?_ ?_ ?_ _ x (rowOf L ($O + (x 0).val) hlt)
    ((rowOf_val L ($O + (x 0).val) hlt).trans (by omega))
  · intro z j h0 h1
    refine (congrFun ($K (F := F) _ _) z).trans ?_
    exact tab_at m d L _ _ (fun _ => rfl) $C (by decide) $OFF z j h0 h1
  · intro x' k hk
    exact idx_at m d L _ $O $HO x' k hk
  · exact b16_val _
  · exact r16_val _))

set_option maxHeartbeats 16000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d (tL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L vW (Memref.isWhole_whole _) iW (Memref.isWhole_whole _) oW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 cc0_scoped1)
          fun _ => iprop(tdT m d (tL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold goT tdT
  iintro ⟨#Hlv, -, ⟨Hv, Hi, Ho⟩, ⟨⟨%f0, Hs0⟩, ⟨%f1, Hs1⟩, ⟨%f2, Hs2⟩, ⟨%f3, Hs3⟩, ⟨%f4, Hs4⟩, ⟨%f5, Hs5⟩, Hbufs⟩,
    ⟨Hm6, Hm7, Hm8, Hm9, Hq0, Hq1, Hsems⟩, HO⟩
  ihave Hmw := ((K (F := F)).mayWaits_none (thr := V d (cV L) (jV L)) hO) $$ Hlv
  ihave Hi' := (Entails.of_eq (pts_i (F := F) d L _ _).symm) $$ Hi
  ihave Hv' := (Entails.of_eq (pts_v (F := F) d L _ _).symm) $$ Hv
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  ihave Hs5' := (Entails.of_eq (pts_s5 (F := F) d L _).symm) $$ Hs5
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  first | rw [SparseCore.vectorLoadIdx_bind (c := V d (cV L) (jV L))] | rw [vli_tail (F := F) (V d (cV L) (jV L))]
  sl_exec (disch := exact chk_core _ _ _ (idx_bound m d L hpre _ _ _) (b16_bound _) (r16_bound _))
  have hX : ∀ y, tile_body.sl.dma3_28 m d L hpre f0 f1 f2 f3 f4 f5 y = G5 m d L y := by
    intro y
    show View.read (Elt F) (Memref.whole cc0_scratch5).view (View.writes (Memref.whole cc0_scratch5).view (Elt F) f5 _) y = _
    refine View.read_writes_apply_of_pieces _ _ (G5 m d L) _ ?_ y (View.cover_of_tiled _ ![16] rfl y)
    sl_unfold_run_names
    refine List.forall_mem_cons.2 ⟨?_, ?_⟩
    · piece 31 496 inb_S512_S16_496 buf_read4 ((off30_eq L _).trans (off_tab L ⟨31, by decide⟩))
    refine List.forall_mem_cons.2 ⟨?_, ?_⟩
    · piece 30 480 inb_S512_S16_480 buf_read3 ((off29_eq L _).trans (off_tab L ⟨30, by decide⟩))
    refine List.forall_mem_cons.2 ⟨?_, ?_⟩
    · piece 29 464 inb_S512_S16_464 buf_read2 ((off28_eq L _).trans (off_tab L ⟨29, by decide⟩))
    refine List.forall_mem_cons.2 ⟨?_, ?_⟩
    · piece 28 448 inb_S512_S16_448 buf_read1 ((off27_eq L _).trans (off_tab L ⟨28, by decide⟩))
    refine List.forall_mem_cons.2 ⟨?_, ?_⟩
    · piece 27 432 inb_S512_S16_432 buf_read4 ((off26_eq L _).trans (off_tab L ⟨27, by decide⟩))
    refine List.forall_mem_cons.2 ⟨?_, ?_⟩
    · piece 26 416 inb_S512_S16_416 buf_read3 ((off25_eq L _).trans (off_tab L ⟨26, by decide⟩))
    refine List.forall_mem_cons.2 ⟨?_, ?_⟩
    · piece 25 400 inb_S512_S16_400 buf_read2 ((off24_eq L _).trans (off_tab L ⟨25, by decide⟩))
    refine List.forall_mem_cons.2 ⟨?_, ?_⟩
    · piece 24 384 inb_S512_S16_384 buf_read1 ((off23_eq L _).trans (off_tab L ⟨24, by decide⟩))
    refine List.forall_mem_cons.2 ⟨?_, ?_⟩
    · piece 23 368 inb_S512_S16_368 buf_read4 ((off22_eq L _).trans (off_tab L ⟨23, by decide⟩))
    refine List.forall_mem_cons.2 ⟨?_, ?_⟩
    · piece 22 352 inb_S512_S16_352 buf_read3 ((off21_eq L _).trans (off_tab L ⟨22, by decide⟩))
    refine List.forall_mem_cons.2 ⟨?_, ?_⟩
    · piece 21 336 inb_S512_S16_336 buf_read2 ((off20_eq L _).trans (off_tab L ⟨21, by decide⟩))
    refine List.forall_mem_cons.2 ⟨?_, ?_⟩
    · piece 20 320 inb_S512_S16_320 buf_read1 ((off19_eq L _).trans (off_tab L ⟨20, by decide⟩))
    refine List.forall_mem_cons.2 ⟨?_, ?_⟩
    · piece 19 304 inb_S512_S16_304 buf_read4 ((off18_eq L _).trans (off_tab L ⟨19, by decide⟩))
    refine List.forall_mem_cons.2 ⟨?_, ?_⟩
    · piece 18 288 inb_S512_S16_288 buf_read3 ((off17_eq L _).trans (off_tab L ⟨18, by decide⟩))
    refine List.forall_mem_cons.2 ⟨?_, ?_⟩
    · piece 17 272 inb_S512_S16_272 buf_read2 ((off16_eq L _).trans (off_tab L ⟨17, by decide⟩))
    refine List.forall_mem_cons.2 ⟨?_, ?_⟩
    · piece 16 256 inb_S512_S16_256 buf_read1 ((off15_eq L _).trans (off_tab L ⟨16, by decide⟩))
    refine List.forall_mem_cons.2 ⟨?_, ?_⟩
    · piece 15 240 inb_S512_S16_240 buf_read4 ((off14_eq L _).trans (off_tab L ⟨15, by decide⟩))
    refine List.forall_mem_cons.2 ⟨?_, ?_⟩
    · piece 14 224 inb_S512_S16_224 buf_read3 ((off13_eq L _).trans (off_tab L ⟨14, by decide⟩))
    refine List.forall_mem_cons.2 ⟨?_, ?_⟩
    · piece 13 208 inb_S512_S16_208 buf_read2 ((off12_eq L _).trans (off_tab L ⟨13, by decide⟩))
    refine List.forall_mem_cons.2 ⟨?_, ?_⟩
    · piece 12 192 inb_S512_S16_192 buf_read1 ((off11_eq L _).trans (off_tab L ⟨12, by decide⟩))
    refine List.forall_mem_cons.2 ⟨?_, ?_⟩
    · piece 11 176 inb_S512_S16_176 buf_read4 ((off10_eq L _).trans (off_tab L ⟨11, by decide⟩))
    refine List.forall_mem_cons.2 ⟨?_, ?_⟩
    · piece 10 160 inb_S512_S16_160 buf_read3 ((off9_eq L _).trans (off_tab L ⟨10, by decide⟩))
    refine List.forall_mem_cons.2 ⟨?_, ?_⟩
    · piece 9 144 inb_S512_S16_144 buf_read2 ((off8_eq L _).trans (off_tab L ⟨9, by decide⟩))
    refine List.forall_mem_cons.2 ⟨?_, ?_⟩
    · piece 8 128 inb_S512_S16_128 buf_read1 ((off7_eq L _).trans (off_tab L ⟨8, by decide⟩))
    refine List.forall_mem_cons.2 ⟨?_, ?_⟩
    · piece 7 112 inb_S512_S16_112 buf_read4 ((off6_eq L _).trans (off_tab L ⟨7, by decide⟩))
    refine List.forall_mem_cons.2 ⟨?_, ?_⟩
    · piece 6 96 inb_S512_S16_96 buf_read3 ((off5_eq L _).trans (off_tab L ⟨6, by decide⟩))
    refine List.forall_mem_cons.2 ⟨?_, ?_⟩
    · piece 5 80 inb_S512_S16_80 buf_read2 ((off4_eq L _).trans (off_tab L ⟨5, by decide⟩))
    refine List.forall_mem_cons.2 ⟨?_, ?_⟩
    · piece 4 64 inb_S512_S16_64 buf_read1 ((off3_eq L _).trans (off_tab L ⟨4, by decide⟩))
    refine List.forall_mem_cons.2 ⟨?_, ?_⟩
    · piece 3 48 inb_S512_S16_48 buf_read4 (off_tab L ⟨3, by decide⟩)
    refine List.forall_mem_cons.2 ⟨?_, ?_⟩
    · piece 2 32 inb_S512_S16_32 buf_read3 (off_tab L ⟨2, by decide⟩)
    refine List.forall_mem_cons.2 ⟨?_, ?_⟩
    · piece 1 16 inb_S512_S16_16 buf_read2 (off_tab L ⟨1, by decide⟩)
    refine List.forall_mem_cons.2 ⟨?_, ?_⟩
    · piece 0 0 inb_S512_S16_0 buf_read1 (off_tab L ⟨0, by decide⟩)
    exact fun _ h => absurd h List.not_mem_nil
  ihave Ho2 := (Entails.of_eq (out_final (F := F) m d L _ _ hX)) $$ Ho'
  sl_step
  isplitl [Ho2]; · iexact Ho2
  isplitl [Hs0' Hs1' Hs2' Hs3' Hs4' Hs5' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2']; · iexists _; iapply (Entails.of_eq (pts_s2 (F := F) d L _)); iexact Hs2'
    isplitl [Hs3']; · iexists _; iapply (Entails.of_eq (pts_s3 (F := F) d L _)); iexact Hs3'
    isplitl [Hs4']; · iexists _; iapply (Entails.of_eq (pts_s4 (F := F) d L _)); iexact Hs4'
    isplitl [Hs5']; · iexists _; iapply (Entails.of_eq (pts_s5 (F := F) d L _)); iexact Hs5'
    iexact Hbufs
  isplitl [Hm6 Hm7 Hm8 Hm9 Hq0 Hq1 Hsems]
  · isplitl [Hm6]; · iexact Hm6
    isplitl [Hm7]; · iexact Hm7
    isplitl [Hm8]; · iexact Hm8
    isplitl [Hm9]; · iexact Hm9
    isplitl [Hq0]; · iexact Hq0
    isplitl [Hq1]; · iexact Hq1
    iexact Hsems
  iexists _; isplitr
  rotate_left
  · iexact HO
  · ipureintro
    iterate 34 (refine (Finset.forall_mem_insert _ _ _).2 ⟨?_, ?_⟩; exact Or.inr rfl)
    exact fun p hp => Or.inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task meets the launch's obligation: handed its shares and its run, it hands the run back at the
    specification. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.GatherK

end
-- ==== Proof.lean ====
/-
  The claim. The kernel's thirty-two vector subcores each copy their run of the index vector and, chunk by chunk, two
  blocks of the table reshaped into blocks of eight rows, and pick from every row the entry its index word names; the
  reference multiplies every row by the indicator of that column and sums the row. Both end with the result holding,
  at row j, the table's entry (j, index j) — the function `Spec.gatherRow` of the two arguments — whenever every index
  word is below the row length, which the precondition's integer half says. The kernel's run is proved once for any
  float instance (the body of one subcore, then the launch of all of them); read at the word-level instance and at the
  ideal one it gives the two frames, and at the ideal one, beside the reference's run, the equality of results. The
  idealization rewrote nothing, so there is nothing to preserve.
-/
import proofs.«207825_g30013231464886_cont_9to1_638_26_alg».proof.Defs
import proofs.«207825_g30013231464886_cont_9to1_638_26_alg».proof.Proof.Gen.Kernel
import proofs.«207825_g30013231464886_cont_9to1_638_26_alg».proof.Proof.Gen.Kernel.Skeleton
import proofs.«207825_g30013231464886_cont_9to1_638_26_alg».proof.Proof.Gen.KernelIdeal
import proofs.«207825_g30013231464886_cont_9to1_638_26_alg».proof.Proof.Gen.KernelIdeal.Skeleton
import proofs.«207825_g30013231464886_cont_9to1_638_26_alg».proof.Proof.Gen.ReferenceIdeal
import proofs.«207825_g30013231464886_cont_9to1_638_26_alg».proof.Proof.Gen.Pre_input_domain
import proofs.«207825_g30013231464886_cont_9to1_638_26_alg».proof.Proof.RefValue
import proofs.«207825_g30013231464886_cont_9to1_638_26_alg».proof.Proof.LaunchI
import proofs.«207825_g30013231464886_cont_9to1_638_26_alg».proof.Proof.BodyI
import proofs.«207825_g30013231464886_cont_9to1_638_26_alg».proof.Proof.LaunchK
import proofs.«207825_g30013231464886_cont_9to1_638_26_alg».proof.Proof.BodyK
import Idealize.ShloMosaic.Adequacy
import Idealize.ShloMosaic.Init

noncomputable section

namespace Cert.Proof

open Idealize.ShloMosaic Idealize.SL.Sem

/-- The precondition gives what the kernel's run asks: every index word names a column. -/
theorem preOK_K (m : (ℓ : Loc Cert.Kernel.nD Cert.Kernel.τ Cert.Kernel.sig) → Buf (Elt Bits) ℓ) (h : Cert.Pre_Kernel m) : GatherK.PreOK (F := Bits) m :=
  fun d j => RefSide.idx_lt_of_pre _ _ (h d) j
theorem preOK_I (m : (ℓ : Loc Cert.KernelIdeal.nD Cert.KernelIdeal.τ Cert.KernelIdeal.sig) → Buf (Elt Ideal) ℓ) (h : Cert.Pre_KernelIdeal m) : GatherI.PreOK (F := Ideal) m :=
  fun d j => RefSide.idx_lt_of_pre _ _ (h d) j

/-- The kernel's run at the word-level instance, the result's value dropped. -/
theorem frame_k : Cert.frame_Kernel := fun m ρ hpre =>
  (θ_run Cert.Kernel.defs _ _).mono (fun _ h c => (h c).2)
    (GatherK.run_main (F := Bits) m ρ (GatherK.tileObl m GatherK.facts (preOK_K m hpre)))

/-- The same at the ideal instance. -/
theorem frame_ki : Cert.frame_KernelIdeal := fun m ρ hpre =>
  (θ_run Cert.KernelIdeal.defs _ _).mono (fun _ h c => (h c).2)
    (GatherI.run_main (F := Ideal) m ρ (GatherI.tileObl m GatherI.facts (preOK_I m hpre)))

theorem preserves : Cert.preserves_Kernel_KernelIdeal := trivial

/-- Both idealized programs end at `Spec.gatherRow` of arguments that agree. -/
theorem algebraic : Cert.algebraic_KernelIdeal_ReferenceIdeal := by
  intro m ρ m' ρ' hpre hagree
  have hpre' : Cert.Pre_ReferenceIdeal m' := fun c =>
    (congrArg₂ (Cert.Pre_input_domain.fn (F := Ideal)) (hagree c).1 (hagree c).2).trans (hpre c)
  refine ⟨fun c => GatherI.Gout m c,
    (θ_run Cert.KernelIdeal.defs _ _).mono (fun _ h c => h c)
      (GatherI.run_main (F := Ideal) m ρ (GatherI.tileObl m GatherI.facts (preOK_I m hpre))), ?_⟩
  refine (θ_run Cert.ReferenceIdeal.defs _ _).mono (fun _ h c => ⟨(h c).1.trans ?_, (h c).2⟩) (RefSide.ref_run m' ρ' hpre')
  rw [(hagree c).1, (hagree c).2]
  rfl

theorem claim : Cert.Claim :=
  ⟨Cert.Kernel.Gen.facts, Cert.KernelIdeal.Gen.facts, Cert.ReferenceIdeal.Gen.facts, Cert.Pre_input_domain.Gen.facts,
    frame_k, frame_ki, RefSide.frame_ri, preserves, algebraic⟩

end Cert.Proof

end
